-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg20 : FVec F S128x128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg16 : FVec F S128x128 .f32) (main_arg17 : FVec F S128 .f32) (main_arg18 : FVec F S128x128 .f32) (main_arg19 : FVec F S128 .f32) (main_arg20 : FVec F S128x128 .f32) (main_arg21 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x384 : Shape := ⟨2, ![1, 384]⟩
abbrev S128x384 : Shape := ⟨2, ![128, 384]⟩
abbrev S5000x128 : Shape := ⟨2, ![5000, 128]⟩
abbrev S5000x384 : Shape := ⟨2, ![5000, 384]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S4000x256 : Shape := ⟨2, ![4000, 256]⟩
abbrev S4000x128 : Shape := ⟨2, ![4000, 128]⟩

abbrev nBuf : Space → Nat
  | .hbm => 74
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S384x128, .f32⟩
  | .hbm, ⟨23, _⟩ => ⟨S384, .f32⟩
  | .hbm, ⟨24, _⟩ => ⟨S1x384, .f32⟩
  | .hbm, ⟨25, _⟩ => ⟨S128x384, .f32⟩
  | .hbm, ⟨26, _⟩ => ⟨S128x384, .bf16⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S128x128, .f32⟩
  | .hbm, ⟨50, _⟩ => ⟨S128x128, .bf16⟩
  | .hbm, ⟨51, _⟩ => ⟨S1x128, .f32⟩
  | .hbm, ⟨52, _⟩ => ⟨S128x128, .f32⟩
  | .hbm, ⟨53, _⟩ => ⟨S128x128, .bf16⟩
  | .hbm, ⟨54, _⟩ => ⟨S1x128, .f32⟩
  | .hbm, ⟨55, _⟩ => ⟨S128x128, .f32⟩
  | .hbm, ⟨56, _⟩ => ⟨S128x128, .bf16⟩
  | .hbm, ⟨57, _⟩ => ⟨S1x128, .f32⟩
  | .hbm, ⟨58, _⟩ => ⟨S800000x128, .bf16⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S128x128, .f32⟩
  | .hbm, ⟨65, _⟩ => ⟨S128x128, .bf16⟩
  | .hbm, ⟨66, _⟩ => ⟨S1x128, .f32⟩
  | .hbm, ⟨67, _⟩ => ⟨S128x128, .f32⟩
  | .hbm, ⟨68, _⟩ => ⟨S128x128, .bf16⟩
  | .hbm, ⟨69, _⟩ => ⟨S1x128, .f32⟩
  | .hbm, ⟨70, _⟩ => ⟨S128x128, .f32⟩
  | .hbm, ⟨71, _⟩ => ⟨S128x128, .bf16⟩
  | .hbm, ⟨72, _⟩ => ⟨S1x128, .f32⟩
  | .hbm, ⟨73, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .bf16⟩
  | .local _ .vmem, ⟨3, _⟩ => ⟨S1x384, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S4000x256, .f32⟩
  | .local _ .vmem, ⟨11, _⟩ => ⟨S4000x256, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S4000x128, .bf16⟩
  | .local _ .vmem, ⟨23, _⟩ => ⟨S4000x128, .bf16⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .bf16⟩
  | .local _ .vmem, ⟨29, _⟩ => ⟨S1x128, .f32⟩
  | .local _ .vmem, ⟨30, _⟩ => ⟨S128x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5_0 : Ref sig .tc := ⟨.hbm, 27, rfl⟩
abbrev main_v5_1 : Ref sig .tc := ⟨.hbm, 28, rfl⟩
abbrev main_v5_2 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_v8 : Ref sig .tc := ⟨.hbm, 33, rfl⟩
abbrev main_c_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S128x128_S128x128_S128x128_S384x128_d0 : Shape.Concatenates [S128x128, S128x128, S128x128] S384x128 0
  concatenates_S128_S128_S128_S384_d0 : Shape.Concatenates [S128, S128, S128] S384 0
  shapeCasts_S384_S1x384 : S384.ShapeCasts S1x384
  transposes_S384x128_S128x384_1_0 : S384x128.Transposes [1, 0] S128x384
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  concatenates_S50000x128_S50000x128_S50000x256_d1 : Shape.Concatenates [S50000x128, S50000x128] S50000x256 1
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x128 : S4000x256.Slices ![0, 0] S4000x128
  slices_S4000x256_o0_128_S4000x128 : S4000x256.Slices ![0, 128] S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x384_S5000x384_1_0_0_1_n_n_wf : DotDims.WF S5000x128 S128x384 S5000x384 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S800000x256.size a
  hwx1_0 : ∀ i : grid1.Coords, EltTy.bits .f32 = 32 ∨ (Rect.block (s := S800000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S800000x128.size a
  hwx1_9 : ∀ i : grid1.Coords, EltTy.bits .bf16 = 32 ∨ (Rect.block (s := S800000x128) S4000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v5_2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S128x128, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S128x128, .f32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S128x128, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S128x128, .f32⟩
  | .hbm, ⟨64, _⟩ => ⟨S800000x128, .f32⟩
  | .hbm, ⟨65, _⟩ => ⟨S1x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S128x128, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S128x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S128x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call0_cst : Ref sig .tc := ⟨.hbm, 52, rfl⟩
abbrev main_call0_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call1_cst : Ref sig .tc := ⟨.hbm, 60, rfl⟩
abbrev main_call1_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call2_cst : Ref sig .tc := ⟨.hbm, 68, rfl⟩
abbrev main_call2_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_cst : Ref sig .tc := ⟨.hbm, 92, rfl⟩
abbrev main_call3_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call4_cst : Ref sig .tc := ⟨.hbm, 100, rfl⟩
abbrev main_call4_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KData.lean ====
/-
  The three tiled calls of the program, each seen from the arrays it finds on entry: the block of every operand at a
  grid point, what the call's body leaves in each result's staging buffer as a function of the operand blocks (one whole
  store per result, so the buffer is the stored value), and the per-call bookkeeping the launch rules ask for (operands
  left as found, results at the stored value, nothing owed, full shares).
-/
import proofs.«137344_j32736240730704_2_alg».proof.Proof.Gen.Kernel.Launch
import proofs.«137344_j32736240730704_2_alg».proof.Proof.Gen.Kernel.Skeleton
import proofs.«137344_j32736240730704_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The TensorCore's buffer contents when a call is entered: every call's half is stated at this parameter.
variable (V : (c : Dev nD) → (b : Ref sig .tc) → Buf (Elt F) ((c : Thread nD τ).loc b))

/-! ## The whole-buffer rectangles the bodies load and store through -/

abbrev rS5000x128 : Rect S5000x128 := Rect.unit (s := S5000x128) ![0, 0] S5000x128.size inb_S5000x128_S5000x128_0_0
abbrev rS128x384 : Rect S128x384 := Rect.unit (s := S128x384) ![0, 0] S128x384.size inb_S128x384_S128x384_0_0
abbrev rS1x384 : Rect S1x384 := Rect.unit (s := S1x384) ![0, 0] S1x384.size inb_S1x384_S1x384_0_0
abbrev rS4000x256 : Rect S4000x256 := Rect.unit (s := S4000x256) ![0, 0] S4000x256.size inb_S4000x256_S4000x256_0_0
abbrev rS4000x128 : Rect S4000x128 := Rect.unit (s := S4000x128) ![0, 0] S4000x128.size inb_S4000x128_S4000x128_0_0
abbrev rS128x128 : Rect S128x128 := Rect.unit (s := S128x128) ![0, 0] S128x128.size inb_S128x128_S128x128_0_0
abbrev rS1x128 : Rect S1x128 := Rect.unit (s := S1x128) ![0, 0] S1x128.size inb_S1x128_S1x128_0_0

/-! ## Call 0 -/

/-- Operand or result `w`'s block at grid point `t`, read off its array as call 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What call 0's body leaves in result window 3's staging buffer, from the operand blocks: its one store. -/
def out0_3 (x0 : Vec F S5000x128 .f32) (x1 : Vec F S128x384 .bf16) (x2 : Vec F S1x384 .f32) : Vec F S5000x128 .f32 :=
  View.canon [⟨rS5000x128, k0_pay2 (View.ld x0 rS5000x128) (View.ld x1 rS128x384) (View.ld x2 rS1x384)⟩]

/-- What call 0's body leaves in result window 4's staging buffer, from the operand blocks: its one store. -/
def out0_4 (x0 : Vec F S5000x128 .f32) (x1 : Vec F S128x384 .bf16) (x2 : Vec F S1x384 .f32) : Vec F S5000x128 .f32 :=
  View.canon [⟨rS5000x128, k0_pay3 (View.ld x0 rS5000x128) (View.ld x1 rS128x384) (View.ld x2 rS1x384)⟩]

/-- What call 0's body leaves in result window 5's staging buffer, from the operand blocks: its one store. -/
def out0_5 (x0 : Vec F S5000x128 .f32) (x1 : Vec F S128x384 .bf16) (x2 : Vec F S1x384 .f32) : Vec F S5000x128 .f32 :=
  View.canon [⟨rS5000x128, k0_pay4 (View.ld x0 rS5000x128) (View.ld x1 rS128x384) (View.ld x2 rS1x384)⟩]

/-- Call 0's bookkeeping on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Call 1 -/

/-- Operand or result `w`'s block at grid point `t`, read off its array as call 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What call 1's body leaves in result window 9's staging buffer, from the operand blocks: its one store. -/
def out1_9 (x0 : Vec F S4000x256 .f32) (x1 : Vec F S4000x128 .f32) (x2 : Vec F S4000x128 .f32) (x3 : Vec F S128x128 .bf16) (x4 : Vec F S1x128 .f32) (x5 : Vec F S128x128 .bf16) (x6 : Vec F S1x128 .f32) (x7 : Vec F S128x128 .bf16) (x8 : Vec F S1x128 .f32) : Vec F S4000x128 .bf16 :=
  View.canon [⟨rS4000x128, k1_pay1 (k1_pay3 (View.ld x0 rS4000x256)) (k1_pay4 (View.ld x0 rS4000x256) (View.ld x2 rS4000x128) (View.ld x1 rS4000x128) (View.ld x3 rS128x128) (View.ld x4 rS1x128) (View.ld x5 rS128x128) (View.ld x6 rS1x128) (View.ld x7 rS128x128)) (View.ld x8 rS1x128)⟩]

/-- Call 1's bookkeeping on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! ## Call 2 -/

/-- Operand or result `w`'s block at grid point `t`, read off its array as call 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What call 2's body leaves in result window 8's staging buffer, from the operand blocks: its one store. -/
def out2_8 (x0 : Vec F S5000x128 .f32) (x1 : Vec F S5000x128 .f32) (x2 : Vec F S128x128 .bf16) (x3 : Vec F S1x128 .f32) (x4 : Vec F S128x128 .bf16) (x5 : Vec F S1x128 .f32) (x6 : Vec F S128x128 .bf16) (x7 : Vec F S1x128 .f32) : Vec F S5000x128 .f32 :=
  View.canon [⟨rS5000x128, k2_pay1 (View.ld x1 rS5000x128) (View.ld x2 rS128x128) (View.ld x3 rS1x128) (View.ld x0 rS5000x128) (View.ld x4 rS128x128) (View.ld x5 rS1x128) (View.ld x6 rS128x128) (View.ld x7 rS1x128)⟩]

/-- Call 2's bookkeeping on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

end Cert.Kernel.Hand

end
-- ==== Proof.KFold.lean ====
/-
  The buffer contents between the program's items, folded from the launch memory: after a stretch of host operations
  the operations' results; after a tiled call its arrays at what the call's write-backs leave (operands as entered,
  each result's blocks written back), every other buffer as entered.
-/
import proofs.«137344_j32736240730704_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the host stretch before call 0 (call 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At call 0's exit: its arrays at what its pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before call 1 (call 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At call 1's exit: its arrays at what its pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before call 2 (call 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At call 2's exit: its arrays at what its pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.Kernel.Hand

end
-- ==== Proof.KBody0.lean ====
/-
  Call 0's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Operand 1's current staging buffer holds its block at every grid point: at a point that fetches it, the
    fetched block; at any other, the block index is the previous point's and the body left the buffer alone. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Operand 2's current staging buffer holds its block at every grid point: at a point that fetches it, the
    fetched block; at any other, the block index is the previous point's and the body left the buffer alone. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## A whole write covers its buffer -/

/-- The one rectangle result window 3's store writes through is the whole buffer, so every index lies in it. -/
theorem storeCover0_3 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-- The one rectangle result window 4's store writes through is the whole buffer, so every index lies in it. -/
theorem storeCover0_4 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-- The one rectangle result window 5's store writes through is the whole buffer, so every index lies in it. -/
theorem storeCover0_5 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel0 (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S1x384 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S128x384 .bf16) (x2 : Vec F S1x384 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover0_3 _)
  isplitl [H4]
  · iexists _; isplitr
    swap; · iexact H4
    ipureintro
    exact View.read_writes_eq_canon _ _ _ (storeCover0_4 _)
  iexists _; isplitr
  swap; · iexact H5
  ipureintro
  exact View.read_writes_eq_canon _ _ _ (storeCover0_5 _)

/-! ## The obligation at a grid point -/

/-- What the body is entered with at point `t`: the call's invariant, what the core owes, and every window's current
    staging buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same invariant and debts, every window's buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the operands' buffers hold their blocks, so the triple applies at those blocks; the
    invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every grid point, in the form the launch rule takes. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Call 1's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Operand 1's current staging buffer holds its block at every grid point: at a point that fetches it, the
    fetched block; at any other, the block index is the previous point's and the body left the buffer alone. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Operand 2's current staging buffer holds its block at every grid point: at a point that fetches it, the
    fetched block; at any other, the block index is the previous point's and the body left the buffer alone. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Operand 3's current staging buffer holds its block at every grid point: at a point that fetches it, the
    fetched block; at any other, the block index is the previous point's and the body left the buffer alone. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Operand 4's current staging buffer holds its block at every grid point: at a point that fetches it, the
    fetched block; at any other, the block index is the previous point's and the body left the buffer alone. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Operand 5's current staging buffer holds its block at every grid point: at a point that fetches it, the
    fetched block; at any other, the block index is the previous point's and the body left the buffer alone. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Operand 6's current staging buffer holds its block at every grid point: at a point that fetches it, the
    fetched block; at any other, the block index is the previous point's and the body left the buffer alone. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Operand 7's current staging buffer holds its block at every grid point: at a point that fetches it, the
    fetched block; at any other, the block index is the previous point's and the body left the buffer alone. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- Operand 8's current staging buffer holds its block at every grid point: at a point that fetches it, the
    fetched block; at any other, the block index is the previous point's and the body left the buffer alone. -/
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-! ## A whole write covers its buffer -/

/-- The one rectangle result window 9's store writes through is the whole buffer, so every index lies in it. -/
theorem storeCover1_9 (p0 : Vec F S4000x128 .bf16) (y : S4000x128.Idx) :
    ∃ pc ∈ ([⟨rS4000x128, p0⟩] : List (View.Piece (Elt F) S4000x128 .bf16)), y ∈ pc.1.set :=
  View.cover_of_tiled [⟨rS4000x128, p0⟩] S4000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel1 (c : Dev nD) (E : Set ℕ) (i : grid1.Coords) (arg1 : Memref sig .tc .vmem S4000x256 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S4000x128 .bf16) (harg10 : arg10.IsWhole)
    (x0 : Vec F S4000x256 .f32) (x1 : Vec F S4000x128 .f32) (x2 : Vec F S4000x128 .f32) (x3 : Vec F S128x128 .bf16) (x4 : Vec F S1x128 .f32) (x5 : Vec F S128x128 .bf16) (x6 : Vec F S1x128 .f32) (x7 : Vec F S128x128 .bf16) (x8 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9 arg10 harg10) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (storeCover1_9 _)

/-! ## The obligation at a grid point -/

/-- What the body is entered with at point `t`: the call's invariant, what the core owes, and every window's current
    staging buffer at what the point finds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same invariant and debts, every window's buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the operands' buffers hold their blocks, so the triple applies at those blocks; the
    invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every grid point, in the form the launch rule takes. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Call 2's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Operand 1's current staging buffer holds its block at every grid point: at a point that fetches it, the
    fetched block; at any other, the block index is the previous point's and the body left the buffer alone. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Operand 2's current staging buffer holds its block at every grid point: at a point that fetches it, the
    fetched block; at any other, the block index is the previous point's and the body left the buffer alone. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Operand 3's current staging buffer holds its block at every grid point: at a point that fetches it, the
    fetched block; at any other, the block index is the previous point's and the body left the buffer alone. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- Operand 4's current staging buffer holds its block at every grid point: at a point that fetches it, the
    fetched block; at any other, the block index is the previous point's and the body left the buffer alone. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- Operand 5's current staging buffer holds its block at every grid point: at a point that fetches it, the
    fetched block; at any other, the block index is the previous point's and the body left the buffer alone. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- Operand 6's current staging buffer holds its block at every grid point: at a point that fetches it, the
    fetched block; at any other, the block index is the previous point's and the body left the buffer alone. -/
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- Operand 7's current staging buffer holds its block at every grid point: at a point that fetches it, the
    fetched block; at any other, the block index is the previous point's and the body left the buffer alone. -/
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-! ## A whole write covers its buffer -/

/-- The one rectangle result window 8's store writes through is the whole buffer, so every index lies in it. -/
theorem storeCover2_8 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S5000x128 .f32) (x2 : Vec F S128x128 .bf16) (x3 : Vec F S1x128 .f32) (x4 : Vec F S128x128 .bf16) (x5 : Vec F S1x128 .f32) (x6 : Vec F S128x128 .bf16) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8 arg9 harg9) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (storeCover2_8 _)

/-! ## The obligation at a grid point -/

/-- What the body is entered with at point `t`: the call's invariant, what the core owes, and every window's current
    staging buffer at what the point finds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- What it returns: the same invariant and debts, every window's buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the operands' buffers hold their blocks, so the triple applies at those blocks; the
    invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every grid point, in the form the launch rule takes. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as a run: its host stretches and its three tiled calls in order, each entered from the buffer
  contents the item before it left (the fold W0 … W6). Every weakly fair execution terminates without a fault, and
  at the end every buffer that outlives the calls holds the fold's last contents — so each argument array is as
  launched (no host operation writes one, no call writes one back) and the result array holds what the third call's
  write-backs leave.
-/
import proofs.«137344_j32736240730704_2_alg».proof.Proof.KFold
import proofs.«137344_j32736240730704_2_alg».proof.Proof.KBody0
import proofs.«137344_j32736240730704_2_alg».proof.Proof.KBody1
import proofs.«137344_j32736240730704_2_alg».proof.Proof.KBody2
import proofs.«137344_j32736240730704_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A buffer no host stretch writes and no call stages as a result is, at the end, what it was at launch; an operand
    a call stages is handed back as it was found. -/
theorem W1_untouched (c : Dev nD) (r : Ref sig .tc) (h : r ∉ hostOps0_W) : W1 m c (Proc.devRef .tc r) = W0 m c (Proc.devRef .tc r) :=
  StableHlo.after_of_writes_sub hostOps0 _ hostOps0_writes h
theorem W3_untouched (c : Dev nD) (r : Ref sig .tc) (h : r ∉ hostOps1_W) : W3 m c (Proc.devRef .tc r) = W2 m c (Proc.devRef .tc r) :=
  StableHlo.after_of_writes_sub hostOps1 _ hostOps1_writes h
theorem W5_untouched (c : Dev nD) (r : Ref sig .tc) (h : r ∉ hostOps2_W) : W5 m c (Proc.devRef .tc r) = W4 m c (Proc.devRef .tc r) :=
  StableHlo.after_of_writes_sub hostOps2 _ hostOps2_writes h

/-- The first call hands its operand `main_arg0` back as found. -/
theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))
/-- The second call hands its operand `main_arg1` back as found. -/
theorem W4_main_arg1 (c : Dev nD) : W4 m c (Proc.devRef .tc main_arg1) = W3 m c (Proc.devRef .tc main_arg1) :=
  (W4_arr m c 2).trans (((dat1 (V3 m) c).arrAt_in 2 rfl _).trans (A_eq1 (V3 m) c 2))

theorem W6_main_arg0 (c : Dev nD) : W6 m c (Proc.devRef .tc main_arg0) = m ((c : Thread nD τ).loc main_arg0) :=
  (W6_of_ne m c main_arg0 (by decide)).trans <| (W5_untouched m c main_arg0 (by decide)).trans <| (W4_of_ne m c main_arg0 (by decide)).trans <|
    (W3_untouched m c main_arg0 (by decide)).trans <| (W2_main_arg0 m c).trans <| (W1_untouched m c main_arg0 (by decide)).trans rfl
theorem W6_main_arg1 (c : Dev nD) : W6 m c (Proc.devRef .tc main_arg1) = m ((c : Thread nD τ).loc main_arg1) :=
  (W6_of_ne m c main_arg1 (by decide)).trans <| (W5_untouched m c main_arg1 (by decide)).trans <| (W4_main_arg1 m c).trans <|
    (W3_untouched m c main_arg1 (by decide)).trans <| (W2_of_ne m c main_arg1 (by decide)).trans <| (W1_untouched m c main_arg1 (by decide)).trans rfl
theorem W6_main_arg2 (c : Dev nD) : W6 m c (Proc.devRef .tc main_arg2) = m ((c : Thread nD τ).loc main_arg2) :=
  (W6_of_ne m c main_arg2 (by decide)).trans <| (W5_untouched m c main_arg2 (by decide)).trans <| (W4_of_ne m c main_arg2 (by decide)).trans <|
    (W3_untouched m c main_arg2 (by decide)).trans <| (W2_of_ne m c main_arg2 (by decide)).trans <| (W1_untouched m c main_arg2 (by decide)).trans rfl
theorem W6_main_arg3 (c : Dev nD) : W6 m c (Proc.devRef .tc main_arg3) = m ((c : Thread nD τ).loc main_arg3) :=
  (W6_of_ne m c main_arg3 (by decide)).trans <| (W5_untouched m c main_arg3 (by decide)).trans <| (W4_of_ne m c main_arg3 (by decide)).trans <|
    (W3_untouched m c main_arg3 (by decide)).trans <| (W2_of_ne m c main_arg3 (by decide)).trans <| (W1_untouched m c main_arg3 (by decide)).trans rfl
theorem W6_main_arg4 (c : Dev nD) : W6 m c (Proc.devRef .tc main_arg4) = m ((c : Thread nD τ).loc main_arg4) :=
  (W6_of_ne m c main_arg4 (by decide)).trans <| (W5_untouched m c main_arg4 (by decide)).trans <| (W4_of_ne m c main_arg4 (by decide)).trans <|
    (W3_untouched m c main_arg4 (by decide)).trans <| (W2_of_ne m c main_arg4 (by decide)).trans <| (W1_untouched m c main_arg4 (by decide)).trans rfl
theorem W6_main_arg5 (c : Dev nD) : W6 m c (Proc.devRef .tc main_arg5) = m ((c : Thread nD τ).loc main_arg5) :=
  (W6_of_ne m c main_arg5 (by decide)).trans <| (W5_untouched m c main_arg5 (by decide)).trans <| (W4_of_ne m c main_arg5 (by decide)).trans <|
    (W3_untouched m c main_arg5 (by decide)).trans <| (W2_of_ne m c main_arg5 (by decide)).trans <| (W1_untouched m c main_arg5 (by decide)).trans rfl
theorem W6_main_arg6 (c : Dev nD) : W6 m c (Proc.devRef .tc main_arg6) = m ((c : Thread nD τ).loc main_arg6) :=
  (W6_of_ne m c main_arg6 (by decide)).trans <| (W5_untouched m c main_arg6 (by decide)).trans <| (W4_of_ne m c main_arg6 (by decide)).trans <|
    (W3_untouched m c main_arg6 (by decide)).trans <| (W2_of_ne m c main_arg6 (by decide)).trans <| (W1_untouched m c main_arg6 (by decide)).trans rfl
theorem W6_main_arg7 (c : Dev nD) : W6 m c (Proc.devRef .tc main_arg7) = m ((c : Thread nD τ).loc main_arg7) :=
  (W6_of_ne m c main_arg7 (by decide)).trans <| (W5_untouched m c main_arg7 (by decide)).trans <| (W4_of_ne m c main_arg7 (by decide)).trans <|
    (W3_untouched m c main_arg7 (by decide)).trans <| (W2_of_ne m c main_arg7 (by decide)).trans <| (W1_untouched m c main_arg7 (by decide)).trans rfl
theorem W6_main_arg8 (c : Dev nD) : W6 m c (Proc.devRef .tc main_arg8) = m ((c : Thread nD τ).loc main_arg8) :=
  (W6_of_ne m c main_arg8 (by decide)).trans <| (W5_untouched m c main_arg8 (by decide)).trans <| (W4_of_ne m c main_arg8 (by decide)).trans <|
    (W3_untouched m c main_arg8 (by decide)).trans <| (W2_of_ne m c main_arg8 (by decide)).trans <| (W1_untouched m c main_arg8 (by decide)).trans rfl
theorem W6_main_arg9 (c : Dev nD) : W6 m c (Proc.devRef .tc main_arg9) = m ((c : Thread nD τ).loc main_arg9) :=
  (W6_of_ne m c main_arg9 (by decide)).trans <| (W5_untouched m c main_arg9 (by decide)).trans <| (W4_of_ne m c main_arg9 (by decide)).trans <|
    (W3_untouched m c main_arg9 (by decide)).trans <| (W2_of_ne m c main_arg9 (by decide)).trans <| (W1_untouched m c main_arg9 (by decide)).trans rfl
theorem W6_main_arg10 (c : Dev nD) : W6 m c (Proc.devRef .tc main_arg10) = m ((c : Thread nD τ).loc main_arg10) :=
  (W6_of_ne m c main_arg10 (by decide)).trans <| (W5_untouched m c main_arg10 (by decide)).trans <| (W4_of_ne m c main_arg10 (by decide)).trans <|
    (W3_untouched m c main_arg10 (by decide)).trans <| (W2_of_ne m c main_arg10 (by decide)).trans <| (W1_untouched m c main_arg10 (by decide)).trans rfl
theorem W6_main_arg11 (c : Dev nD) : W6 m c (Proc.devRef .tc main_arg11) = m ((c : Thread nD τ).loc main_arg11) :=
  (W6_of_ne m c main_arg11 (by decide)).trans <| (W5_untouched m c main_arg11 (by decide)).trans <| (W4_of_ne m c main_arg11 (by decide)).trans <|
    (W3_untouched m c main_arg11 (by decide)).trans <| (W2_of_ne m c main_arg11 (by decide)).trans <| (W1_untouched m c main_arg11 (by decide)).trans rfl
theorem W6_main_arg12 (c : Dev nD) : W6 m c (Proc.devRef .tc main_arg12) = m ((c : Thread nD τ).loc main_arg12) :=
  (W6_of_ne m c main_arg12 (by decide)).trans <| (W5_untouched m c main_arg12 (by decide)).trans <| (W4_of_ne m c main_arg12 (by decide)).trans <|
    (W3_untouched m c main_arg12 (by decide)).trans <| (W2_of_ne m c main_arg12 (by decide)).trans <| (W1_untouched m c main_arg12 (by decide)).trans rfl
theorem W6_main_arg13 (c : Dev nD) : W6 m c (Proc.devRef .tc main_arg13) = m ((c : Thread nD τ).loc main_arg13) :=
  (W6_of_ne m c main_arg13 (by decide)).trans <| (W5_untouched m c main_arg13 (by decide)).trans <| (W4_of_ne m c main_arg13 (by decide)).trans <|
    (W3_untouched m c main_arg13 (by decide)).trans <| (W2_of_ne m c main_arg13 (by decide)).trans <| (W1_untouched m c main_arg13 (by decide)).trans rfl
theorem W6_main_arg14 (c : Dev nD) : W6 m c (Proc.devRef .tc main_arg14) = m ((c : Thread nD τ).loc main_arg14) :=
  (W6_of_ne m c main_arg14 (by decide)).trans <| (W5_untouched m c main_arg14 (by decide)).trans <| (W4_of_ne m c main_arg14 (by decide)).trans <|
    (W3_untouched m c main_arg14 (by decide)).trans <| (W2_of_ne m c main_arg14 (by decide)).trans <| (W1_untouched m c main_arg14 (by decide)).trans rfl
theorem W6_main_arg15 (c : Dev nD) : W6 m c (Proc.devRef .tc main_arg15) = m ((c : Thread nD τ).loc main_arg15) :=
  (W6_of_ne m c main_arg15 (by decide)).trans <| (W5_untouched m c main_arg15 (by decide)).trans <| (W4_of_ne m c main_arg15 (by decide)).trans <|
    (W3_untouched m c main_arg15 (by decide)).trans <| (W2_of_ne m c main_arg15 (by decide)).trans <| (W1_untouched m c main_arg15 (by decide)).trans rfl
theorem W6_main_arg16 (c : Dev nD) : W6 m c (Proc.devRef .tc main_arg16) = m ((c : Thread nD τ).loc main_arg16) :=
  (W6_of_ne m c main_arg16 (by decide)).trans <| (W5_untouched m c main_arg16 (by decide)).trans <| (W4_of_ne m c main_arg16 (by decide)).trans <|
    (W3_untouched m c main_arg16 (by decide)).trans <| (W2_of_ne m c main_arg16 (by decide)).trans <| (W1_untouched m c main_arg16 (by decide)).trans rfl
theorem W6_main_arg17 (c : Dev nD) : W6 m c (Proc.devRef .tc main_arg17) = m ((c : Thread nD τ).loc main_arg17) :=
  (W6_of_ne m c main_arg17 (by decide)).trans <| (W5_untouched m c main_arg17 (by decide)).trans <| (W4_of_ne m c main_arg17 (by decide)).trans <|
    (W3_untouched m c main_arg17 (by decide)).trans <| (W2_of_ne m c main_arg17 (by decide)).trans <| (W1_untouched m c main_arg17 (by decide)).trans rfl
theorem W6_main_arg18 (c : Dev nD) : W6 m c (Proc.devRef .tc main_arg18) = m ((c : Thread nD τ).loc main_arg18) :=
  (W6_of_ne m c main_arg18 (by decide)).trans <| (W5_untouched m c main_arg18 (by decide)).trans <| (W4_of_ne m c main_arg18 (by decide)).trans <|
    (W3_untouched m c main_arg18 (by decide)).trans <| (W2_of_ne m c main_arg18 (by decide)).trans <| (W1_untouched m c main_arg18 (by decide)).trans rfl
theorem W6_main_arg19 (c : Dev nD) : W6 m c (Proc.devRef .tc main_arg19) = m ((c : Thread nD τ).loc main_arg19) :=
  (W6_of_ne m c main_arg19 (by decide)).trans <| (W5_untouched m c main_arg19 (by decide)).trans <| (W4_of_ne m c main_arg19 (by decide)).trans <|
    (W3_untouched m c main_arg19 (by decide)).trans <| (W2_of_ne m c main_arg19 (by decide)).trans <| (W1_untouched m c main_arg19 (by decide)).trans rfl
theorem W6_main_arg20 (c : Dev nD) : W6 m c (Proc.devRef .tc main_arg20) = m ((c : Thread nD τ).loc main_arg20) :=
  (W6_of_ne m c main_arg20 (by decide)).trans <| (W5_untouched m c main_arg20 (by decide)).trans <| (W4_of_ne m c main_arg20 (by decide)).trans <|
    (W3_untouched m c main_arg20 (by decide)).trans <| (W2_of_ne m c main_arg20 (by decide)).trans <| (W1_untouched m c main_arg20 (by decide)).trans rfl
theorem W6_main_arg21 (c : Dev nD) : W6 m c (Proc.devRef .tc main_arg21) = m ((c : Thread nD τ).loc main_arg21) :=
  (W6_of_ne m c main_arg21 (by decide)).trans <| (W5_untouched m c main_arg21 (by decide)).trans <| (W4_of_ne m c main_arg21 (by decide)).trans <|
    (W3_untouched m c main_arg21 (by decide)).trans <| (W2_of_ne m c main_arg21 (by decide)).trans <| (W1_untouched m c main_arg21 (by decide)).trans rfl

/-- The result array at the end is what the third call's write-backs leave. -/
theorem W6_main_v44 (c : Dev nD) : W6 m c (Proc.devRef .tc main_v44) = (dat2 (V5 m) c).arrAt 8 cfg2.N :=
  W6_arr m c 8

/-! ## The bookkeeping family and the thread state -/

/-- No call has a prefetched table. -/
abbrev adm : (p : Fin 3) → (pcfgs (F := F) p).Adm := fun p => (cfgs p).toPCfg_adm
/-- Every call's bookkeeping, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, at nothing. -/
abbrev R (c : Dev nD) : sProp 𝕄 := iprop((∃ r, prngReg c r) ∗ ∃ W, owes (c : Thread nD τ) (0 : CellTallies nD τ sig Unit) W)
/-- A host stretch as an item: the buffers that outlive the calls go from contents `W` to the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore buffer that outlives the calls is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-! ## The tiled calls as items -/

set_option backward.isDefEq.respectTransparency.types false in
/-- Call 0 over the thread state: entered from the buffers at `W1`, left at `W2`. Its arrays are split out of the
    buffers and put back at the exit contents; the generator register goes into the call's invariant and comes back;
    nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from the buffers at `W3`, left at `W4`. Its arrays are split out of the
    buffers and put back at the exit contents; the generator register goes into the call's invariant and comes back;
    nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from the buffers at `W5`, left at `W6`. Its arrays are split out of the
    buffers and put back at the exit contents; the generator register goes into the call's invariant and comes back;
    nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- The printed program is the run of its items. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each buffer that outlives the calls holds the fold's last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c),
    (h c _ (mem_uc main_arg12 (by decide))).trans (W6_main_arg12 m c),
    (h c _ (mem_uc main_arg13 (by decide))).trans (W6_main_arg13 m c),
    (h c _ (mem_uc main_arg14 (by decide))).trans (W6_main_arg14 m c),
    (h c _ (mem_uc main_arg15 (by decide))).trans (W6_main_arg15 m c),
    (h c _ (mem_uc main_arg16 (by decide))).trans (W6_main_arg16 m c),
    (h c _ (mem_uc main_arg17 (by decide))).trans (W6_main_arg17 m c),
    (h c _ (mem_uc main_arg18 (by decide))).trans (W6_main_arg18 m c),
    (h c _ (mem_uc main_arg19 (by decide))).trans (W6_main_arg19 m c),
    (h c _ (mem_uc main_arg20 (by decide))).trans (W6_main_arg20 m c),
    (h c _ (mem_uc main_arg21 (by decide))).trans (W6_main_arg21 m c)⟩) (run_main m ρ)

/-- THE RESULT: the program runs to the end with the result array at what the third call's write-backs leave. -/
theorem run_result : θ_run defs (onTc (τ := τ) (main (F := F))) ⟨m, fun _ => 0, ρ⟩ (fun r => ∀ c : Dev nD,
      r.2.mem ((c.tc : Thread nD τ).loc main_v44) = (dat2 (V5 m) c).arrAt 8 cfg2.N) :=
  (θ_run defs _ _).mono (fun r h c => (h c _ (mem_uc main_v44 (by decide))).trans (W6_main_v44 m c)) (run_main m ρ)

end Cert.Kernel.Hand

end
-- ==== Proof.KIData.lean ====
/-
  The three tiled calls of the program, each seen from the arrays it finds on entry: the block of every operand at a
  grid point, what the call's body leaves in each result's staging buffer as a function of the operand blocks (one whole
  store per result, so the buffer is the stored value), and the per-call bookkeeping the launch rules ask for (operands
  left as found, results at the stored value, nothing owed, full shares).
-/
import proofs.«137344_j32736240730704_2_alg».proof.Proof.Gen.KernelIdeal.Launch
import proofs.«137344_j32736240730704_2_alg».proof.Proof.Gen.KernelIdeal.Skeleton
import proofs.«137344_j32736240730704_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The TensorCore's buffer contents when a call is entered: every call's half is stated at this parameter.
variable (V : (c : Dev nD) → (b : Ref sig .tc) → Buf (Elt F) ((c : Thread nD τ).loc b))

/-! ## The whole-buffer rectangles the bodies load and store through -/

abbrev rS5000x128 : Rect S5000x128 := Rect.unit (s := S5000x128) ![0, 0] S5000x128.size inb_S5000x128_S5000x128_0_0
abbrev rS128x384 : Rect S128x384 := Rect.unit (s := S128x384) ![0, 0] S128x384.size inb_S128x384_S128x384_0_0
abbrev rS1x384 : Rect S1x384 := Rect.unit (s := S1x384) ![0, 0] S1x384.size inb_S1x384_S1x384_0_0
abbrev rS4000x256 : Rect S4000x256 := Rect.unit (s := S4000x256) ![0, 0] S4000x256.size inb_S4000x256_S4000x256_0_0
abbrev rS4000x128 : Rect S4000x128 := Rect.unit (s := S4000x128) ![0, 0] S4000x128.size inb_S4000x128_S4000x128_0_0
abbrev rS128x128 : Rect S128x128 := Rect.unit (s := S128x128) ![0, 0] S128x128.size inb_S128x128_S128x128_0_0
abbrev rS1x128 : Rect S1x128 := Rect.unit (s := S1x128) ![0, 0] S1x128.size inb_S1x128_S1x128_0_0

/-! ## Call 0 -/

/-- Operand or result `w`'s block at grid point `t`, read off its array as call 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What call 0's body leaves in result window 3's staging buffer, from the operand blocks: its one store. -/
def out0_3 (x0 : Vec F S5000x128 .f32) (x1 : Vec F S128x384 .bf16) (x2 : Vec F S1x384 .f32) : Vec F S5000x128 .f32 :=
  View.canon [⟨rS5000x128, k0_pay2 (View.ld x0 rS5000x128) (View.ld x1 rS128x384) (View.ld x2 rS1x384)⟩]

/-- What call 0's body leaves in result window 4's staging buffer, from the operand blocks: its one store. -/
def out0_4 (x0 : Vec F S5000x128 .f32) (x1 : Vec F S128x384 .bf16) (x2 : Vec F S1x384 .f32) : Vec F S5000x128 .f32 :=
  View.canon [⟨rS5000x128, k0_pay3 (View.ld x0 rS5000x128) (View.ld x1 rS128x384) (View.ld x2 rS1x384)⟩]

/-- What call 0's body leaves in result window 5's staging buffer, from the operand blocks: its one store. -/
def out0_5 (x0 : Vec F S5000x128 .f32) (x1 : Vec F S128x384 .bf16) (x2 : Vec F S1x384 .f32) : Vec F S5000x128 .f32 :=
  View.canon [⟨rS5000x128, k0_pay4 (View.ld x0 rS5000x128) (View.ld x1 rS128x384) (View.ld x2 rS1x384)⟩]

/-- Call 0's bookkeeping on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Call 1 -/

/-- Operand or result `w`'s block at grid point `t`, read off its array as call 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What call 1's body leaves in result window 9's staging buffer, from the operand blocks: its one store. -/
def out1_9 (x0 : Vec F S4000x256 .f32) (x1 : Vec F S4000x128 .f32) (x2 : Vec F S4000x128 .f32) (x3 : Vec F S128x128 .bf16) (x4 : Vec F S1x128 .f32) (x5 : Vec F S128x128 .bf16) (x6 : Vec F S1x128 .f32) (x7 : Vec F S128x128 .bf16) (x8 : Vec F S1x128 .f32) : Vec F S4000x128 .bf16 :=
  View.canon [⟨rS4000x128, k1_pay1 (k1_pay3 (View.ld x0 rS4000x256)) (k1_pay4 (View.ld x0 rS4000x256) (View.ld x2 rS4000x128) (View.ld x1 rS4000x128) (View.ld x3 rS128x128) (View.ld x4 rS1x128) (View.ld x5 rS128x128) (View.ld x6 rS1x128) (View.ld x7 rS128x128)) (View.ld x8 rS1x128)⟩]

/-- Call 1's bookkeeping on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! ## Call 2 -/

/-- Operand or result `w`'s block at grid point `t`, read off its array as call 2 finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What call 2's body leaves in result window 8's staging buffer, from the operand blocks: its one store. -/
def out2_8 (x0 : Vec F S5000x128 .f32) (x1 : Vec F S5000x128 .f32) (x2 : Vec F S128x128 .bf16) (x3 : Vec F S1x128 .f32) (x4 : Vec F S128x128 .bf16) (x5 : Vec F S1x128 .f32) (x6 : Vec F S128x128 .bf16) (x7 : Vec F S1x128 .f32) : Vec F S5000x128 .f32 :=
  View.canon [⟨rS5000x128, k2_pay1 (View.ld x1 rS5000x128) (View.ld x2 rS128x128) (View.ld x3 rS1x128) (View.ld x0 rS5000x128) (View.ld x4 rS128x128) (View.ld x5 rS1x128) (View.ld x6 rS128x128) (View.ld x7 rS1x128)⟩]

/-- Call 2's bookkeeping on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

end Cert.KernelIdeal.Hand

end
-- ==== Proof.KIFold.lean ====
/-
  The buffer contents between the program's items, folded from the launch memory: after a stretch of host operations
  the operations' results; after a tiled call its arrays at what the call's write-backs leave (operands as entered,
  each result's blocks written back), every other buffer as entered.
-/
import proofs.«137344_j32736240730704_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- Core `c`'s buffers at launch. -/
abbrev W0 : Dev nD → Valuation τ sig (Elt F) := fun c b => m ((c : Dev nD), b)
/-- After the host stretch before call 0 (call 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At call 0's exit: its arrays at what its pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before call 1 (call 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At call 1's exit: its arrays at what its pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before call 2 (call 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At call 2's exit: its arrays at what its pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.KernelIdeal.Hand

end
-- ==== Proof.KIBody0.lean ====
/-
  Call 0's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Operand 1's current staging buffer holds its block at every grid point: at a point that fetches it, the
    fetched block; at any other, the block index is the previous point's and the body left the buffer alone. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Operand 2's current staging buffer holds its block at every grid point: at a point that fetches it, the
    fetched block; at any other, the block index is the previous point's and the body left the buffer alone. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## A whole write covers its buffer -/

/-- The one rectangle result window 3's store writes through is the whole buffer, so every index lies in it. -/
theorem storeCover0_3 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-- The one rectangle result window 4's store writes through is the whole buffer, so every index lies in it. -/
theorem storeCover0_4 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-- The one rectangle result window 5's store writes through is the whole buffer, so every index lies in it. -/
theorem storeCover0_5 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel0 (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S1x384 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S128x384 .bf16) (x2 : Vec F S1x384 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__node_proj_kernel i arg1 harg1 arg2 harg2 arg3 harg3 arg4 harg4 arg5 harg5 arg6 harg6) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (storeCover0_3 _)
  isplitl [H4]
  · iexists _; isplitr
    swap; · iexact H4
    ipureintro
    exact View.read_writes_eq_canon _ _ _ (storeCover0_4 _)
  iexists _; isplitr
  swap; · iexact H5
  ipureintro
  exact View.read_writes_eq_canon _ _ _ (storeCover0_5 _)

/-! ## The obligation at a grid point -/

/-- What the body is entered with at point `t`: the call's invariant, what the core owes, and every window's current
    staging buffer at what the point finds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns: the same invariant and debts, every window's buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the operands' buffers hold their blocks, so the triple applies at those blocks; the
    invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every grid point, in the form the launch rule takes. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Call 1's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Operand 1's current staging buffer holds its block at every grid point: at a point that fetches it, the
    fetched block; at any other, the block index is the previous point's and the body left the buffer alone. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Operand 2's current staging buffer holds its block at every grid point: at a point that fetches it, the
    fetched block; at any other, the block index is the previous point's and the body left the buffer alone. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Operand 3's current staging buffer holds its block at every grid point: at a point that fetches it, the
    fetched block; at any other, the block index is the previous point's and the body left the buffer alone. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Operand 4's current staging buffer holds its block at every grid point: at a point that fetches it, the
    fetched block; at any other, the block index is the previous point's and the body left the buffer alone. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Operand 5's current staging buffer holds its block at every grid point: at a point that fetches it, the
    fetched block; at any other, the block index is the previous point's and the body left the buffer alone. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Operand 6's current staging buffer holds its block at every grid point: at a point that fetches it, the
    fetched block; at any other, the block index is the previous point's and the body left the buffer alone. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Operand 7's current staging buffer holds its block at every grid point: at a point that fetches it, the
    fetched block; at any other, the block index is the previous point's and the body left the buffer alone. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- Operand 8's current staging buffer holds its block at every grid point: at a point that fetches it, the
    fetched block; at any other, the block index is the previous point's and the body left the buffer alone. -/
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)

/-! ## A whole write covers its buffer -/

/-- The one rectangle result window 9's store writes through is the whole buffer, so every index lies in it. -/
theorem storeCover1_9 (p0 : Vec F S4000x128 .bf16) (y : S4000x128.Idx) :
    ∃ pc ∈ ([⟨rS4000x128, p0⟩] : List (View.Piece (Elt F) S4000x128 .bf16)), y ∈ pc.1.set :=
  View.cover_of_tiled [⟨rS4000x128, p0⟩] S4000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel1 (c : Dev nD) (E : Set ℕ) (i : grid1.Coords) (arg1 : Memref sig .tc .vmem S4000x256 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S4000x128 .bf16) (harg10 : arg10.IsWhole)
    (x0 : Vec F S4000x256 .f32) (x1 : Vec F S4000x128 .f32) (x2 : Vec F S4000x128 .f32) (x3 : Vec F S128x128 .bf16) (x4 : Vec F S1x128 .f32) (x5 : Vec F S128x128 .bf16) (x6 : Vec F S1x128 .f32) (x7 : Vec F S128x128 .bf16) (x8 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9 arg10 harg10) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (storeCover1_9 _)

/-! ## The obligation at a grid point -/

/-- What the body is entered with at point `t`: the call's invariant, what the core owes, and every window's current
    staging buffer at what the point finds there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same invariant and debts, every window's buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the operands' buffers hold their blocks, so the triple applies at those blocks; the
    invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every grid point, in the form the launch rule takes. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  Call 2's body at a grid point. Each operand's current staging buffer holds that operand's block at the point,
  whether or not the point fetched it (a block whose index did not move since the previous point is still the
  previous point's block, which is this point's). The body loads the operand buffers whole, computes, and writes
  each result buffer whole once; a whole write covers the buffer, so what the buffer reads afterwards is the stored
  value, whatever it held before. Hence the body takes the operand blocks to the values named for the result
  windows and leaves the operand buffers as found, which is the obligation the launch rule asks of the body.
-/
import proofs.«137344_j32736240730704_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each operand's staging buffer -/

/-- Operand 0's current staging buffer holds its block at every grid point: at a point that fetches it, the
    fetched block; at any other, the block index is the previous point's and the body left the buffer alone. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Operand 1's current staging buffer holds its block at every grid point: at a point that fetches it, the
    fetched block; at any other, the block index is the previous point's and the body left the buffer alone. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- Operand 2's current staging buffer holds its block at every grid point: at a point that fetches it, the
    fetched block; at any other, the block index is the previous point's and the body left the buffer alone. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- Operand 3's current staging buffer holds its block at every grid point: at a point that fetches it, the
    fetched block; at any other, the block index is the previous point's and the body left the buffer alone. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- Operand 4's current staging buffer holds its block at every grid point: at a point that fetches it, the
    fetched block; at any other, the block index is the previous point's and the body left the buffer alone. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- Operand 5's current staging buffer holds its block at every grid point: at a point that fetches it, the
    fetched block; at any other, the block index is the previous point's and the body left the buffer alone. -/
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- Operand 6's current staging buffer holds its block at every grid point: at a point that fetches it, the
    fetched block; at any other, the block index is the previous point's and the body left the buffer alone. -/
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-- Operand 7's current staging buffer holds its block at every grid point: at a point that fetches it, the
    fetched block; at any other, the block index is the previous point's and the body left the buffer alone. -/
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)

/-! ## A whole write covers its buffer -/

/-- The one rectangle result window 8's store writes through is the whole buffer, so every index lies in it. -/
theorem storeCover2_8 (p0 : Vec F S5000x128 .f32) (y : S5000x128.Idx) :
    ∃ pc ∈ ([⟨rS5000x128, p0⟩] : List (View.Piece (Elt F) S5000x128 .f32)), y ∈ pc.1.set :=
  View.cover_of_tiled [⟨rS5000x128, p0⟩] S5000x128.size (by rfl) y

/-! ## The body's triple -/

set_option maxHeartbeats 1000000 in
/-- The body on whole staging buffers, the operands' reading `x0 …` and the results' holding anything, runs to a
    state where the operands' read as before and each result's reads the value named for it: the loads return the
    buffers' contents, the arithmetic is pure, and after the whole store the buffer reads the stored value. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S5000x128 .f32) (x2 : Vec F S128x128 .bf16) (x3 : Vec F S1x128 .f32) (x4 : Vec F S128x128 .bf16) (x5 : Vec F S1x128 .f32) (x6 : Vec F S128x128 .bf16) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__combine_kernel i arg1 harg1 arg2 harg2 arg3 harg3 arg4 harg4 arg5 harg5 arg6 harg6 arg7 harg7 arg8 harg8 arg9 harg9) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (storeCover2_8 _)

/-! ## The obligation at a grid point -/

/-- What the body is entered with at point `t`: the call's invariant, what the core owes, and every window's current
    staging buffer at what the point finds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- What it returns: the same invariant and debts, every window's buffer at what the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the operands' buffers hold their blocks, so the triple applies at those blocks; the
    invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every grid point, in the form the launch rule takes. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The whole program as a run: its host stretches and its three tiled calls in order, each entered from the buffer
  contents the item before it left (the fold W0 … W6). Every weakly fair execution terminates without a fault, and
  at the end every buffer that outlives the calls holds the fold's last contents — so each argument array is as
  launched (no host operation writes one, no call writes one back) and the result array holds what the third call's
  write-backs leave.
-/
import proofs.«137344_j32736240730704_2_alg».proof.Proof.KIFold
import proofs.«137344_j32736240730704_2_alg».proof.Proof.KIBody0
import proofs.«137344_j32736240730704_2_alg».proof.Proof.KIBody1
import proofs.«137344_j32736240730704_2_alg».proof.Proof.KIBody2
import proofs.«137344_j32736240730704_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A buffer no host stretch writes and no call stages as a result is, at the end, what it was at launch; an operand
    a call stages is handed back as it was found. -/
theorem W1_untouched (c : Dev nD) (r : Ref sig .tc) (h : r ∉ hostOps0_W) : W1 m c (Proc.devRef .tc r) = W0 m c (Proc.devRef .tc r) :=
  StableHlo.after_of_writes_sub hostOps0 _ hostOps0_writes h
theorem W3_untouched (c : Dev nD) (r : Ref sig .tc) (h : r ∉ hostOps1_W) : W3 m c (Proc.devRef .tc r) = W2 m c (Proc.devRef .tc r) :=
  StableHlo.after_of_writes_sub hostOps1 _ hostOps1_writes h
theorem W5_untouched (c : Dev nD) (r : Ref sig .tc) (h : r ∉ hostOps2_W) : W5 m c (Proc.devRef .tc r) = W4 m c (Proc.devRef .tc r) :=
  StableHlo.after_of_writes_sub hostOps2 _ hostOps2_writes h

/-- The first call hands its operand `main_arg0` back as found. -/
theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))
/-- The second call hands its operand `main_arg1` back as found. -/
theorem W4_main_arg1 (c : Dev nD) : W4 m c (Proc.devRef .tc main_arg1) = W3 m c (Proc.devRef .tc main_arg1) :=
  (W4_arr m c 2).trans (((dat1 (V3 m) c).arrAt_in 2 rfl _).trans (A_eq1 (V3 m) c 2))

theorem W6_main_arg0 (c : Dev nD) : W6 m c (Proc.devRef .tc main_arg0) = m ((c : Thread nD τ).loc main_arg0) :=
  (W6_of_ne m c main_arg0 (by decide)).trans <| (W5_untouched m c main_arg0 (by decide)).trans <| (W4_of_ne m c main_arg0 (by decide)).trans <|
    (W3_untouched m c main_arg0 (by decide)).trans <| (W2_main_arg0 m c).trans <| (W1_untouched m c main_arg0 (by decide)).trans rfl
theorem W6_main_arg1 (c : Dev nD) : W6 m c (Proc.devRef .tc main_arg1) = m ((c : Thread nD τ).loc main_arg1) :=
  (W6_of_ne m c main_arg1 (by decide)).trans <| (W5_untouched m c main_arg1 (by decide)).trans <| (W4_main_arg1 m c).trans <|
    (W3_untouched m c main_arg1 (by decide)).trans <| (W2_of_ne m c main_arg1 (by decide)).trans <| (W1_untouched m c main_arg1 (by decide)).trans rfl
theorem W6_main_arg2 (c : Dev nD) : W6 m c (Proc.devRef .tc main_arg2) = m ((c : Thread nD τ).loc main_arg2) :=
  (W6_of_ne m c main_arg2 (by decide)).trans <| (W5_untouched m c main_arg2 (by decide)).trans <| (W4_of_ne m c main_arg2 (by decide)).trans <|
    (W3_untouched m c main_arg2 (by decide)).trans <| (W2_of_ne m c main_arg2 (by decide)).trans <| (W1_untouched m c main_arg2 (by decide)).trans rfl
theorem W6_main_arg3 (c : Dev nD) : W6 m c (Proc.devRef .tc main_arg3) = m ((c : Thread nD τ).loc main_arg3) :=
  (W6_of_ne m c main_arg3 (by decide)).trans <| (W5_untouched m c main_arg3 (by decide)).trans <| (W4_of_ne m c main_arg3 (by decide)).trans <|
    (W3_untouched m c main_arg3 (by decide)).trans <| (W2_of_ne m c main_arg3 (by decide)).trans <| (W1_untouched m c main_arg3 (by decide)).trans rfl
theorem W6_main_arg4 (c : Dev nD) : W6 m c (Proc.devRef .tc main_arg4) = m ((c : Thread nD τ).loc main_arg4) :=
  (W6_of_ne m c main_arg4 (by decide)).trans <| (W5_untouched m c main_arg4 (by decide)).trans <| (W4_of_ne m c main_arg4 (by decide)).trans <|
    (W3_untouched m c main_arg4 (by decide)).trans <| (W2_of_ne m c main_arg4 (by decide)).trans <| (W1_untouched m c main_arg4 (by decide)).trans rfl
theorem W6_main_arg5 (c : Dev nD) : W6 m c (Proc.devRef .tc main_arg5) = m ((c : Thread nD τ).loc main_arg5) :=
  (W6_of_ne m c main_arg5 (by decide)).trans <| (W5_untouched m c main_arg5 (by decide)).trans <| (W4_of_ne m c main_arg5 (by decide)).trans <|
    (W3_untouched m c main_arg5 (by decide)).trans <| (W2_of_ne m c main_arg5 (by decide)).trans <| (W1_untouched m c main_arg5 (by decide)).trans rfl
theorem W6_main_arg6 (c : Dev nD) : W6 m c (Proc.devRef .tc main_arg6) = m ((c : Thread nD τ).loc main_arg6) :=
  (W6_of_ne m c main_arg6 (by decide)).trans <| (W5_untouched m c main_arg6 (by decide)).trans <| (W4_of_ne m c main_arg6 (by decide)).trans <|
    (W3_untouched m c main_arg6 (by decide)).trans <| (W2_of_ne m c main_arg6 (by decide)).trans <| (W1_untouched m c main_arg6 (by decide)).trans rfl
theorem W6_main_arg7 (c : Dev nD) : W6 m c (Proc.devRef .tc main_arg7) = m ((c : Thread nD τ).loc main_arg7) :=
  (W6_of_ne m c main_arg7 (by decide)).trans <| (W5_untouched m c main_arg7 (by decide)).trans <| (W4_of_ne m c main_arg7 (by decide)).trans <|
    (W3_untouched m c main_arg7 (by decide)).trans <| (W2_of_ne m c main_arg7 (by decide)).trans <| (W1_untouched m c main_arg7 (by decide)).trans rfl
theorem W6_main_arg8 (c : Dev nD) : W6 m c (Proc.devRef .tc main_arg8) = m ((c : Thread nD τ).loc main_arg8) :=
  (W6_of_ne m c main_arg8 (by decide)).trans <| (W5_untouched m c main_arg8 (by decide)).trans <| (W4_of_ne m c main_arg8 (by decide)).trans <|
    (W3_untouched m c main_arg8 (by decide)).trans <| (W2_of_ne m c main_arg8 (by decide)).trans <| (W1_untouched m c main_arg8 (by decide)).trans rfl
theorem W6_main_arg9 (c : Dev nD) : W6 m c (Proc.devRef .tc main_arg9) = m ((c : Thread nD τ).loc main_arg9) :=
  (W6_of_ne m c main_arg9 (by decide)).trans <| (W5_untouched m c main_arg9 (by decide)).trans <| (W4_of_ne m c main_arg9 (by decide)).trans <|
    (W3_untouched m c main_arg9 (by decide)).trans <| (W2_of_ne m c main_arg9 (by decide)).trans <| (W1_untouched m c main_arg9 (by decide)).trans rfl
theorem W6_main_arg10 (c : Dev nD) : W6 m c (Proc.devRef .tc main_arg10) = m ((c : Thread nD τ).loc main_arg10) :=
  (W6_of_ne m c main_arg10 (by decide)).trans <| (W5_untouched m c main_arg10 (by decide)).trans <| (W4_of_ne m c main_arg10 (by decide)).trans <|
    (W3_untouched m c main_arg10 (by decide)).trans <| (W2_of_ne m c main_arg10 (by decide)).trans <| (W1_untouched m c main_arg10 (by decide)).trans rfl
theorem W6_main_arg11 (c : Dev nD) : W6 m c (Proc.devRef .tc main_arg11) = m ((c : Thread nD τ).loc main_arg11) :=
  (W6_of_ne m c main_arg11 (by decide)).trans <| (W5_untouched m c main_arg11 (by decide)).trans <| (W4_of_ne m c main_arg11 (by decide)).trans <|
    (W3_untouched m c main_arg11 (by decide)).trans <| (W2_of_ne m c main_arg11 (by decide)).trans <| (W1_untouched m c main_arg11 (by decide)).trans rfl
theorem W6_main_arg12 (c : Dev nD) : W6 m c (Proc.devRef .tc main_arg12) = m ((c : Thread nD τ).loc main_arg12) :=
  (W6_of_ne m c main_arg12 (by decide)).trans <| (W5_untouched m c main_arg12 (by decide)).trans <| (W4_of_ne m c main_arg12 (by decide)).trans <|
    (W3_untouched m c main_arg12 (by decide)).trans <| (W2_of_ne m c main_arg12 (by decide)).trans <| (W1_untouched m c main_arg12 (by decide)).trans rfl
theorem W6_main_arg13 (c : Dev nD) : W6 m c (Proc.devRef .tc main_arg13) = m ((c : Thread nD τ).loc main_arg13) :=
  (W6_of_ne m c main_arg13 (by decide)).trans <| (W5_untouched m c main_arg13 (by decide)).trans <| (W4_of_ne m c main_arg13 (by decide)).trans <|
    (W3_untouched m c main_arg13 (by decide)).trans <| (W2_of_ne m c main_arg13 (by decide)).trans <| (W1_untouched m c main_arg13 (by decide)).trans rfl
theorem W6_main_arg14 (c : Dev nD) : W6 m c (Proc.devRef .tc main_arg14) = m ((c : Thread nD τ).loc main_arg14) :=
  (W6_of_ne m c main_arg14 (by decide)).trans <| (W5_untouched m c main_arg14 (by decide)).trans <| (W4_of_ne m c main_arg14 (by decide)).trans <|
    (W3_untouched m c main_arg14 (by decide)).trans <| (W2_of_ne m c main_arg14 (by decide)).trans <| (W1_untouched m c main_arg14 (by decide)).trans rfl
theorem W6_main_arg15 (c : Dev nD) : W6 m c (Proc.devRef .tc main_arg15) = m ((c : Thread nD τ).loc main_arg15) :=
  (W6_of_ne m c main_arg15 (by decide)).trans <| (W5_untouched m c main_arg15 (by decide)).trans <| (W4_of_ne m c main_arg15 (by decide)).trans <|
    (W3_untouched m c main_arg15 (by decide)).trans <| (W2_of_ne m c main_arg15 (by decide)).trans <| (W1_untouched m c main_arg15 (by decide)).trans rfl
theorem W6_main_arg16 (c : Dev nD) : W6 m c (Proc.devRef .tc main_arg16) = m ((c : Thread nD τ).loc main_arg16) :=
  (W6_of_ne m c main_arg16 (by decide)).trans <| (W5_untouched m c main_arg16 (by decide)).trans <| (W4_of_ne m c main_arg16 (by decide)).trans <|
    (W3_untouched m c main_arg16 (by decide)).trans <| (W2_of_ne m c main_arg16 (by decide)).trans <| (W1_untouched m c main_arg16 (by decide)).trans rfl
theorem W6_main_arg17 (c : Dev nD) : W6 m c (Proc.devRef .tc main_arg17) = m ((c : Thread nD τ).loc main_arg17) :=
  (W6_of_ne m c main_arg17 (by decide)).trans <| (W5_untouched m c main_arg17 (by decide)).trans <| (W4_of_ne m c main_arg17 (by decide)).trans <|
    (W3_untouched m c main_arg17 (by decide)).trans <| (W2_of_ne m c main_arg17 (by decide)).trans <| (W1_untouched m c main_arg17 (by decide)).trans rfl
theorem W6_main_arg18 (c : Dev nD) : W6 m c (Proc.devRef .tc main_arg18) = m ((c : Thread nD τ).loc main_arg18) :=
  (W6_of_ne m c main_arg18 (by decide)).trans <| (W5_untouched m c main_arg18 (by decide)).trans <| (W4_of_ne m c main_arg18 (by decide)).trans <|
    (W3_untouched m c main_arg18 (by decide)).trans <| (W2_of_ne m c main_arg18 (by decide)).trans <| (W1_untouched m c main_arg18 (by decide)).trans rfl
theorem W6_main_arg19 (c : Dev nD) : W6 m c (Proc.devRef .tc main_arg19) = m ((c : Thread nD τ).loc main_arg19) :=
  (W6_of_ne m c main_arg19 (by decide)).trans <| (W5_untouched m c main_arg19 (by decide)).trans <| (W4_of_ne m c main_arg19 (by decide)).trans <|
    (W3_untouched m c main_arg19 (by decide)).trans <| (W2_of_ne m c main_arg19 (by decide)).trans <| (W1_untouched m c main_arg19 (by decide)).trans rfl
theorem W6_main_arg20 (c : Dev nD) : W6 m c (Proc.devRef .tc main_arg20) = m ((c : Thread nD τ).loc main_arg20) :=
  (W6_of_ne m c main_arg20 (by decide)).trans <| (W5_untouched m c main_arg20 (by decide)).trans <| (W4_of_ne m c main_arg20 (by decide)).trans <|
    (W3_untouched m c main_arg20 (by decide)).trans <| (W2_of_ne m c main_arg20 (by decide)).trans <| (W1_untouched m c main_arg20 (by decide)).trans rfl
theorem W6_main_arg21 (c : Dev nD) : W6 m c (Proc.devRef .tc main_arg21) = m ((c : Thread nD τ).loc main_arg21) :=
  (W6_of_ne m c main_arg21 (by decide)).trans <| (W5_untouched m c main_arg21 (by decide)).trans <| (W4_of_ne m c main_arg21 (by decide)).trans <|
    (W3_untouched m c main_arg21 (by decide)).trans <| (W2_of_ne m c main_arg21 (by decide)).trans <| (W1_untouched m c main_arg21 (by decide)).trans rfl

/-- The result array at the end is what the third call's write-backs leave. -/
theorem W6_main_v44 (c : Dev nD) : W6 m c (Proc.devRef .tc main_v44) = (dat2 (V5 m) c).arrAt 8 cfg2.N :=
  W6_arr m c 8

/-! ## The bookkeeping family and the thread state -/

/-- No call has a prefetched table. -/
abbrev adm : (p : Fin 3) → (pcfgs (F := F) p).Adm := fun p => (cfgs p).toPCfg_adm
/-- Every call's bookkeeping, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, at nothing. -/
abbrev R (c : Dev nD) : sProp 𝕄 := iprop((∃ r, prngReg c r) ∗ ∃ W, owes (c : Thread nD τ) (0 : CellTallies nD τ sig Unit) W)
/-- A host stretch as an item: the buffers that outlive the calls go from contents `W` to the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A TensorCore buffer that outlives the calls is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-! ## The tiled calls as items -/

set_option backward.isDefEq.respectTransparency.types false in
/-- Call 0 over the thread state: entered from the buffers at `W1`, left at `W2`. Its arrays are split out of the
    buffers and put back at the exit contents; the generator register goes into the call's invariant and comes back;
    nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from the buffers at `W3`, left at `W4`. Its arrays are split out of the
    buffers and put back at the exit contents; the generator register goes into the call's invariant and comes back;
    nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from the buffers at `W5`, left at `W6`. Its arrays are split out of the
    buffers and put back at the exit contents; the generator register goes into the call's invariant and comes back;
    nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- The printed program is the run of its items. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each buffer that outlives the calls holds the fold's last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c),
    (h c _ (mem_uc main_arg12 (by decide))).trans (W6_main_arg12 m c),
    (h c _ (mem_uc main_arg13 (by decide))).trans (W6_main_arg13 m c),
    (h c _ (mem_uc main_arg14 (by decide))).trans (W6_main_arg14 m c),
    (h c _ (mem_uc main_arg15 (by decide))).trans (W6_main_arg15 m c),
    (h c _ (mem_uc main_arg16 (by decide))).trans (W6_main_arg16 m c),
    (h c _ (mem_uc main_arg17 (by decide))).trans (W6_main_arg17 m c),
    (h c _ (mem_uc main_arg18 (by decide))).trans (W6_main_arg18 m c),
    (h c _ (mem_uc main_arg19 (by decide))).trans (W6_main_arg19 m c),
    (h c _ (mem_uc main_arg20 (by decide))).trans (W6_main_arg20 m c),
    (h c _ (mem_uc main_arg21 (by decide))).trans (W6_main_arg21 m c)⟩) (run_main m ρ)

/-- THE RESULT: the program runs to the end with the result array at what the third call's write-backs leave. -/
theorem run_result : θ_run defs (onTc (τ := τ) (main (F := F))) ⟨m, fun _ => 0, ρ⟩ (fun r => ∀ c : Dev nD,
      r.2.mem ((c.tc : Thread nD τ).loc main_v44) = (dat2 (V5 m) c).arrAt 8 cfg2.N) :=
  (θ_run defs _ _).mono (fun r h c => (h c _ (mem_uc main_v44 (by decide))).trans (W6_main_v44 m c)) (run_main m ρ)

end Cert.KernelIdeal.Hand

end
-- ==== Proof.LibRowGather.lean ====
/-
  Row gather and row scatter read at an index.

  `x[src]` of a matrix `x : [N, D]` at an integer column `src : [E, 1]` is the matrix whose row `e` is row
  `src[e, 0]` of `x`, the start index read signed and clamped into `[0, N − 1]`; the same for a flat array `v : [N]`.
  A row scatter sends update element `(e, f)` to operand element `(idx[e, 0], f)` when that row exists.
-/
import Idealize.ShloMosaic.Lib.ValueIdx

noncomputable section

namespace Cert.Lib

open Idealize.ShloMosaic Idealize.ShloMosaic.ValueIdx

/-- A word read as a signed integer and clamped into `[0, N − 1]`: the row a gather reads. -/
def clampRow (N : Nat) (hN : 0 < N) {w : Nat} (b : BitVec w) : Fin N := ⟨min b.toInt.toNat (N - 1), by omega⟩

/-- The element `[e, 0]` of an index column `[E, 1]`. -/
abbrev edgeIdx {E : Nat} (e : Fin E) : (⟨2, ![E, 1]⟩ : Shape).Idx := ix2 e (⟨0, Nat.one_pos⟩ : Fin 1)

/-- A rank-1 index's coordinate is below the extent, written as `n` itself. -/
theorem idx1_lt0 {n : Nat} (j : (⟨1, ![n]⟩ : Shape).Idx) : (j 0).val < n := (j 0).isLt

section Gather
variable {α : Type}

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, f)`: the operand at row `idx[e, 0]` (signed, clamped) and column `f`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowGatherDims N E D wf) x idx j
      = x (ix2 (clampRow N hN (idx (edgeIdx ⟨(j 0).val, idx2_lt0 j⟩))) ⟨(j 1).val, idx2_lt1 j⟩) := by
  unfold Host.gather
  congr 1
  funext a
  refine Fin.ext ?_
  match a with
  | ⟨0, _⟩ =>
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = edgeIdx ⟨(j 0).val, idx2_lt0 j⟩ := by
      funext b; refine Fin.ext ?_
      match b with
      | ⟨0, _⟩ => rfl
      | ⟨1, _⟩ => rfl
    rw [hsi]
    rfl
  | ⟨1, _⟩ =>
    show (rowGatherDims N E D wf).start j idx 1 + (rowGatherDims N E D wf).batchCoord j 1
      + (rowGatherDims N E D wf).offCoord j 1 = _
    rw [GatherDims.batchCoord_eq_zero _ _ _ List.not_mem_nil]
    have hs : (rowGatherDims N E D wf).start j idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The same at an index given by its coordinates. -/
theorem rowGather_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (idx (edgeIdx e))) f) :=
  rowGather_apply hN wf x idx (ix2 e f)

/-- The dimension numbers of an element gather: operand `[N]`, start indices `[E, 1]`, result `[E]`. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem elemGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : (⟨1, ![E]⟩ : Shape).Idx) :
    Host.gather (elemGatherDims N E wf) v idx e
      = v (ix1 (clampRow N hN (idx (edgeIdx ⟨(e 0).val, idx1_lt0 e⟩)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]
  rfl

/-- The same at an index given by its coordinate. -/
theorem elemGather_ix1 {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (elemGatherDims N E wf) v idx (ix1 e) = v (ix1 (clampRow N hN (idx (edgeIdx e)))) :=
  elemGather_apply hN wf v idx (ix1 e)

end Gather

section Scatter

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the scatter index `idx[e, 0]`, read signed … -/
theorem rowScatter_start0 :
    (rowScatterDims N E D wf).start j idx 0 = (idx (edgeIdx ⟨(j 0).val, idx2_lt0 j⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = edgeIdx ⟨(j 0).val, idx2_lt0 j⟩ := by
    funext b; refine Fin.ext ?_
    match b with
    | ⟨0, _⟩ => rfl
    | ⟨1, _⟩ => rfl
  rw [hsi]

/-- … and on the column axis at `0`. -/
theorem rowScatter_start1 : (rowScatterDims N E D wf).start j idx 1 = 0 := by
  unfold ScatterDims.start
  rw [dif_neg (show (1 : Fin 2) ∉ ([0] : List (Fin 2)) by decide)]

/-- The window has no extent on the row axis … -/
theorem rowScatter_window0 : (rowScatterDims N E D wf).window j 0 = 0 := by
  have h0 : (0 : Fin 2) ∉ (rowScatterDims N E D wf).sKept :=
    (show (0 : Fin 2) ∉ (List.finRange 2).filter (· ∉ ([0] : List (Fin 2))) by decide)
  unfold ScatterDims.window
  rw [dif_neg h0]

/-- … and on the column axis its coordinate is the update's column. -/
theorem rowScatter_window1 : (rowScatterDims N E D wf).window j 1 = (j 1).val := by
  have h1 : (1 : Fin 2) ∈ (rowScatterDims N E D wf).sKept :=
    (show (1 : Fin 2) ∈ (List.finRange 2).filter (· ∉ ([0] : List (Fin 2))) by decide)
  unfold ScatterDims.window
  rw [dif_pos h1]
  rfl

/-- WHERE A ROW SCATTER'S UPDATE LANDS: update element `(e, f)` lands at operand element `i` only if the scatter index
    `idx[e, 0]`, read signed, is `i`'s row, and `f` is `i`'s column. -/
theorem rowScatter_hit (i : (⟨2, ![N, D]⟩ : Shape).Idx)
    (h : (rowScatterDims N E D wf).resultIdx? j idx = some i) :
    (idx (edgeIdx ⟨(j 0).val, idx2_lt0 j⟩)).toInt = ((i 0).val : Int) ∧ (j 1).val = (i 1).val := by
  unfold ScatterDims.resultIdx? at h
  split at h
  · rename_i hb
    have hi := Option.some.inj h
    subst hi
    have h0 := hb 0
    rw [rowScatter_start0, rowScatter_window0] at h0
    constructor
    · show _ = ((((rowScatterDims N E D wf).start j idx 0 + (rowScatterDims N E D wf).window j 0).toNat : Nat) : Int)
      rw [rowScatter_start0, rowScatter_window0]
      omega
    · show (j 1).val = ((rowScatterDims N E D wf).start j idx 1 + (rowScatterDims N E D wf).window j 1).toNat
      rw [rowScatter_start1, rowScatter_window1]
      omega
  · exact absurd h (by simp)

end Scatter

section ScatterIff

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- … and exactly then: the updates that land at operand element `i` are the `(e, f)` with `idx[e, 0] = i`'s row
    (read signed) and `f = i`'s column. -/
theorem rowScatter_hit_iff (i : (⟨2, ![N, D]⟩ : Shape).Idx) :
    (rowScatterDims N E D wf).resultIdx? j idx = some i ↔
      (idx (edgeIdx ⟨(j 0).val, idx2_lt0 j⟩)).toInt = ((i 0).val : Int) ∧ (j 1).val = (i 1).val := by
  refine ⟨rowScatter_hit wf idx j i, fun ⟨h0, h1⟩ => ?_⟩
  have hi0 := idx2_lt0 i
  have hj1 := idx2_lt1 j
  have hb : ∀ a, 0 ≤ (rowScatterDims N E D wf).start j idx a + (rowScatterDims N E D wf).window j a ∧
      (rowScatterDims N E D wf).start j idx a + (rowScatterDims N E D wf).window j a
        < (⟨2, ![N, D]⟩ : Shape).size a := by
    intro a
    match a with
    | ⟨0, _⟩ =>
      show 0 ≤ (rowScatterDims N E D wf).start j idx 0 + (rowScatterDims N E D wf).window j 0 ∧
        (rowScatterDims N E D wf).start j idx 0 + (rowScatterDims N E D wf).window j 0 < (N : Int)
      rw [rowScatter_start0, rowScatter_window0, h0]
      omega
    | ⟨1, _⟩ =>
      show 0 ≤ (rowScatterDims N E D wf).start j idx 1 + (rowScatterDims N E D wf).window j 1 ∧
        (rowScatterDims N E D wf).start j idx 1 + (rowScatterDims N E D wf).window j 1 < (D : Int)
      rw [rowScatter_start1, rowScatter_window1]
      omega
  unfold ScatterDims.resultIdx?
  refine (dif_pos hb).trans ?_
  congr 1
  funext a
  refine Fin.ext ?_
  match a with
  | ⟨0, _⟩ =>
    show ((rowScatterDims N E D wf).start j idx 0 + (rowScatterDims N E D wf).window j 0).toNat = (i 0).val
    rw [rowScatter_start0, rowScatter_window0, h0]
    omega
  | ⟨1, _⟩ =>
    show ((rowScatterDims N E D wf).start j idx 1 + (rowScatterDims N E D wf).window j 1).toNat = (i 1).val
    rw [rowScatter_start1, rowScatter_window1, h1]
    omega

end ScatterIff

section ElemScatter

/-- The dimension numbers of an element scatter: operand `[N]`, scatter indices `[E, 1]`, updates `[E]`. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : (⟨1, ![E]⟩ : Shape).Idx)

/-- The window starts at the scatter index `idx[e, 0]`, read signed … -/
theorem elemScatter_start0 :
    (elemScatterDims N E wf).start e idx 0 = (idx (edgeIdx ⟨(e 0).val, idx1_lt0 e⟩)).toInt := by
  unfold ScatterDims.start
  rw [dif_pos (show (0 : Fin 1) ∈ (elemScatterDims N E wf).scatterDimsToOperandDims from List.mem_singleton.mpr rfl)]
  have hsi : (elemScatterDims N E wf).siIdx e ⟨List.idxOf (0 : Fin 1) (elemScatterDims N E wf).scatterDimsToOperandDims,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]

/-- … and has no extent. -/
theorem elemScatter_window0 : (elemScatterDims N E wf).window e 0 = 0 := by
  have h0 : (0 : Fin 1) ∉ (elemScatterDims N E wf).sKept :=
    (show (0 : Fin 1) ∉ (List.finRange 1).filter (· ∉ ([0] : List (Fin 1))) by decide)
  unfold ScatterDims.window
  rw [dif_neg h0]

/-- WHERE AN ELEMENT SCATTER'S UPDATE LANDS: update `e` lands at operand element `i` exactly when the scatter index
    `idx[e, 0]`, read signed, is `i`. -/
theorem elemScatter_hit_iff (i : (⟨1, ![N]⟩ : Shape).Idx) :
    (elemScatterDims N E wf).resultIdx? e idx = some i ↔
      (idx (edgeIdx ⟨(e 0).val, idx1_lt0 e⟩)).toInt = ((i 0).val : Int) := by
  have hi0 := idx1_lt0 i
  constructor
  · intro h
    unfold ScatterDims.resultIdx? at h
    split at h
    · rename_i hb
      have hi := Option.some.inj h
      subst hi
      have h0 := hb 0
      rw [elemScatter_start0, elemScatter_window0] at h0
      show _ = ((((elemScatterDims N E wf).start e idx 0 + (elemScatterDims N E wf).window e 0).toNat : Nat) : Int)
      rw [elemScatter_start0, elemScatter_window0]
      omega
    · exact absurd h (by simp)
  · intro h0
    have hb : ∀ a, 0 ≤ (elemScatterDims N E wf).start e idx a + (elemScatterDims N E wf).window e a ∧
        (elemScatterDims N E wf).start e idx a + (elemScatterDims N E wf).window e a
          < (⟨1, ![N]⟩ : Shape).size a := by
      intro a
      obtain rfl : a = 0 := Subsingleton.elim _ _
      show 0 ≤ (elemScatterDims N E wf).start e idx 0 + (elemScatterDims N E wf).window e 0 ∧
        (elemScatterDims N E wf).start e idx 0 + (elemScatterDims N E wf).window e 0 < (N : Int)
      rw [elemScatter_start0, elemScatter_window0, h0]
      omega
    unfold ScatterDims.resultIdx?
    refine (dif_pos hb).trans ?_
    congr 1
    funext a
    obtain rfl : a = 0 := Subsingleton.elim _ _
    refine Fin.ext ?_
    show ((elemScatterDims N E wf).start e idx 0 + (elemScatterDims N E wf).window e 0).toNat = (i 0).val
    rw [elemScatter_start0, elemScatter_window0, h0]
    omega

end ElemScatter

section Words

/-- A word whose signed value is `k < N` clamps to row `k`. -/
theorem clampRow_of_toInt {N w : Nat} (hN : 0 < N) (b : BitVec w) (k : Nat) (hb : b.toInt = (k : Int)) (hk : k < N) :
    clampRow N hN b = ⟨k, hk⟩ := by
  refine Fin.ext ?_
  show min b.toInt.toNat (N - 1) = k
  rw [hb, Int.toNat_natCast]
  omega

/-- The index normalisation `if idx < 0 then idx + n else idx` on a word that is not negative: the word itself. -/
theorem normIdx_of_nonneg {w : Nat} (b n : BitVec w) (k : Nat) (hb : b.toInt = (k : Int)) :
    Scalar.select (IntOp.cmpi .slt b 0#w) (IntOp.addi b n) b = b := by
  have h : b.slt 0#w = false := by
    unfold BitVec.slt
    rw [hb, BitVec.toInt_zero]
    exact decide_eq_false (by omega)
  show Scalar.select (BitVec.ofBool (b.slt 0#w)) (IntOp.addi b n) b = b
  rw [h]
  exact select_zero _ _

/-- The same normalisation on a negative word: the word plus `n`. -/
theorem normIdx_of_neg {w : Nat} (b n : BitVec w) (hb : b.toInt < 0) :
    Scalar.select (IntOp.cmpi .slt b 0#w) (IntOp.addi b n) b = b + n := by
  have h : b.slt 0#w = true := by
    unfold BitVec.slt
    rw [BitVec.toInt_zero]
    exact decide_eq_true hb
  show Scalar.select (BitVec.ofBool (b.slt 0#w)) (b + n) b = b + n
  rw [h]
  exact select_one _ _

/-- The normalisation as the vector operations spell it, read at an index where the compared constant is `0` and the
    index word is not negative. -/
theorem normIdx_apply {s : Shape} {w : Nat} (idx zero n : IVec s w) (i : s.Idx) (k : Nat)
    (hz : zero i = 0#w) (hb : (idx i).toInt = (k : Int)) :
    select (cmpi .slt idx zero) (addi idx n) idx i = idx i := by
  show Scalar.select (IntOp.cmpi .slt (idx i) (zero i)) (IntOp.addi (idx i) (n i)) (idx i) = idx i
  rw [hz]
  exact normIdx_of_nonneg (idx i) (n i) k hb

end Words

section Column
variable {α : Type}

/-- A flat array `[E]` broadcast to a column `[E, 1]` and read at `[e, 0]`: the array at `e`. -/
theorem colBroadcast_apply {E : Nat}
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] h x (edgeIdx e) = x (ix1 e) := by
  unfold broadcastInDim
  beta_reduce
  congr 1
  funext a
  obtain rfl : a = 0 := Subsingleton.elim _ _
  refine Fin.ext ?_
  split
  · rename_i h1
    have hE : E = 1 := h1
    have := e.isLt
    show 0 = e.val
    omega
  · rfl

end Column

end Cert.Lib

end
-- ==== Proof.Spec.lean ====
/-
  One message-passing layer of a graph network, as a function of its inputs, entry by entry, over the extended reals.

  Nodes carry a feature row `h[n]`, edges a feature row `ef[e]` and two index words `src[e]`, `dst[e]`. A dense layer is
  `lin W b x = x·Wᵀ + b` with `W` stored as [out, in]. Per edge:
    t   = ef[e] + lin Wsrc bsrc h[src e] + lin Wdst bdst h[dst e]
    emb = lin Wphi3 bphi3 (relu (lin Wphi2 bphi2 (relu (lin Wphi1 bphi1 (relu t)))))
    msg = h[src e] * emb                       (entrywise)
  the messages are summed into their destination rows (`agg`, left abstract here: both programs form it by the same
  scatter-add of the same message array), and per node
    out = lin Wth2 bth2 (relu (lin Wth1 bth1 (relu (lin Wpd bpd h[n] + lin Wpu bpu agg[n])))).
  An index word addresses a node the way array indexing reads it: a negative word counts from the end, then the word
  is read signed and clamped into the node range.
-/
import Idealize.ShloMosaic.PureOps.Ideal
import Idealize.ShloMosaic.Lib.ValueIdx
import proofs.«137344_j32736240730704_2_alg».proof.Proof.LibRowGather

noncomputable section

namespace Cert.Spec

open Idealize.ShloMosaic Idealize.ShloMosaic.ValueIdx

/-- A matrix of extended reals. -/
abbrev Mat (R C : Nat) : Type := (⟨2, ![R, C]⟩ : Shape).Idx → EReal
/-- A vector of extended reals. -/
abbrev Row (C : Nat) : Type := (⟨1, ![C]⟩ : Shape).Idx → EReal
/-- A vector of 32-bit index words. -/
abbrev Words (E : Nat) : Type := (⟨1, ![E]⟩ : Shape).Idx → BitVec 32

/-- The layer's inputs: node features, edge features, the two index vectors, and ten dense layers. -/
structure Inputs where
  h : Mat 50000 128
  ef : Mat 800000 128
  src : Words 800000
  dst : Words 800000
  Wsrc : Mat 128 128
  bsrc : Row 128
  Wdst : Mat 128 128
  bdst : Row 128
  Wphi1 : Mat 128 128
  bphi1 : Row 128
  Wphi2 : Mat 128 128
  bphi2 : Row 128
  Wphi3 : Mat 128 128
  bphi3 : Row 128
  Wth1 : Mat 128 128
  bth1 : Row 128
  Wth2 : Mat 128 128
  bth2 : Row 128
  Wpd : Mat 128 128
  bpd : Row 128
  Wpu : Mat 128 128
  bpu : Row 128

/-- The float zero both programs compare against (kept as its word: the same word on both sides). -/
abbrev zero : EReal := Ideal.ofBits .f32 0x00000000#32

/-- The rectifier: the larger of `x` and zero. -/
def relu (x : EReal) : EReal := max x zero

/-- Output feature `j` of a dense layer `x ↦ x·Wᵀ + b`, the weight stored as [out, in]. -/
def lin (W : Mat 128 128) (b : Row 128) (x : Fin 128 → EReal) (j : Fin 128) : EReal :=
  (∑ k : Fin 128, x k * W (ix2 j k)) + b (ix1 j)

/-- Row `n` of a matrix with 128 columns. -/
def row {R : Nat} (a : Mat R 128) (n : Fin R) : Fin 128 → EReal := fun k => a (ix2 n k)

/-- An index word with a negative value counting from the end of the 50000 nodes. -/
def normWord (w : BitVec 32) : BitVec 32 := Scalar.select (IntOp.cmpi .slt w 0#32) (IntOp.addi w 50000#32) w

/-- The node an index word addresses: normalised, read signed, clamped into the node range. -/
def nodeOf (w : BitVec 32) : Fin 50000 := Cert.Lib.clampRow 50000 (by decide) (normWord w)

/-- The source node of edge `e`. -/
def srcOf (I : Inputs) (e : Fin 800000) : Fin 50000 := nodeOf (I.src (ix1 e))
/-- The destination node of edge `e` as the gather reads it. -/
def dstOf (I : Inputs) (e : Fin 800000) : Fin 50000 := nodeOf (I.dst (ix1 e))

/-- The edge code before the edge network: edge feature plus the two projected endpoint rows. -/
def t (I : Inputs) (e : Fin 800000) (j : Fin 128) : EReal :=
  (I.ef (ix2 e j) + lin I.Wsrc I.bsrc (row I.h (srcOf I e)) j) + lin I.Wdst I.bdst (row I.h (dstOf I e)) j

/-- The edge network's three hidden rows and its output row. -/
def x1 (I : Inputs) (e : Fin 800000) : Fin 128 → EReal := fun j => relu (t I e j)
def x2 (I : Inputs) (e : Fin 800000) : Fin 128 → EReal := fun j => relu (lin I.Wphi1 I.bphi1 (x1 I e) j)
def x3 (I : Inputs) (e : Fin 800000) : Fin 128 → EReal := fun j => relu (lin I.Wphi2 I.bphi2 (x2 I e) j)
def emb (I : Inputs) (e : Fin 800000) : Fin 128 → EReal := fun j => lin I.Wphi3 I.bphi3 (x3 I e) j

/-- The message of edge `e`: the source row times the edge embedding, entrywise. -/
def msg (I : Inputs) (e : Fin 800000) (j : Fin 128) : EReal := I.h (ix2 (srcOf I e) j) * emb I e j

/-- The message array. -/
def M (I : Inputs) : Mat 800000 128 := fun i => msg I ⟨(i 0).val, idx2_lt0 i⟩ ⟨(i 1).val, idx2_lt1 i⟩

theorem M_ix2 (I : Inputs) (e : Fin 800000) (j : Fin 128) : M I (ix2 e j) = msg I e j := rfl

/-- The node network on node `n`, given the aggregated messages `agg`. -/
def y1 (I : Inputs) (agg : Mat 50000 128) (n : Fin 50000) : Fin 128 → EReal :=
  fun j => relu (lin I.Wpd I.bpd (row I.h n) j + lin I.Wpu I.bpu (row agg n) j)
def y2 (I : Inputs) (agg : Mat 50000 128) (n : Fin 50000) : Fin 128 → EReal :=
  fun j => relu (lin I.Wth1 I.bth1 (y1 I agg n) j)
def outE (I : Inputs) (agg : Mat 50000 128) (n : Fin 50000) (j : Fin 128) : EReal := lin I.Wth2 I.bth2 (y2 I agg n) j

/-- The layer's result array. -/
def out (I : Inputs) (agg : Mat 50000 128) : Mat 50000 128 :=
  fun i => outE I agg ⟨(i 0).val, idx2_lt0 i⟩ ⟨(i 1).val, idx2_lt1 i⟩

theorem out_ix2 (I : Inputs) (agg : Mat 50000 128) (n : Fin 50000) (j : Fin 128) : out I agg (ix2 n j) = outE I agg n j := rfl

/-! ## The three tiled calls, each as a function of the arrays it is handed

The tiled calls take their weights transposed, [in, out], and their biases as 1×n rows; the first call applies three
dense layers at once through one 128×384 weight. -/

/-- A dense layer whose weight is stored transposed, [in, out], and whose bias is a 1×128 row. -/
def linT (Wt : Mat 128 128) (b2 : Mat 1 128) (x : Fin 128 → EReal) (j : Fin 128) : EReal :=
  (∑ k : Fin 128, x k * Wt (ix2 k j)) + b2 (ix2 (0 : Fin 1) j)

/-- The first call at node `n`, output column `j` of 384: the three fused projections. -/
def proj (X : Mat 50000 128) (Wt : Mat 128 384) (B : Mat 1 384) (n : Fin 50000) (j : Fin 384) : EReal :=
  (∑ k : Fin 128, X (ix2 n k) * Wt (ix2 k j)) + B (ix2 (0 : Fin 1) j)

/-- The second call at edge `e`, column `j`: `GS` holds the gathered source rows, projected (columns 0–127) beside raw
    (columns 128–255), `HD` the gathered projected destination rows, `EF` the edge features. -/
def edgeK (GS : Mat 800000 256) (HD EF : Mat 800000 128) (W1 : Mat 128 128) (b1 : Mat 1 128) (W2 : Mat 128 128)
    (b2 : Mat 1 128) (W3 : Mat 128 128) (b3 : Mat 1 128) (e : Fin 800000) (j : Fin 128) : EReal :=
  GS (ix2 e ⟨128 + j.val, by omega⟩) *
    linT W3 b3 (fun a3 => relu (linT W2 b2 (fun a2 => relu (linT W1 b1 (fun a1 =>
      relu ((EF (ix2 e a1) + GS (ix2 e ⟨a1.val, by omega⟩)) + HD (ix2 e a1))) a2)) a3)) j

/-- The third call at node `n`, column `j`: `PD` the projected node rows, `AGG` the aggregated messages. -/
def nodeK (PD AGG : Mat 50000 128) (Wu : Mat 128 128) (bu : Mat 1 128) (W1 : Mat 128 128) (b1 : Mat 1 128)
    (W2 : Mat 128 128) (b2 : Mat 1 128) (n : Fin 50000) (j : Fin 128) : EReal :=
  linT W2 b2 (fun a2 => relu (linT W1 b1 (fun a1 => relu (PD (ix2 n a1) + linT Wu bu (row AGG n) a1)) a2)) j

end Cert.Spec

end
-- ==== Proof.KIVal0.lean ====
/-
  The first tiled call, value side, over the extended reals: what it leaves in its three result arrays as one function of
  the arrays it is handed. Each grid point loads a block of 5000 node rows, the whole 128×384 weight and the whole 1×384
  bias, forms the block's product with the weight plus the bias, and stores columns 0–127, 128–255 and 256–383 of that
  into its three result blocks. Read entry by entry: the product is the sum over the 128 contracted positions, the slices
  shift the column, and block t of each result is rows 5000·t … 5000·t + 4999 of the fused projection of all nodes; the
  ten blocks tile the 50000 rows.
-/
import proofs.«137344_j32736240730704_2_alg».proof.Proof.KIData
import proofs.«137344_j32736240730704_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-buffer rectangle of rank two. -/
theorem zeroOff2 : (![0, 0] : Fin 2 → Nat) = fun _ => 0 := funext fun a => by fin_cases a <;> rfl

/-- The dimension numbers of call 0's product: [5000,128] times [128,384]. -/
abbrev D0 : DotDims S5000x128 S128x384 S5000x384 := dot_S5000x128_S128x384_S5000x384_1_0_0_1_n_n

/-- The product into the zero accumulator, at row r and column j: the sum over the 128 contracted positions. -/
theorem mm0_apply (a : FVec Ideal S5000x128 .bf16) (b : FVec Ideal S128x384 .bf16) (r : Fin 5000) (j : Fin 384) :
    matmul (F := Ideal) D0 none a b (constant S5000x384 .f32 0x00000000#32) (ix2 r j) = ∑ k : Fin 128, a (ix2 r k) * b (ix2 k j) := by
  show FloatOps.matmul D0 none a b (constant S5000x384 .f32 0x00000000#32) (ix2 r j) = _
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 r j) ((contrEquiv1 D0 128 rfl rfl).symm k) = ix2 r k := funext fun a => Fin.ext (by
    match a with
    | ⟨0, _⟩ =>
      show (D0.lhsIdx (ix2 r j) ((contrEquiv1 D0 128 rfl rfl).symm k) 0).val = r.val
      unfold DotDims.lhsIdx
      rw [dif_neg (show ¬(0 : Fin S5000x128.rank) ∈ D0.lhsBatch by decide), dif_pos (show (0 : Fin S5000x128.rank) ∈ D0.lhsNonContracting by decide)]
      rfl
    | ⟨1, _⟩ => exact (D0.lhsIdx_val_of_single rfl (ix2 r j) _).trans hk)
  have er : D0.rhsIdx (ix2 r j) ((contrEquiv1 D0 128 rfl rfl).symm k) = ix2 k j := funext fun a => Fin.ext (by
    match a with
    | ⟨0, _⟩ => exact (D0.rhsIdx_val_of_single rfl (ix2 r j) _).trans hk
    | ⟨1, _⟩ =>
      show (D0.rhsIdx (ix2 r j) ((contrEquiv1 D0 128 rfl rfl).symm k) 1).val = j.val
      unfold DotDims.rhsIdx
      rw [dif_neg (show ¬(1 : Fin S128x384.rank) ∈ D0.rhsBatch by decide), dif_pos (show (1 : Fin S128x384.rank) ∈ D0.rhsNonContracting by decide)]
      rfl)
  rw [el, er]

/-- The fused projection of a block, at row r and column j of 384: the row times the weight's column, plus the bias. -/
theorem k0_pay1_apply (x0 : Vec Ideal S5000x128 .f32) (x1 : Vec Ideal S128x384 .bf16) (x2 : Vec Ideal S1x384 .f32)
    (r : Fin 5000) (j : Fin 384) :
    k0_pay1 x0 x1 x2 (ix2 r j) = (∑ k : Fin 128, x0 (ix2 r k) * x1 (ix2 k j)) + x2 (ix2 (0 : Fin 1) j) := by
  unfold k0_pay1
  rw [addf_apply, shapeCast_self, shapeCast_self]
  refine congrArg₂ (· + ·) ((mm0_apply _ _ r j).trans (Finset.sum_congr rfl fun k _ => ?_)) ?_
  · rw [truncf_apply]
  · exact broadcastTo_apply _ _ (ix2 r j) (ix2 (0 : Fin 1) j) (fun a => by
      match a with
      | ⟨0, _⟩ => show 0 = if (1 : Nat) = 1 then 0 else _; rw [if_pos rfl]
      | ⟨1, _⟩ => show j.val = if (384 : Nat) = 1 then 0 else j.val; rw [if_neg (by decide)])

/-- What call 0 stores for its first result, at row r and column j: columns 0 to 127 of the fused projection. -/
theorem out0_3_apply (x0 : Vec Ideal S5000x128 .f32) (x1 : Vec Ideal S128x384 .bf16) (x2 : Vec Ideal S1x384 .f32)
    (r : Fin 5000) (j : Fin 128) :
    out0_3 x0 x1 x2 (ix2 r j) = (∑ k : Fin 128, x0 (ix2 r k) * x1 (ix2 k ⟨j.val, by omega⟩)) + x2 (ix2 (0 : Fin 1) ⟨j.val, by omega⟩) := by
  unfold out0_3
  rw [View.canon_unit_zero zeroOff2]
  simp only [View.ld_unit_zero (S := S5000x128) zeroOff2, View.ld_unit_zero (S := S128x384) zeroOff2, View.ld_unit_zero (S := S1x384) zeroOff2]
  unfold k0_pay2
  refine (extractStridedSlice_apply _ _ _ (ix2 r j) (ix2 r ⟨j.val, by omega⟩) (fun a => ?_)).trans (k0_pay1_apply x0 x1 x2 r ⟨j.val, by omega⟩)
  match a with
  | ⟨0, _⟩ => show r.val = 0 + r.val; omega
  | ⟨1, _⟩ => show j.val = 0 + j.val; omega

/-- Its second result: columns 128 to 255. -/
theorem out0_4_apply (x0 : Vec Ideal S5000x128 .f32) (x1 : Vec Ideal S128x384 .bf16) (x2 : Vec Ideal S1x384 .f32)
    (r : Fin 5000) (j : Fin 128) :
    out0_4 x0 x1 x2 (ix2 r j) = (∑ k : Fin 128, x0 (ix2 r k) * x1 (ix2 k ⟨128 + j.val, by omega⟩)) + x2 (ix2 (0 : Fin 1) ⟨128 + j.val, by omega⟩) := by
  unfold out0_4
  rw [View.canon_unit_zero zeroOff2]
  simp only [View.ld_unit_zero (S := S5000x128) zeroOff2, View.ld_unit_zero (S := S128x384) zeroOff2, View.ld_unit_zero (S := S1x384) zeroOff2]
  unfold k0_pay3
  refine (extractStridedSlice_apply _ _ _ (ix2 r j) (ix2 r ⟨128 + j.val, by omega⟩) (fun a => ?_)).trans (k0_pay1_apply x0 x1 x2 r ⟨128 + j.val, by omega⟩)
  match a with
  | ⟨0, _⟩ => show r.val = 0 + r.val; omega
  | ⟨1, _⟩ => show 128 + j.val = 128 + j.val; rfl

/-- Its third result: columns 256 to 383. -/
theorem out0_5_apply (x0 : Vec Ideal S5000x128 .f32) (x1 : Vec Ideal S128x384 .bf16) (x2 : Vec Ideal S1x384 .f32)
    (r : Fin 5000) (j : Fin 128) :
    out0_5 x0 x1 x2 (ix2 r j) = (∑ k : Fin 128, x0 (ix2 r k) * x1 (ix2 k ⟨256 + j.val, by omega⟩)) + x2 (ix2 (0 : Fin 1) ⟨256 + j.val, by omega⟩) := by
  unfold out0_5
  rw [View.canon_unit_zero zeroOff2]
  simp only [View.ld_unit_zero (S := S5000x128) zeroOff2, View.ld_unit_zero (S := S128x384) zeroOff2, View.ld_unit_zero (S := S1x384) zeroOff2]
  unfold k0_pay4
  refine (extractStridedSlice_apply _ _ _ (ix2 r j) (ix2 r ⟨256 + j.val, by omega⟩) (fun a => ?_)).trans (k0_pay1_apply x0 x1 x2 r ⟨256 + j.val, by omega⟩)
  match a with
  | ⟨0, _⟩ => show r.val = 0 + r.val; omega
  | ⟨1, _⟩ => show 256 + j.val = 256 + j.val; rfl

variable (V : (c : Dev nD) → (b : Ref sig .tc) → Buf (Elt Ideal) ((c : Thread nD τ).loc b))

/-- The fused projection read at equal coordinates. -/
theorem proj_congr (X : Cert.Spec.Mat 50000 128) (Wt : Cert.Spec.Mat 128 384) (B : Cert.Spec.Mat 1 384) {n n' : Fin 50000} {j j' : Fin 384}
    (hn : n.val = n'.val) (hj : j.val = j'.val) : Cert.Spec.proj X Wt B n j = Cert.Spec.proj X Wt B n' j' := by
  obtain rfl := Fin.ext hn; obtain rfl := Fin.ext hj; rfl

/-- Call 0 has ten grid points. -/
theorem lt_N0 (t : Fin cfg0.N) : t.val < 10 := lt_of_lt_of_eq t.isLt (show cfg0.N = 10 from N_0)

/-- The block indices of call 0's windows at each grid point: the row-blocked windows move with the point, the weight
    and the bias stay at block zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node-feature block at point t is rows 5000·t … of the node features. -/
theorem iblk0_0_apply (c : Dev nD) (t : Fin cfg0.N) (r : Fin 5000) (k : Fin 128) (n : Fin 50000) (hn : n.val = 5000 * t.val + r.val) :
    (iblk0 V c 0 t : Vec Ideal S5000x128 .f32) (ix2 r k) = (V c main_arg0 : Cert.Spec.Mat 50000 128) (ix2 n k) := by
  obtain ⟨e0, e1, -⟩ := idx0 t
  unfold iblk0
  rw [View.read_apply]
  show V c main_arg0 _ = V c main_arg0 _
  congr 1
  funext a; apply Fin.ext
  match a with
  | ⟨0, _⟩ => show win0_0.index t 0 * 5000 + 1 * r.val = n.val; rw [e0, hn]; omega
  | ⟨1, _⟩ => show win0_0.index t 1 * 128 + 1 * k.val = k.val; rw [e1]; omega

/-- The weight block at every point is the whole weight. -/
theorem iblk0_1_apply (c : Dev nD) (t : Fin cfg0.N) (k : Fin 128) (j : Fin 384) :
    (iblk0 V c 1 t : Vec Ideal S128x384 .bf16) (ix2 k j) = (V c main_v4 : Cert.Spec.Mat 128 384) (ix2 k j) := by
  obtain ⟨-, -, e0, e1, -⟩ := idx0 t
  unfold iblk0
  rw [View.read_apply]
  show V c main_v4 _ = V c main_v4 _
  congr 1
  funext a; apply Fin.ext
  match a with
  | ⟨0, _⟩ => show win0_1.index t 0 * 128 + 1 * k.val = k.val; rw [e0]; omega
  | ⟨1, _⟩ => show win0_1.index t 1 * 384 + 1 * j.val = j.val; rw [e1]; omega

/-- The bias block at every point is the whole bias row. -/
theorem iblk0_2_apply (c : Dev nD) (t : Fin cfg0.N) (j : Fin 384) :
    (iblk0 V c 2 t : Vec Ideal S1x384 .f32) (ix2 (0 : Fin 1) j) = (V c main_v2 : Cert.Spec.Mat 1 384) (ix2 (0 : Fin 1) j) := by
  obtain ⟨-, -, -, -, e0, e1, -⟩ := idx0 t
  unfold iblk0
  rw [View.read_apply]
  show V c main_v2 _ = V c main_v2 _
  congr 1
  funext a; apply Fin.ext
  match a with
  | ⟨0, _⟩ => show win0_2.index t 0 * 1 + 1 * 0 = 0; rw [e0]
  | ⟨1, _⟩ => show win0_2.index t 1 * 384 + 1 * j.val = j.val; rw [e1]; omega

/-- What point t stores for the first result, at row r and column j of its block: the fused projection of node
    5000·t + r at column j. -/
theorem blk0_3_apply (c : Dev nD) (t : Fin cfg0.N) (r : Fin 5000) (j : Fin 128) (n : Fin 50000)
    (hn : n.val = 5000 * t.val + r.val) :
    out0_3 (iblk0 V c 0 t) (iblk0 V c 1 t) (iblk0 V c 2 t) (ix2 r j)
      = Cert.Spec.proj (V c main_arg0) (V c main_v4) (V c main_v2) n ⟨j.val, by omega⟩ := by
  refine (out0_3_apply _ _ _ r j).trans ?_
  unfold Cert.Spec.proj
  exact congrArg₂ (· + ·) (Finset.sum_congr rfl fun k _ => congrArg₂ (· * ·) (iblk0_0_apply V c t r k n hn) (iblk0_1_apply V c t k _)) (iblk0_2_apply V c t _)

/-- The same for the second result, at column 128 + j. -/
theorem blk0_4_apply (c : Dev nD) (t : Fin cfg0.N) (r : Fin 5000) (j : Fin 128) (n : Fin 50000)
    (hn : n.val = 5000 * t.val + r.val) :
    out0_4 (iblk0 V c 0 t) (iblk0 V c 1 t) (iblk0 V c 2 t) (ix2 r j)
      = Cert.Spec.proj (V c main_arg0) (V c main_v4) (V c main_v2) n ⟨128 + j.val, by omega⟩ := by
  refine (out0_4_apply _ _ _ r j).trans ?_
  unfold Cert.Spec.proj
  exact congrArg₂ (· + ·) (Finset.sum_congr rfl fun k _ => congrArg₂ (· * ·) (iblk0_0_apply V c t r k n hn) (iblk0_1_apply V c t k _)) (iblk0_2_apply V c t _)

/-- The same for the third result, at column 256 + j. -/
theorem blk0_5_apply (c : Dev nD) (t : Fin cfg0.N) (r : Fin 5000) (j : Fin 128) (n : Fin 50000)
    (hn : n.val = 5000 * t.val + r.val) :
    out0_5 (iblk0 V c 0 t) (iblk0 V c 1 t) (iblk0 V c 2 t) (ix2 r j)
      = Cert.Spec.proj (V c main_arg0) (V c main_v4) (V c main_v2) n ⟨256 + j.val, by omega⟩ := by
  refine (out0_5_apply _ _ _ r j).trans ?_
  unfold Cert.Spec.proj
  exact congrArg₂ (· + ·) (Finset.sum_congr rfl fun k _ => congrArg₂ (· * ·) (iblk0_0_apply V c t r k n hn) (iblk0_1_apply V c t k _)) (iblk0_2_apply V c t _)

/-- Columns off … off + 127 of the fused projection of every node, as one array. -/
def projCols (off : Nat) (hoff : off + 128 ≤ 384) (X : Cert.Spec.Mat 50000 128) (Wt : Cert.Spec.Mat 128 384) (B : Cert.Spec.Mat 1 384) :
    Cert.Spec.Mat 50000 128 :=
  fun i => Cert.Spec.proj X Wt B ⟨(i 0).val, idx2_lt0 i⟩ ⟨off + (i 1).val, by have := idx2_lt1 i; omega⟩

/-- What point t writes back for the first result is block t of columns 0 … 127 of the fused projection. -/
theorem flushed0_3 (c : Dev nD) (t : Fin cfg0.N) :
    (dat0 V c).flushed 3 t = ((cfg0.win 3).blk t).view.read (Elt Ideal) (projCols 0 (by omega) (V c main_arg0) (V c main_v4) (V c main_v2)) := by
  show (cfg0.win 3).cut (grid0.coords t) ((dat0 V c).after 3 t) = _
  rw [after0_3]
  obtain ⟨-, -, -, -, -, -, e0, e1, -⟩ := idx0 t
  funext y
  rw [View.read_apply]
  have hy0 : (y 0).val < 5000 := (y 0).isLt
  have hy1 : (y 1).val < 128 := (y 1).isLt
  have ey : (cfg0.win 3).xinj (grid0.coords t) y = ix2 (⟨(y 0).val, hy0⟩ : Fin 5000) (⟨(y 1).val, hy1⟩ : Fin 128) :=
    funext fun a => by match a with | ⟨0, _⟩ => rfl | ⟨1, _⟩ => rfl
  show out0_3 (iblk0 V c 0 t) (iblk0 V c 1 t) (iblk0 V c 2 t) ((cfg0.win 3).xinj (grid0.coords t) y)
    = projCols 0 (by omega) (V c main_arg0) (V c main_v4) (V c main_v2) (((cfg0.win 3).blk t).view.emb y)
  rw [ey]
  refine (blk0_3_apply V c t _ _ _ ?_).trans (proj_congr _ _ _ rfl ?_)
  · show win0_3.index t 0 * 5000 + 1 * (y 0).val = 5000 * t.val + (y 0).val; rw [e0]; omega
  · show (y 1).val = 0 + (win0_3.index t 1 * 128 + 1 * (y 1).val); rw [e1]; omega

/-- Every entry of the first result lies in the block of the point its row's block number names. -/
theorem cover0_3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, e0, e1, -⟩ := idx0 ⟨(i 0).val / 5000, ht⟩
  refine ⟨⟨(i 0).val / 5000, ht⟩, flush0_3 _, ?_⟩
  show i ∈ ((View.whole main_v5_0).slice (win0_3.rect ⟨(i 0).val / 5000, ht⟩)).set
  rw [View.set_slice_whole, Rect.mem_set_unit]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e1]; omega

/-- After call 0 its first result holds columns 0 … 127 of the fused projection. -/
theorem final0_3_fun (c : Dev nD) :
    (dat0 V c).arrAt 3 cfg0.N = projCols 0 (by omega) (V c main_arg0) (V c main_v4) (V c main_v2) :=
  (dat0 V c).arrAt_eq_of_cover 3 _ (fun t _ => flushed0_3 V c t) cover0_3

theorem final0_3 (c : Dev nD) (n : Fin 50000) (j : Fin 128) :
    (dat0 (F := Ideal) V c).arrAt 3 cfg0.N (ix2 n j) = Cert.Spec.proj (V c main_arg0) (V c main_v4) (V c main_v2) n ⟨j.val, by omega⟩ :=
  (congrFun (final0_3_fun V c) (ix2 n j)).trans (proj_congr _ _ _ rfl (Nat.zero_add _))

/-- What point t writes back for the second result is block t of columns 128 … 255 of the fused projection. -/
theorem flushed0_4 (c : Dev nD) (t : Fin cfg0.N) :
    (dat0 V c).flushed 4 t = ((cfg0.win 4).blk t).view.read (Elt Ideal) (projCols 128 (by omega) (V c main_arg0) (V c main_v4) (V c main_v2)) := by
  show (cfg0.win 4).cut (grid0.coords t) ((dat0 V c).after 4 t) = _
  rw [after0_4]
  obtain ⟨-, -, -, -, -, -, -, -, e0, e1, -⟩ := idx0 t
  funext y
  rw [View.read_apply]
  have hy0 : (y 0).val < 5000 := (y 0).isLt
  have hy1 : (y 1).val < 128 := (y 1).isLt
  have ey : (cfg0.win 4).xinj (grid0.coords t) y = ix2 (⟨(y 0).val, hy0⟩ : Fin 5000) (⟨(y 1).val, hy1⟩ : Fin 128) :=
    funext fun a => by match a with | ⟨0, _⟩ => rfl | ⟨1, _⟩ => rfl
  show out0_4 (iblk0 V c 0 t) (iblk0 V c 1 t) (iblk0 V c 2 t) ((cfg0.win 4).xinj (grid0.coords t) y)
    = projCols 128 (by omega) (V c main_arg0) (V c main_v4) (V c main_v2) (((cfg0.win 4).blk t).view.emb y)
  rw [ey]
  refine (blk0_4_apply V c t _ _ _ ?_).trans (proj_congr _ _ _ rfl ?_)
  · show win0_4.index t 0 * 5000 + 1 * (y 0).val = 5000 * t.val + (y 0).val; rw [e0]; omega
  · show 128 + (y 1).val = 128 + (win0_4.index t 1 * 128 + 1 * (y 1).val); rw [e1]; omega

/-- Every entry of the second result lies in the block of the point its row's block number names. -/
theorem cover0_4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, -, -, e0, e1, -⟩ := idx0 ⟨(i 0).val / 5000, ht⟩
  refine ⟨⟨(i 0).val / 5000, ht⟩, flush0_4 _, ?_⟩
  show i ∈ ((View.whole main_v5_1).slice (win0_4.rect ⟨(i 0).val / 5000, ht⟩)).set
  rw [View.set_slice_whole, Rect.mem_set_unit]
  intro a
  match a with
  | ⟨0, _⟩ =>
    show win0_4.index ⟨(i 0).val / 5000, ht⟩ 0 * 5000 ≤ (i 0).val ∧ (i 0).val < win0_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ 1 * 128 ≤ (i 1).val ∧ (i 1).val < win0_4.index ⟨(i 0).val / 5000, ht⟩ 1 * 128 + 128
    rw [e1]; omega

/-- After call 0 its second result holds columns 128 … 255 of the fused projection. -/
theorem final0_4_fun (c : Dev nD) :
    (dat0 V c).arrAt 4 cfg0.N = projCols 128 (by omega) (V c main_arg0) (V c main_v4) (V c main_v2) :=
  (dat0 V c).arrAt_eq_of_cover 4 _ (fun t _ => flushed0_4 V c t) cover0_4

theorem final0_4 (c : Dev nD) (n : Fin 50000) (j : Fin 128) :
    (dat0 (F := Ideal) V c).arrAt 4 cfg0.N (ix2 n j) = Cert.Spec.proj (V c main_arg0) (V c main_v4) (V c main_v2) n ⟨128 + j.val, by omega⟩ :=
  (congrFun (final0_4_fun V c) (ix2 n j)).trans (proj_congr _ _ _ rfl rfl)

/-- What point t writes back for the third result is block t of columns 256 … 383 of the fused projection. -/
theorem flushed0_5 (c : Dev nD) (t : Fin cfg0.N) :
    (dat0 V c).flushed 5 t = ((cfg0.win 5).blk t).view.read (Elt Ideal) (projCols 256 (by omega) (V c main_arg0) (V c main_v4) (V c main_v2)) := by
  show (cfg0.win 5).cut (grid0.coords t) ((dat0 V c).after 5 t) = _
  rw [after0_5]
  obtain ⟨-, -, -, -, -, -, -, -, -, -, e0, e1⟩ := idx0 t
  funext y
  rw [View.read_apply]
  have hy0 : (y 0).val < 5000 := (y 0).isLt
  have hy1 : (y 1).val < 128 := (y 1).isLt
  have ey : (cfg0.win 5).xinj (grid0.coords t) y = ix2 (⟨(y 0).val, hy0⟩ : Fin 5000) (⟨(y 1).val, hy1⟩ : Fin 128) :=
    funext fun a => by match a with | ⟨0, _⟩ => rfl | ⟨1, _⟩ => rfl
  show out0_5 (iblk0 V c 0 t) (iblk0 V c 1 t) (iblk0 V c 2 t) ((cfg0.win 5).xinj (grid0.coords t) y)
    = projCols 256 (by omega) (V c main_arg0) (V c main_v4) (V c main_v2) (((cfg0.win 5).blk t).view.emb y)
  rw [ey]
  refine (blk0_5_apply V c t _ _ _ ?_).trans (proj_congr _ _ _ rfl ?_)
  · show win0_5.index t 0 * 5000 + 1 * (y 0).val = 5000 * t.val + (y 0).val; rw [e0]; omega
  · show 256 + (y 1).val = 256 + (win0_5.index t 1 * 128 + 1 * (y 1).val); rw [e1]; omega

/-- Every entry of the third result lies in the block of the point its row's block number names. -/
theorem cover0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, -, -, -, -, e0, e1⟩ := idx0 ⟨(i 0).val / 5000, ht⟩
  refine ⟨⟨(i 0).val / 5000, ht⟩, flush0_5 _, ?_⟩
  show i ∈ ((View.whole main_v5_2).slice (win0_5.rect ⟨(i 0).val / 5000, ht⟩)).set
  rw [View.set_slice_whole, Rect.mem_set_unit]
  intro a
  match a with
  | ⟨0, _⟩ =>
    show win0_5.index ⟨(i 0).val / 5000, ht⟩ 0 * 5000 ≤ (i 0).val ∧ (i 0).val < win0_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ 1 * 128 ≤ (i 1).val ∧ (i 1).val < win0_5.index ⟨(i 0).val / 5000, ht⟩ 1 * 128 + 128
    rw [e1]; omega

/-- After call 0 its third result holds columns 256 … 383 of the fused projection. -/
theorem final0_5_fun (c : Dev nD) :
    (dat0 V c).arrAt 5 cfg0.N = projCols 256 (by omega) (V c main_arg0) (V c main_v4) (V c main_v2) :=
  (dat0 V c).arrAt_eq_of_cover 5 _ (fun t _ => flushed0_5 V c t) cover0_5

theorem final0_5 (c : Dev nD) (n : Fin 50000) (j : Fin 128) :
    (dat0 (F := Ideal) V c).arrAt 5 cfg0.N (ix2 n j) = Cert.Spec.proj (V c main_arg0) (V c main_v4) (V c main_v2) n ⟨256 + j.val, by omega⟩ :=
  (congrFun (final0_5_fun V c) (ix2 n j)).trans (proj_congr _ _ _ rfl rfl)

end Cert.KernelIdeal.Hand

end
-- ==== Proof.KIVal1.lean ====
/-
  The second tiled call, value side, over the extended reals: the array it leaves as one function of the arrays it is
  handed. A grid point works on 4000 consecutive edges. It reads their rows of the gathered source array (256 wide: the
  projected source row in columns 0–127 beside the raw source row in columns 128–255), of the gathered projected
  destination rows and of the edge features, and three whole weights, stored [in, out], with their 1×128 bias rows. It
  adds edge feature, projected source and projected destination, rectifies, applies the three dense layers with a
  rectifier after the first two, and stores the raw source row times the outcome, entry by entry. A product with a
  weight at (r, j) is the sum over the 128 contracted positions; a slice shifts the column; a bias row is read at column j
  on every row; narrowing to the stored format is the identity over the extended reals. Block t of the result is
  therefore rows 4000·t … 4000·t + 3999 of the edge function of the whole arrays, and the 200 blocks tile the 800000 rows.
-/
import proofs.«137344_j32736240730704_2_alg».proof.Proof.KIData
import proofs.«137344_j32736240730704_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-buffer rectangle of rank two. -/
private theorem zeroOff2_c1 : (![0, 0] : Fin 2 → Nat) = fun _ => 0 := funext fun a => by fin_cases a <;> rfl

/-- The dimension numbers of call 1's products: [4000,128] times [128,128]. -/
private abbrev D1 : DotDims S4000x128 S128x128 S4000x128 := dot_S4000x128_S128x128_S4000x128_1_0_0_1_n_n

/-- The product into the zero accumulator, at row r and column j: the sum over the 128 contracted positions. -/
private theorem mm1_apply (a : FVec Ideal S4000x128 .bf16) (b : FVec Ideal S128x128 .bf16) (r : Fin 4000) (j : Fin 128) :
    matmul (F := Ideal) D1 none a b (constant S4000x128 .f32 0x00000000#32) (ix2 r j) = ∑ k : Fin 128, a (ix2 r k) * b (ix2 k j) := by
  show FloatOps.matmul D1 none a b (constant S4000x128 .f32 0x00000000#32) (ix2 r j) = _
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 r j) ((contrEquiv1 D1 128 rfl rfl).symm k) = ix2 r k := funext fun a => Fin.ext (by
    match a with
    | ⟨0, _⟩ =>
      show (D1.lhsIdx (ix2 r j) ((contrEquiv1 D1 128 rfl rfl).symm k) 0).val = r.val
      unfold DotDims.lhsIdx
      rw [dif_neg (show ¬(0 : Fin S4000x128.rank) ∈ D1.lhsBatch by decide), dif_pos (show (0 : Fin S4000x128.rank) ∈ D1.lhsNonContracting by decide)]
      rfl
    | ⟨1, _⟩ => exact (D1.lhsIdx_val_of_single rfl (ix2 r j) _).trans hk)
  have er : D1.rhsIdx (ix2 r j) ((contrEquiv1 D1 128 rfl rfl).symm k) = ix2 k j := funext fun a => Fin.ext (by
    match a with
    | ⟨0, _⟩ => exact (D1.rhsIdx_val_of_single rfl (ix2 r j) _).trans hk
    | ⟨1, _⟩ =>
      show (D1.rhsIdx (ix2 r j) ((contrEquiv1 D1 128 rfl rfl).symm k) 1).val = j.val
      unfold DotDims.rhsIdx
      rw [dif_neg (show ¬(1 : Fin S128x128.rank) ∈ D1.rhsBatch by decide), dif_pos (show (1 : Fin S128x128.rank) ∈ D1.rhsNonContracting by decide)]
      rfl)
  rw [el, er]

/-- A dense layer of a block (the product with a weight stored [in, out], plus the bias row broadcast down the rows), at
    row r and column j. -/
private theorem dense1_apply (a : FVec Ideal S4000x128 .bf16) (w : FVec Ideal S128x128 .bf16) (b : FVec Ideal S1x128 .f32) (r : Fin 4000) (j : Fin 128) :
    addf (matmul (F := Ideal) D1 none a (shapeCast S128x128 w shapeCasts_S128x128_S128x128) (constant S4000x128 .f32 0x00000000#32))
        (broadcastTo S4000x128 (shapeCast S1x128 b shapeCasts_S1x128_S1x128) broadcasts_S1x128_S4000x128) (ix2 r j)
      = Cert.Spec.linT w b (fun k => a (ix2 r k)) j := by
  rw [addf_apply, shapeCast_self, shapeCast_self]
  unfold Cert.Spec.linT
  refine congrArg₂ (· + ·) (mm1_apply a w r j) ?_
  exact broadcastTo_apply _ _ (ix2 r j) (ix2 (0 : Fin 1) j) (fun a => by
    match a with
    | ⟨0, _⟩ => show 0 = if (1 : Nat) = 1 then 0 else _; rw [if_pos rfl]
    | ⟨1, _⟩ => show j.val = if (128 : Nat) = 1 then 0 else j.val; rw [if_neg (by decide)])

/-- The raw source rows of a block: columns 128 … 255 of the gathered-source block. -/
private theorem k1_pay3_apply (v0 : Vec Ideal S4000x256 .f32) (r : Fin 4000) (j : Fin 128) :
    k1_pay3 v0 (ix2 r j) = v0 (ix2 r ⟨128 + j.val, by omega⟩) := by
  unfold k1_pay3 k1_pay2
  rw [shapeCast_self]
  refine extractStridedSlice_apply _ _ _ (ix2 r j) (ix2 r ⟨128 + j.val, by omega⟩) (fun a => ?_)
  match a with
  | ⟨0, _⟩ => show r.val = 0 + r.val; omega
  | ⟨1, _⟩ => show 128 + j.val = 128 + j.val; rfl

/-- The edge network of a block up to its last product, at row r and column j. -/
private theorem k1_pay4_apply (v0 : Vec Ideal S4000x256 .f32) (v4 v6 : Vec Ideal S4000x128 .f32) (v12 : Vec Ideal S128x128 .bf16)
    (v15 : Vec Ideal S1x128 .f32) (v22 : Vec Ideal S128x128 .bf16) (v25 : Vec Ideal S1x128 .f32) (v32 : Vec Ideal S128x128 .bf16)
    (r : Fin 4000) (j : Fin 128) :
    k1_pay4 v0 v4 v6 v12 v15 v22 v25 v32 (ix2 r j)
      = ∑ k : Fin 128, Cert.Spec.relu (Cert.Spec.linT v22 v25 (fun a2 => Cert.Spec.relu (Cert.Spec.linT v12 v15 (fun a1 =>
          Cert.Spec.relu ((v4 (ix2 r a1) + v0 (ix2 r ⟨a1.val, by omega⟩)) + v6 (ix2 r a1))) a2)) k) * v32 (ix2 k j) := by
  unfold k1_pay4 k1_pay2
  refine (mm1_apply _ _ r j).trans (Finset.sum_congr rfl fun k _ => ?_)
  refine congrArg₂ (fun (a b : EReal) => a * b) ?_ (congrFun (shapeCast_self v32 _) (ix2 k j))
  refine congrArg (max · Cert.Spec.zero) ?_
  refine (dense1_apply _ v22 v25 r k).trans (congrArg (fun f => Cert.Spec.linT v22 v25 f k) (funext fun a2 => ?_))
  refine congrArg (max · Cert.Spec.zero) ?_
  refine (dense1_apply _ v12 v15 r a2).trans (congrArg (fun f => Cert.Spec.linT v12 v15 f a2) (funext fun a1 => ?_))
  refine congrArg (max · Cert.Spec.zero) ?_
  refine congrArg₂ (fun (a b : EReal) => a + b) (congrArg (v4 (ix2 r a1) + ·) ?_) (congrFun (shapeCast_self v6 _) (ix2 r a1))
  rw [shapeCast_self]
  refine extractStridedSlice_apply _ _ _ (ix2 r a1) (ix2 r ⟨a1.val, by omega⟩) (fun a => ?_)
  match a with
  | ⟨0, _⟩ => show r.val = 0 + r.val; omega
  | ⟨1, _⟩ => show a1.val = 0 + a1.val; omega

/-- The last step of a block: the raw source row times (the last product plus its bias row). -/
private theorem k1_pay1_apply (v3 v34 : FVec Ideal S4000x128 .f32) (v35 : Vec Ideal S1x128 .f32) (r : Fin 4000) (j : Fin 128) :
    k1_pay1 v3 v34 v35 (ix2 r j) = v3 (ix2 r j) * (v34 (ix2 r j) + v35 (ix2 (0 : Fin 1) j)) := by
  unfold k1_pay1
  rw [truncf_apply, mulf_apply, addf_apply, shapeCast_self]
  refine congrArg (v3 (ix2 r j) * ·) (congrArg (v34 (ix2 r j) + ·) ?_)
  exact broadcastTo_apply _ _ (ix2 r j) (ix2 (0 : Fin 1) j) (fun a => by
    match a with
    | ⟨0, _⟩ => show 0 = if (1 : Nat) = 1 then 0 else _; rw [if_pos rfl]
    | ⟨1, _⟩ => show j.val = if (128 : Nat) = 1 then 0 else j.val; rw [if_neg (by decide)])

/-- What call 1 stores for its result, at row r and column j: the message of the block's edge. -/
private theorem out1_9_apply (x0 : Vec Ideal S4000x256 .f32) (x1 x2 : Vec Ideal S4000x128 .f32) (x3 : Vec Ideal S128x128 .bf16) (x4 : Vec Ideal S1x128 .f32)
    (x5 : Vec Ideal S128x128 .bf16) (x6 : Vec Ideal S1x128 .f32) (x7 : Vec Ideal S128x128 .bf16) (x8 : Vec Ideal S1x128 .f32)
    (r : Fin 4000) (j : Fin 128) :
    out1_9 x0 x1 x2 x3 x4 x5 x6 x7 x8 (ix2 r j)
      = x0 (ix2 r ⟨128 + j.val, by omega⟩) * Cert.Spec.linT x7 x8 (fun a3 => Cert.Spec.relu (Cert.Spec.linT x5 x6 (fun a2 =>
          Cert.Spec.relu (Cert.Spec.linT x3 x4 (fun a1 =>
            Cert.Spec.relu ((x2 (ix2 r a1) + x0 (ix2 r ⟨a1.val, by omega⟩)) + x1 (ix2 r a1))) a2)) a3)) j := by
  unfold out1_9
  rw [View.canon_unit_zero zeroOff2_c1]
  simp only [View.ld_unit_zero (S := S4000x256) zeroOff2_c1, View.ld_unit_zero (S := S4000x128) zeroOff2_c1,
    View.ld_unit_zero (S := S128x128) zeroOff2_c1, View.ld_unit_zero (S := S1x128) zeroOff2_c1]
  refine (k1_pay1_apply _ _ x8 r j).trans ?_
  rw [k1_pay3_apply, k1_pay4_apply]
  rfl

variable (V : (c : Dev nD) → (b : Ref sig .tc) → Buf (Elt Ideal) ((c : Thread nD τ).loc b))

/-- A dense layer read through entrywise equal weight, bias and input. -/
private theorem linT_congr_c1 {W W' : Cert.Spec.Mat 128 128} {b b' : Cert.Spec.Mat 1 128} {x x' : Fin 128 → EReal}
    (hW : ∀ k j, W (ix2 k j) = W' (ix2 k j)) (hb : ∀ j, b (ix2 (0 : Fin 1) j) = b' (ix2 (0 : Fin 1) j)) (hx : ∀ k, x k = x' k) (j : Fin 128) :
    Cert.Spec.linT W b x j = Cert.Spec.linT W' b' x' j := by
  unfold Cert.Spec.linT
  exact congrArg₂ (· + ·) (Finset.sum_congr rfl fun k _ => congrArg₂ (· * ·) (hx k) (hW k j)) (hb j)

private theorem idx1_0 : ∀ t : Fin cfg1.N, win1_0.index t (0 : Fin 2) = t.val ∧ win1_0.index t (1 : Fin 2) = 0 :=
  (by decide +kernel : ∀ t : Fin grid1.N, _)

/-- The gathered-source block at point t is rows 4000·t … of the gathered source rows. -/
private theorem iblk1_0_apply (c : Dev nD) (t : Fin cfg1.N) (r : Fin 4000) (k : Fin 256) (n : Fin 800000) (hn : n.val = 4000 * t.val + r.val) :
    (iblk1 V c 0 t : Vec Ideal S4000x256 .f32) (ix2 r k) = (V c main_v13 : Cert.Spec.Mat 800000 256) (ix2 n k) := by
  obtain ⟨e0, e1⟩ := idx1_0 t
  unfold iblk1
  rw [View.read_apply]
  show V c main_v13 _ = V c main_v13 _
  congr 1
  funext a; apply Fin.ext
  match a with
  | ⟨0, _⟩ => show win1_0.index t 0 * 4000 + 1 * r.val = n.val; rw [e0, hn]; omega
  | ⟨1, _⟩ => show win1_0.index t 1 * 256 + 1 * k.val = k.val; rw [e1]; omega

private theorem idx1_1 : ∀ t : Fin cfg1.N, win1_1.index t (0 : Fin 2) = t.val ∧ win1_1.index t (1 : Fin 2) = 0 :=
  (by decide +kernel : ∀ t : Fin grid1.N, _)

/-- The gathered-destination block at point t is rows 4000·t … of the gathered destination rows. -/
private theorem iblk1_1_apply (c : Dev nD) (t : Fin cfg1.N) (r : Fin 4000) (k : Fin 128) (n : Fin 800000) (hn : n.val = 4000 * t.val + r.val) :
    (iblk1 V c 1 t : Vec Ideal S4000x128 .f32) (ix2 r k) = (V c main_v20 : Cert.Spec.Mat 800000 128) (ix2 n k) := by
  obtain ⟨e0, e1⟩ := idx1_1 t
  unfold iblk1
  rw [View.read_apply]
  show V c main_v20 _ = V c main_v20 _
  congr 1
  funext a; apply Fin.ext
  match a with
  | ⟨0, _⟩ => show win1_1.index t 0 * 4000 + 1 * r.val = n.val; rw [e0, hn]; omega
  | ⟨1, _⟩ => show win1_1.index t 1 * 128 + 1 * k.val = k.val; rw [e1]; omega

private theorem idx1_2 : ∀ t : Fin cfg1.N, win1_2.index t (0 : Fin 2) = t.val ∧ win1_2.index t (1 : Fin 2) = 0 :=
  (by decide +kernel : ∀ t : Fin grid1.N, _)

/-- The edge-feature block at point t is rows 4000·t … of the edge features. -/
private theorem iblk1_2_apply (c : Dev nD) (t : Fin cfg1.N) (r : Fin 4000) (k : Fin 128) (n : Fin 800000) (hn : n.val = 4000 * t.val + r.val) :
    (iblk1 V c 2 t : Vec Ideal S4000x128 .f32) (ix2 r k) = (V c main_arg1 : Cert.Spec.Mat 800000 128) (ix2 n k) := by
  obtain ⟨e0, e1⟩ := idx1_2 t
  unfold iblk1
  rw [View.read_apply]
  show V c main_arg1 _ = V c main_arg1 _
  congr 1
  funext a; apply Fin.ext
  match a with
  | ⟨0, _⟩ => show win1_2.index t 0 * 4000 + 1 * r.val = n.val; rw [e0, hn]; omega
  | ⟨1, _⟩ => show win1_2.index t 1 * 128 + 1 * k.val = k.val; rw [e1]; omega

private theorem idx1_3 : ∀ t : Fin cfg1.N, win1_3.index t (0 : Fin 2) = 0 ∧ win1_3.index t (1 : Fin 2) = 0 :=
  (by decide +kernel : ∀ t : Fin grid1.N, _)

/-- The first weight's block at every point is the whole weight. -/
private theorem iblk1_3_apply (c : Dev nD) (t : Fin cfg1.N) (k : Fin 128) (j : Fin 128) :
    (iblk1 V c 3 t : Vec Ideal S128x128 .bf16) (ix2 k j) = (V c main_v22 : Cert.Spec.Mat 128 128) (ix2 k j) := by
  obtain ⟨e0, e1⟩ := idx1_3 t
  unfold iblk1
  rw [View.read_apply]
  show V c main_v22 _ = V c main_v22 _
  congr 1
  funext a; apply Fin.ext
  match a with
  | ⟨0, _⟩ => show win1_3.index t 0 * 128 + 1 * k.val = k.val; rw [e0]; omega
  | ⟨1, _⟩ => show win1_3.index t 1 * 128 + 1 * j.val = j.val; rw [e1]; omega

private theorem idx1_4 : ∀ t : Fin cfg1.N, win1_4.index t (0 : Fin 2) = 0 ∧ win1_4.index t (1 : Fin 2) = 0 :=
  (by decide +kernel : ∀ t : Fin grid1.N, _)

/-- The first bias's block at every point is the whole bias row. -/
private theorem iblk1_4_apply (c : Dev nD) (t : Fin cfg1.N) (j : Fin 128) :
    (iblk1 V c 4 t : Vec Ideal S1x128 .f32) (ix2 (0 : Fin 1) j) = (V c main_v23 : Cert.Spec.Mat 1 128) (ix2 (0 : Fin 1) j) := by
  obtain ⟨e0, e1⟩ := idx1_4 t
  unfold iblk1
  rw [View.read_apply]
  show V c main_v23 _ = V c main_v23 _
  congr 1
  funext a; apply Fin.ext
  match a with
  | ⟨0, _⟩ => show win1_4.index t 0 * 1 + 1 * 0 = 0; rw [e0]
  | ⟨1, _⟩ => show win1_4.index t 1 * 128 + 1 * j.val = j.val; rw [e1]; omega

private theorem idx1_5 : ∀ t : Fin cfg1.N, win1_5.index t (0 : Fin 2) = 0 ∧ win1_5.index t (1 : Fin 2) = 0 :=
  (by decide +kernel : ∀ t : Fin grid1.N, _)

/-- The second weight's block at every point is the whole weight. -/
private theorem iblk1_5_apply (c : Dev nD) (t : Fin cfg1.N) (k : Fin 128) (j : Fin 128) :
    (iblk1 V c 5 t : Vec Ideal S128x128 .bf16) (ix2 k j) = (V c main_v25 : Cert.Spec.Mat 128 128) (ix2 k j) := by
  obtain ⟨e0, e1⟩ := idx1_5 t
  unfold iblk1
  rw [View.read_apply]
  show V c main_v25 _ = V c main_v25 _
  congr 1
  funext a; apply Fin.ext
  match a with
  | ⟨0, _⟩ => show win1_5.index t 0 * 128 + 1 * k.val = k.val; rw [e0]; omega
  | ⟨1, _⟩ => show win1_5.index t 1 * 128 + 1 * j.val = j.val; rw [e1]; omega

private theorem idx1_6 : ∀ t : Fin cfg1.N, win1_6.index t (0 : Fin 2) = 0 ∧ win1_6.index t (1 : Fin 2) = 0 :=
  (by decide +kernel : ∀ t : Fin grid1.N, _)

/-- The second bias's block at every point is the whole bias row. -/
private theorem iblk1_6_apply (c : Dev nD) (t : Fin cfg1.N) (j : Fin 128) :
    (iblk1 V c 6 t : Vec Ideal S1x128 .f32) (ix2 (0 : Fin 1) j) = (V c main_v26 : Cert.Spec.Mat 1 128) (ix2 (0 : Fin 1) j) := by
  obtain ⟨e0, e1⟩ := idx1_6 t
  unfold iblk1
  rw [View.read_apply]
  show V c main_v26 _ = V c main_v26 _
  congr 1
  funext a; apply Fin.ext
  match a with
  | ⟨0, _⟩ => show win1_6.index t 0 * 1 + 1 * 0 = 0; rw [e0]
  | ⟨1, _⟩ => show win1_6.index t 1 * 128 + 1 * j.val = j.val; rw [e1]; omega

private theorem idx1_7 : ∀ t : Fin cfg1.N, win1_7.index t (0 : Fin 2) = 0 ∧ win1_7.index t (1 : Fin 2) = 0 :=
  (by decide +kernel : ∀ t : Fin grid1.N, _)

/-- The third weight's block at every point is the whole weight. -/
private theorem iblk1_7_apply (c : Dev nD) (t : Fin cfg1.N) (k : Fin 128) (j : Fin 128) :
    (iblk1 V c 7 t : Vec Ideal S128x128 .bf16) (ix2 k j) = (V c main_v28 : Cert.Spec.Mat 128 128) (ix2 k j) := by
  obtain ⟨e0, e1⟩ := idx1_7 t
  unfold iblk1
  rw [View.read_apply]
  show V c main_v28 _ = V c main_v28 _
  congr 1
  funext a; apply Fin.ext
  match a with
  | ⟨0, _⟩ => show win1_7.index t 0 * 128 + 1 * k.val = k.val; rw [e0]; omega
  | ⟨1, _⟩ => show win1_7.index t 1 * 128 + 1 * j.val = j.val; rw [e1]; omega

private theorem idx1_8 : ∀ t : Fin cfg1.N, win1_8.index t (0 : Fin 2) = 0 ∧ win1_8.index t (1 : Fin 2) = 0 :=
  (by decide +kernel : ∀ t : Fin grid1.N, _)

/-- The third bias's block at every point is the whole bias row. -/
private theorem iblk1_8_apply (c : Dev nD) (t : Fin cfg1.N) (j : Fin 128) :
    (iblk1 V c 8 t : Vec Ideal S1x128 .f32) (ix2 (0 : Fin 1) j) = (V c main_v29 : Cert.Spec.Mat 1 128) (ix2 (0 : Fin 1) j) := by
  obtain ⟨e0, e1⟩ := idx1_8 t
  unfold iblk1
  rw [View.read_apply]
  show V c main_v29 _ = V c main_v29 _
  congr 1
  funext a; apply Fin.ext
  match a with
  | ⟨0, _⟩ => show win1_8.index t 0 * 1 + 1 * 0 = 0; rw [e0]
  | ⟨1, _⟩ => show win1_8.index t 1 * 128 + 1 * j.val = j.val; rw [e1]; omega

private theorem idx1_9 : ∀ t : Fin cfg1.N, win1_9.index t (0 : Fin 2) = t.val ∧ win1_9.index t (1 : Fin 2) = 0 :=
  (by decide +kernel : ∀ t : Fin grid1.N, _)

/-- What point t stores, at row r and column j of its block: the message of edge 4000·t + r. -/
private theorem blk1_9_apply (c : Dev nD) (t : Fin cfg1.N) (r : Fin 4000) (j : Fin 128) (e : Fin 800000) (he : e.val = 4000 * t.val + r.val) :
    out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 r j)
      = Cert.Spec.edgeK (V c main_v13) (V c main_v20) (V c main_arg1) (V c main_v22) (V c main_v23) (V c main_v25) (V c main_v26) (V c main_v28) (V c main_v29) e j := by
  refine (out1_9_apply _ _ _ _ _ _ _ _ _ r j).trans ?_
  unfold Cert.Spec.edgeK
  exact congrArg₂ (fun (a b : EReal) => a * b) (iblk1_0_apply V c t r _ e he)
    (linT_congr_c1 (iblk1_7_apply V c t) (iblk1_8_apply V c t) (fun a3 => congrArg Cert.Spec.relu
      (linT_congr_c1 (iblk1_5_apply V c t) (iblk1_6_apply V c t) (fun a2 => congrArg Cert.Spec.relu
        (linT_congr_c1 (iblk1_3_apply V c t) (iblk1_4_apply V c t) (fun a1 => congrArg Cert.Spec.relu
          (congrArg₂ (fun (a b : EReal) => a + b)
            (congrArg₂ (fun (a b : EReal) => a + b) (iblk1_2_apply V c t r a1 e he) (iblk1_0_apply V c t r _ e he))
            (iblk1_1_apply V c t r a1 e he))) a2)) a3)) j)

/-- The message of every edge, as one array. -/
private def edgeArr (GS : Cert.Spec.Mat 800000 256) (HD EF : Cert.Spec.Mat 800000 128) (W1 : Cert.Spec.Mat 128 128) (b1 : Cert.Spec.Mat 1 128)
    (W2 : Cert.Spec.Mat 128 128) (b2 : Cert.Spec.Mat 1 128) (W3 : Cert.Spec.Mat 128 128) (b3 : Cert.Spec.Mat 1 128) : Cert.Spec.Mat 800000 128 :=
  fun i => Cert.Spec.edgeK GS HD EF W1 b1 W2 b2 W3 b3 ⟨(i 0).val, idx2_lt0 i⟩ ⟨(i 1).val, idx2_lt1 i⟩

/-- The message read at equal coordinates. -/
private theorem edgeK_congr (GS : Cert.Spec.Mat 800000 256) (HD EF : Cert.Spec.Mat 800000 128) (W1 : Cert.Spec.Mat 128 128) (b1 : Cert.Spec.Mat 1 128)
    (W2 : Cert.Spec.Mat 128 128) (b2 : Cert.Spec.Mat 1 128) (W3 : Cert.Spec.Mat 128 128) (b3 : Cert.Spec.Mat 1 128) {e e' : Fin 800000} {j j' : Fin 128}
    (he : e.val = e'.val) (hj : j.val = j'.val) :
    Cert.Spec.edgeK GS HD EF W1 b1 W2 b2 W3 b3 e j = Cert.Spec.edgeK GS HD EF W1 b1 W2 b2 W3 b3 e' j' := by
  obtain rfl := Fin.ext he; obtain rfl := Fin.ext hj; rfl

/-- What point t writes back is block t of the message array. -/
private theorem flushed1_9 (c : Dev nD) (t : Fin cfg1.N) :
    (dat1 V c).flushed 9 t = ((cfg1.win 9).blk t).view.read (Elt Ideal)
      (edgeArr (V c main_v13) (V c main_v20) (V c main_arg1) (V c main_v22) (V c main_v23) (V c main_v25) (V c main_v26) (V c main_v28) (V c main_v29)) := by
  show (cfg1.win 9).cut (grid1.coords t) ((dat1 V c).after 9 t) = _
  rw [after1_9]
  obtain ⟨e0, e1⟩ := idx1_9 t
  funext y
  rw [View.read_apply]
  have hy0 : (y 0).val < 4000 := (y 0).isLt
  have hy1 : (y 1).val < 128 := (y 1).isLt
  have ey : (cfg1.win 9).xinj (grid1.coords t) y = ix2 (⟨(y 0).val, hy0⟩ : Fin 4000) (⟨(y 1).val, hy1⟩ : Fin 128) :=
    funext fun a => by match a with | ⟨0, _⟩ => rfl | ⟨1, _⟩ => rfl
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) ((cfg1.win 9).xinj (grid1.coords t) y)
    = edgeArr (V c main_v13) (V c main_v20) (V c main_arg1) (V c main_v22) (V c main_v23) (V c main_v25) (V c main_v26) (V c main_v28) (V c main_v29) (((cfg1.win 9).blk t).view.emb y)
  rw [ey]
  refine (blk1_9_apply V c t _ _ _ ?_).trans (edgeK_congr _ _ _ _ _ _ _ _ _ rfl ?_)
  · show win1_9.index t 0 * 4000 + 1 * (y 0).val = 4000 * t.val + (y 0).val; rw [e0]; omega
  · show (y 1).val = win1_9.index t 1 * 128 + 1 * (y 1).val; rw [e1]; omega

/-- Every entry of the result lies in the block of the point its row's block number names. -/
private theorem cover1_9 (i : S800000x128.Idx) : ∃ t : Fin cfg1.N, (cfg1.win 9).flush t = true ∧ i ∈ ((cfg1.win 9).blk t).view.set := by
  have hi0 : (i 0).val < 800000 := (i 0).isLt
  have hi1 : (i 1).val < 128 := (i 1).isLt
  have ht : (i 0).val / 4000 < cfg1.N := by rw [show cfg1.N = 200 from N_1]; omega
  obtain ⟨e0, e1⟩ := idx1_9 ⟨(i 0).val / 4000, ht⟩
  refine ⟨⟨(i 0).val / 4000, ht⟩, flush1_9 _, ?_⟩
  show i ∈ ((View.whole main_v30).slice (win1_9.rect ⟨(i 0).val / 4000, ht⟩)).set
  rw [View.set_slice_whole, Rect.mem_set_unit]
  intro a
  match a with
  | ⟨0, _⟩ =>
    show win1_9.index ⟨(i 0).val / 4000, ht⟩ 0 * 4000 ≤ (i 0).val ∧ (i 0).val < win1_9.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_9.index ⟨(i 0).val / 4000, ht⟩ 1 * 128 ≤ (i 1).val ∧ (i 1).val < win1_9.index ⟨(i 0).val / 4000, ht⟩ 1 * 128 + 128
    rw [e1]; omega

/-- After call 1 its result holds the message array. -/
private theorem final1_9_fun (c : Dev nD) :
    (dat1 V c).arrAt 9 cfg1.N
      = edgeArr (V c main_v13) (V c main_v20) (V c main_arg1) (V c main_v22) (V c main_v23) (V c main_v25) (V c main_v26) (V c main_v28) (V c main_v29) :=
  (dat1 V c).arrAt_eq_of_cover 9 _ (fun t _ => flushed1_9 V c t) cover1_9

theorem final1_9 (c : Dev nD) (e : Fin 800000) (j : Fin 128) :
    (dat1 (F := Ideal) V c).arrAt 9 cfg1.N (ix2 e j)
      = Cert.Spec.edgeK (V c main_v13) (V c main_v20) (V c main_arg1) (V c main_v22) (V c main_v23) (V c main_v25) (V c main_v26) (V c main_v28) (V c main_v29) e j :=
  congrFun (final1_9_fun V c) (ix2 e j)

end Cert.KernelIdeal.Hand

end
-- ==== Proof.KIVal2.lean ====
/-
  The third tiled call, value side, over the extended reals: what it leaves in its result array as one function of the
  arrays it is handed. Each grid point loads a block of 5000 projected node rows, the same rows of the aggregated
  messages, and three whole weights with their bias rows; it applies a dense layer to the aggregate rows, adds the
  projected rows, rectifies, applies a second dense layer, rectifies, applies a third, and stores the block. Read entry by
  entry each product is the sum over the 128 contracted positions and each rectifier the larger of the entry and zero, so
  block t of the result is rows 5000·t … 5000·t + 4999 of the node network on all nodes; the ten blocks tile the rows.
-/
import proofs.«137344_j32736240730704_2_alg».proof.Proof.KIData
import proofs.«137344_j32736240730704_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-buffer rectangle of rank two. -/
theorem zeroOff2_c2 : (![0, 0] : Fin 2 → Nat) = fun _ => 0 := funext fun a => by fin_cases a <;> rfl

/-- The dimension numbers of call 2's products: [5000,128] times [128,128]. -/
abbrev D2 : DotDims S5000x128 S128x128 S5000x128 := dot_S5000x128_S128x128_S5000x128_1_0_0_1_n_n

/-- The product into the zero accumulator, at row r and column j: the sum over the 128 contracted positions. -/
theorem mm2_apply (a : FVec Ideal S5000x128 .bf16) (b : FVec Ideal S128x128 .bf16) (r : Fin 5000) (j : Fin 128) :
    matmul (F := Ideal) D2 none a b (constant S5000x128 .f32 0x00000000#32) (ix2 r j) = ∑ k : Fin 128, a (ix2 r k) * b (ix2 k j) := by
  show FloatOps.matmul D2 none a b (constant S5000x128 .f32 0x00000000#32) (ix2 r j) = _
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 r j) ((contrEquiv1 D2 128 rfl rfl).symm k) = ix2 r k := funext fun a => Fin.ext (by
    match a with
    | ⟨0, _⟩ =>
      show (D2.lhsIdx (ix2 r j) ((contrEquiv1 D2 128 rfl rfl).symm k) 0).val = r.val
      unfold DotDims.lhsIdx
      rw [dif_neg (show ¬(0 : Fin S5000x128.rank) ∈ D2.lhsBatch by decide), dif_pos (show (0 : Fin S5000x128.rank) ∈ D2.lhsNonContracting by decide)]
      rfl
    | ⟨1, _⟩ => exact (D2.lhsIdx_val_of_single rfl (ix2 r j) _).trans hk)
  have er : D2.rhsIdx (ix2 r j) ((contrEquiv1 D2 128 rfl rfl).symm k) = ix2 k j := funext fun a => Fin.ext (by
    match a with
    | ⟨0, _⟩ => exact (D2.rhsIdx_val_of_single rfl (ix2 r j) _).trans hk
    | ⟨1, _⟩ =>
      show (D2.rhsIdx (ix2 r j) ((contrEquiv1 D2 128 rfl rfl).symm k) 1).val = j.val
      unfold DotDims.rhsIdx
      rw [dif_neg (show ¬(1 : Fin S128x128.rank) ∈ D2.rhsBatch by decide), dif_pos (show (1 : Fin S128x128.rank) ∈ D2.rhsNonContracting by decide)]
      rfl)
  rw [el, er]

/-- A dense layer of a block (the product with a weight stored [in, out], plus the bias row broadcast down the rows), at
    row r and column j. -/
theorem dense2_apply (a : FVec Ideal S5000x128 .bf16) (w : FVec Ideal S128x128 .bf16) (b : FVec Ideal S1x128 .f32) (r : Fin 5000) (j : Fin 128) :
    addf (matmul (F := Ideal) D2 none a (shapeCast S128x128 w shapeCasts_S128x128_S128x128) (constant S5000x128 .f32 0x00000000#32))
        (broadcastTo S5000x128 (shapeCast S1x128 b shapeCasts_S1x128_S1x128) broadcasts_S1x128_S5000x128) (ix2 r j)
      = Cert.Spec.linT w b (fun k => a (ix2 r k)) j := by
  rw [addf_apply, shapeCast_self, shapeCast_self]
  unfold Cert.Spec.linT
  refine congrArg₂ (· + ·) (mm2_apply a w r j) ?_
  exact broadcastTo_apply _ _ (ix2 r j) (ix2 (0 : Fin 1) j) (fun a => by
    match a with
    | ⟨0, _⟩ => show 0 = if (1 : Nat) = 1 then 0 else _; rw [if_pos rfl]
    | ⟨1, _⟩ => show j.val = if (128 : Nat) = 1 then 0 else j.val; rw [if_neg (by decide)])

/-- The node network of a block, at row r and column j. -/
theorem k2_pay1_apply (v0 : Vec Ideal S5000x128 .f32) (v3 : Vec Ideal S128x128 .bf16) (v6 : Vec Ideal S1x128 .f32)
    (v10 : Vec Ideal S5000x128 .f32) (v16 : Vec Ideal S128x128 .bf16) (v19 : Vec Ideal S1x128 .f32)
    (v26 : Vec Ideal S128x128 .bf16) (v29 : Vec Ideal S1x128 .f32) (r : Fin 5000) (j : Fin 128) :
    k2_pay1 v0 v3 v6 v10 v16 v19 v26 v29 (ix2 r j)
      = Cert.Spec.linT v26 v29 (fun a2 => Cert.Spec.relu (Cert.Spec.linT v16 v19 (fun a1 =>
          Cert.Spec.relu (v10 (ix2 r a1) + Cert.Spec.linT v3 v6 (fun k => v0 (ix2 r k)) a1)) a2)) j := by
  unfold k2_pay1
  refine (dense2_apply _ v26 v29 r j).trans (congrArg (fun f => Cert.Spec.linT v26 v29 f j) (funext fun a2 => ?_))
  refine congrArg (max · Cert.Spec.zero) ?_
  refine (dense2_apply _ v16 v19 r a2).trans (congrArg (fun f => Cert.Spec.linT v16 v19 f a2) (funext fun a1 => ?_))
  refine congrArg (max · Cert.Spec.zero) ?_
  rw [shapeCast_self, shapeCast_self]
  refine congrArg (v10 (ix2 r a1) + ·) ?_
  exact dense2_apply _ v3 v6 r a1

/-- What call 2 stores for its result, at row r and column j: the node network on the block's row. -/
theorem out2_8_apply (x0 x1 : Vec Ideal S5000x128 .f32) (x2 : Vec Ideal S128x128 .bf16) (x3 : Vec Ideal S1x128 .f32)
    (x4 : Vec Ideal S128x128 .bf16) (x5 : Vec Ideal S1x128 .f32) (x6 : Vec Ideal S128x128 .bf16) (x7 : Vec Ideal S1x128 .f32)
    (r : Fin 5000) (j : Fin 128) :
    out2_8 x0 x1 x2 x3 x4 x5 x6 x7 (ix2 r j)
      = Cert.Spec.linT x6 x7 (fun a2 => Cert.Spec.relu (Cert.Spec.linT x4 x5 (fun a1 =>
          Cert.Spec.relu (x0 (ix2 r a1) + Cert.Spec.linT x2 x3 (fun k => x1 (ix2 r k)) a1)) a2)) j := by
  unfold out2_8
  rw [View.canon_unit_zero zeroOff2_c2]
  simp only [View.ld_unit_zero (S := S5000x128) zeroOff2_c2, View.ld_unit_zero (S := S128x128) zeroOff2_c2, View.ld_unit_zero (S := S1x128) zeroOff2_c2]
  exact k2_pay1_apply x1 x2 x3 x0 x4 x5 x6 x7 r j

variable (V : (c : Dev nD) → (b : Ref sig .tc) → Buf (Elt Ideal) ((c : Thread nD τ).loc b))

/-- A dense layer read through entrywise equal weight, bias and input. -/
theorem linT_congr_c2 {W W' : Cert.Spec.Mat 128 128} {b b' : Cert.Spec.Mat 1 128} {x x' : Fin 128 → EReal}
    (hW : ∀ k j, W (ix2 k j) = W' (ix2 k j)) (hb : ∀ j, b (ix2 (0 : Fin 1) j) = b' (ix2 (0 : Fin 1) j)) (hx : ∀ k, x k = x' k) (j : Fin 128) :
    Cert.Spec.linT W b x j = Cert.Spec.linT W' b' x' j := by
  unfold Cert.Spec.linT
  exact congrArg₂ (· + ·) (Finset.sum_congr rfl fun k _ => congrArg₂ (· * ·) (hx k) (hW k j)) (hb j)

/-- Call 2 has ten grid points. -/
theorem lt_N2 (t : Fin cfg2.N) : t.val < 10 := lt_of_lt_of_eq t.isLt (show cfg2.N = 10 from N_2)

theorem idx2_0 : ∀ t : Fin cfg2.N, win2_0.index t (0 : Fin 2) = t.val ∧ win2_0.index t (1 : Fin 2) = 0 :=
  (by decide +kernel : ∀ t : Fin grid2.N, _)

/-- The projected-node block at point t is rows 5000·t … of the projected node rows. -/
theorem iblk2_0_apply (c : Dev nD) (t : Fin cfg2.N) (r : Fin 5000) (k : Fin 128) (n : Fin 50000) (hn : n.val = 5000 * t.val + r.val) :
    (iblk2 V c 0 t : Vec Ideal S5000x128 .f32) (ix2 r k) = (V c main_v5_2 : Cert.Spec.Mat 50000 128) (ix2 n k) := by
  obtain ⟨e0, e1⟩ := idx2_0 t
  unfold iblk2
  rw [View.read_apply]
  show V c main_v5_2 _ = V c main_v5_2 _
  congr 1
  funext a; apply Fin.ext
  match a with
  | ⟨0, _⟩ => show win2_0.index t 0 * 5000 + 1 * r.val = n.val; rw [e0, hn]; omega
  | ⟨1, _⟩ => show win2_0.index t 1 * 128 + 1 * k.val = k.val; rw [e1]; omega

theorem idx2_1 : ∀ t : Fin cfg2.N, win2_1.index t (0 : Fin 2) = t.val ∧ win2_1.index t (1 : Fin 2) = 0 :=
  (by decide +kernel : ∀ t : Fin grid2.N, _)

/-- The aggregate block at point t is rows 5000·t … of the aggregated messages. -/
theorem iblk2_1_apply (c : Dev nD) (t : Fin cfg2.N) (r : Fin 5000) (k : Fin 128) (n : Fin 50000) (hn : n.val = 5000 * t.val + r.val) :
    (iblk2 V c 1 t : Vec Ideal S5000x128 .f32) (ix2 r k) = (V c main_v34 : Cert.Spec.Mat 50000 128) (ix2 n k) := by
  obtain ⟨e0, e1⟩ := idx2_1 t
  unfold iblk2
  rw [View.read_apply]
  show V c main_v34 _ = V c main_v34 _
  congr 1
  funext a; apply Fin.ext
  match a with
  | ⟨0, _⟩ => show win2_1.index t 0 * 5000 + 1 * r.val = n.val; rw [e0, hn]; omega
  | ⟨1, _⟩ => show win2_1.index t 1 * 128 + 1 * k.val = k.val; rw [e1]; omega

theorem idx2_2 : ∀ t : Fin cfg2.N, win2_2.index t (0 : Fin 2) = 0 ∧ win2_2.index t (1 : Fin 2) = 0 :=
  (by decide +kernel : ∀ t : Fin grid2.N, _)

/-- The first weight's block at every point is the whole weight. -/
theorem iblk2_2_apply (c : Dev nD) (t : Fin cfg2.N) (k : Fin 128) (j : Fin 128) :
    (iblk2 V c 2 t : Vec Ideal S128x128 .bf16) (ix2 k j) = (V c main_v36 : Cert.Spec.Mat 128 128) (ix2 k j) := by
  obtain ⟨e0, e1⟩ := idx2_2 t
  unfold iblk2
  rw [View.read_apply]
  show V c main_v36 _ = V c main_v36 _
  congr 1
  funext a; apply Fin.ext
  match a with
  | ⟨0, _⟩ => show win2_2.index t 0 * 128 + 1 * k.val = k.val; rw [e0]; omega
  | ⟨1, _⟩ => show win2_2.index t 1 * 128 + 1 * j.val = j.val; rw [e1]; omega

theorem idx2_3 : ∀ t : Fin cfg2.N, win2_3.index t (0 : Fin 2) = 0 ∧ win2_3.index t (1 : Fin 2) = 0 :=
  (by decide +kernel : ∀ t : Fin grid2.N, _)

/-- The first bias's block at every point is the whole bias row. -/
theorem iblk2_3_apply (c : Dev nD) (t : Fin cfg2.N) (j : Fin 128) :
    (iblk2 V c 3 t : Vec Ideal S1x128 .f32) (ix2 (0 : Fin 1) j) = (V c main_v37 : Cert.Spec.Mat 1 128) (ix2 (0 : Fin 1) j) := by
  obtain ⟨e0, e1⟩ := idx2_3 t
  unfold iblk2
  rw [View.read_apply]
  show V c main_v37 _ = V c main_v37 _
  congr 1
  funext a; apply Fin.ext
  match a with
  | ⟨0, _⟩ => show win2_3.index t 0 * 1 + 1 * 0 = 0; rw [e0]
  | ⟨1, _⟩ => show win2_3.index t 1 * 128 + 1 * j.val = j.val; rw [e1]; omega

theorem idx2_4 : ∀ t : Fin cfg2.N, win2_4.index t (0 : Fin 2) = 0 ∧ win2_4.index t (1 : Fin 2) = 0 :=
  (by decide +kernel : ∀ t : Fin grid2.N, _)

/-- The second weight's block at every point is the whole weight. -/
theorem iblk2_4_apply (c : Dev nD) (t : Fin cfg2.N) (k : Fin 128) (j : Fin 128) :
    (iblk2 V c 4 t : Vec Ideal S128x128 .bf16) (ix2 k j) = (V c main_v39 : Cert.Spec.Mat 128 128) (ix2 k j) := by
  obtain ⟨e0, e1⟩ := idx2_4 t
  unfold iblk2
  rw [View.read_apply]
  show V c main_v39 _ = V c main_v39 _
  congr 1
  funext a; apply Fin.ext
  match a with
  | ⟨0, _⟩ => show win2_4.index t 0 * 128 + 1 * k.val = k.val; rw [e0]; omega
  | ⟨1, _⟩ => show win2_4.index t 1 * 128 + 1 * j.val = j.val; rw [e1]; omega

theorem idx2_5 : ∀ t : Fin cfg2.N, win2_5.index t (0 : Fin 2) = 0 ∧ win2_5.index t (1 : Fin 2) = 0 :=
  (by decide +kernel : ∀ t : Fin grid2.N, _)

/-- The second bias's block at every point is the whole bias row. -/
theorem iblk2_5_apply (c : Dev nD) (t : Fin cfg2.N) (j : Fin 128) :
    (iblk2 V c 5 t : Vec Ideal S1x128 .f32) (ix2 (0 : Fin 1) j) = (V c main_v40 : Cert.Spec.Mat 1 128) (ix2 (0 : Fin 1) j) := by
  obtain ⟨e0, e1⟩ := idx2_5 t
  unfold iblk2
  rw [View.read_apply]
  show V c main_v40 _ = V c main_v40 _
  congr 1
  funext a; apply Fin.ext
  match a with
  | ⟨0, _⟩ => show win2_5.index t 0 * 1 + 1 * 0 = 0; rw [e0]
  | ⟨1, _⟩ => show win2_5.index t 1 * 128 + 1 * j.val = j.val; rw [e1]; omega

theorem idx2_6 : ∀ t : Fin cfg2.N, win2_6.index t (0 : Fin 2) = 0 ∧ win2_6.index t (1 : Fin 2) = 0 :=
  (by decide +kernel : ∀ t : Fin grid2.N, _)

/-- The third weight's block at every point is the whole weight. -/
theorem iblk2_6_apply (c : Dev nD) (t : Fin cfg2.N) (k : Fin 128) (j : Fin 128) :
    (iblk2 V c 6 t : Vec Ideal S128x128 .bf16) (ix2 k j) = (V c main_v42 : Cert.Spec.Mat 128 128) (ix2 k j) := by
  obtain ⟨e0, e1⟩ := idx2_6 t
  unfold iblk2
  rw [View.read_apply]
  show V c main_v42 _ = V c main_v42 _
  congr 1
  funext a; apply Fin.ext
  match a with
  | ⟨0, _⟩ => show win2_6.index t 0 * 128 + 1 * k.val = k.val; rw [e0]; omega
  | ⟨1, _⟩ => show win2_6.index t 1 * 128 + 1 * j.val = j.val; rw [e1]; omega

theorem idx2_7 : ∀ t : Fin cfg2.N, win2_7.index t (0 : Fin 2) = 0 ∧ win2_7.index t (1 : Fin 2) = 0 :=
  (by decide +kernel : ∀ t : Fin grid2.N, _)

/-- The third bias's block at every point is the whole bias row. -/
theorem iblk2_7_apply (c : Dev nD) (t : Fin cfg2.N) (j : Fin 128) :
    (iblk2 V c 7 t : Vec Ideal S1x128 .f32) (ix2 (0 : Fin 1) j) = (V c main_v43 : Cert.Spec.Mat 1 128) (ix2 (0 : Fin 1) j) := by
  obtain ⟨e0, e1⟩ := idx2_7 t
  unfold iblk2
  rw [View.read_apply]
  show V c main_v43 _ = V c main_v43 _
  congr 1
  funext a; apply Fin.ext
  match a with
  | ⟨0, _⟩ => show win2_7.index t 0 * 1 + 1 * 0 = 0; rw [e0]
  | ⟨1, _⟩ => show win2_7.index t 1 * 128 + 1 * j.val = j.val; rw [e1]; omega

theorem idx2_8 : ∀ t : Fin cfg2.N, win2_8.index t (0 : Fin 2) = t.val ∧ win2_8.index t (1 : Fin 2) = 0 :=
  (by decide +kernel : ∀ t : Fin grid2.N, _)

/-- What point t stores, at row r and column j of its block: the node network on node 5000·t + r. -/
theorem blk2_8_apply (c : Dev nD) (t : Fin cfg2.N) (r : Fin 5000) (j : Fin 128) (n : Fin 50000) (hn : n.val = 5000 * t.val + r.val) :
    out2_8 (iblk2 V c 0 t) (iblk2 V c 1 t) (iblk2 V c 2 t) (iblk2 V c 3 t) (iblk2 V c 4 t) (iblk2 V c 5 t) (iblk2 V c 6 t) (iblk2 V c 7 t) (ix2 r j)
      = Cert.Spec.nodeK (V c main_v5_2) (V c main_v34) (V c main_v36) (V c main_v37) (V c main_v39) (V c main_v40) (V c main_v42) (V c main_v43) n j := by
  refine (out2_8_apply _ _ _ _ _ _ _ _ r j).trans ?_
  unfold Cert.Spec.nodeK Cert.Spec.row
  exact linT_congr_c2 (iblk2_6_apply V c t) (iblk2_7_apply V c t) (fun a2 => congrArg Cert.Spec.relu
    (linT_congr_c2 (iblk2_4_apply V c t) (iblk2_5_apply V c t) (fun a1 => congrArg Cert.Spec.relu
      (congrArg₂ (fun (a b : EReal) => a + b) (iblk2_0_apply V c t r a1 n hn)
        (linT_congr_c2 (iblk2_2_apply V c t) (iblk2_3_apply V c t) (fun k => iblk2_1_apply V c t r k n hn) a1))) a2)) j

/-- The node network on every node, as one array. -/
def nodeArr (PD AGG : Cert.Spec.Mat 50000 128) (Wu : Cert.Spec.Mat 128 128) (bu : Cert.Spec.Mat 1 128) (W1 : Cert.Spec.Mat 128 128)
    (b1 : Cert.Spec.Mat 1 128) (W2 : Cert.Spec.Mat 128 128) (b2 : Cert.Spec.Mat 1 128) : Cert.Spec.Mat 50000 128 :=
  fun i => Cert.Spec.nodeK PD AGG Wu bu W1 b1 W2 b2 ⟨(i 0).val, idx2_lt0 i⟩ ⟨(i 1).val, idx2_lt1 i⟩

/-- The node network read at equal coordinates. -/
theorem nodeK_congr (PD AGG : Cert.Spec.Mat 50000 128) (Wu : Cert.Spec.Mat 128 128) (bu : Cert.Spec.Mat 1 128) (W1 : Cert.Spec.Mat 128 128)
    (b1 : Cert.Spec.Mat 1 128) (W2 : Cert.Spec.Mat 128 128) (b2 : Cert.Spec.Mat 1 128) {n n' : Fin 50000} {j j' : Fin 128}
    (hn : n.val = n'.val) (hj : j.val = j'.val) :
    Cert.Spec.nodeK PD AGG Wu bu W1 b1 W2 b2 n j = Cert.Spec.nodeK PD AGG Wu bu W1 b1 W2 b2 n' j' := by
  obtain rfl := Fin.ext hn; obtain rfl := Fin.ext hj; rfl

/-- What point t writes back is block t of the node network on every node. -/
theorem flushed2_8 (c : Dev nD) (t : Fin cfg2.N) :
    (dat2 V c).flushed 8 t = ((cfg2.win 8).blk t).view.read (Elt Ideal)
      (nodeArr (V c main_v5_2) (V c main_v34) (V c main_v36) (V c main_v37) (V c main_v39) (V c main_v40) (V c main_v42) (V c main_v43)) := by
  show (cfg2.win 8).cut (grid2.coords t) ((dat2 V c).after 8 t) = _
  rw [after2_8]
  obtain ⟨e0, e1⟩ := idx2_8 t
  funext y
  rw [View.read_apply]
  have hy0 : (y 0).val < 5000 := (y 0).isLt
  have hy1 : (y 1).val < 128 := (y 1).isLt
  have ey : (cfg2.win 8).xinj (grid2.coords t) y = ix2 (⟨(y 0).val, hy0⟩ : Fin 5000) (⟨(y 1).val, hy1⟩ : Fin 128) :=
    funext fun a => by match a with | ⟨0, _⟩ => rfl | ⟨1, _⟩ => rfl
  show out2_8 (iblk2 V c 0 t) (iblk2 V c 1 t) (iblk2 V c 2 t) (iblk2 V c 3 t) (iblk2 V c 4 t) (iblk2 V c 5 t) (iblk2 V c 6 t) (iblk2 V c 7 t) ((cfg2.win 8).xinj (grid2.coords t) y)
    = nodeArr (V c main_v5_2) (V c main_v34) (V c main_v36) (V c main_v37) (V c main_v39) (V c main_v40) (V c main_v42) (V c main_v43) (((cfg2.win 8).blk t).view.emb y)
  rw [ey]
  refine (blk2_8_apply V c t _ _ _ ?_).trans (nodeK_congr _ _ _ _ _ _ _ _ rfl ?_)
  · show win2_8.index t 0 * 5000 + 1 * (y 0).val = 5000 * t.val + (y 0).val; rw [e0]; omega
  · show (y 1).val = win2_8.index t 1 * 128 + 1 * (y 1).val; rw [e1]; omega

/-- Every entry of the result lies in the block of the point its row's block number names. -/
theorem cover2_8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have ht : (i 0).val / 5000 < cfg2.N := by rw [show cfg2.N = 10 from N_2]; omega
  obtain ⟨e0, e1⟩ := idx2_8 ⟨(i 0).val / 5000, ht⟩
  refine ⟨⟨(i 0).val / 5000, ht⟩, flush2_8 _, ?_⟩
  show i ∈ ((View.whole main_v44).slice (win2_8.rect ⟨(i 0).val / 5000, ht⟩)).set
  rw [View.set_slice_whole, Rect.mem_set_unit]
  intro a
  match a with
  | ⟨0, _⟩ =>
    show win2_8.index ⟨(i 0).val / 5000, ht⟩ 0 * 5000 ≤ (i 0).val ∧ (i 0).val < win2_8.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_8.index ⟨(i 0).val / 5000, ht⟩ 1 * 128 ≤ (i 1).val ∧ (i 1).val < win2_8.index ⟨(i 0).val / 5000, ht⟩ 1 * 128 + 128
    rw [e1]; omega

/-- After call 2 its result holds the node network on every node. -/
theorem final2_8_fun (c : Dev nD) :
    (dat2 V c).arrAt 8 cfg2.N
      = nodeArr (V c main_v5_2) (V c main_v34) (V c main_v36) (V c main_v37) (V c main_v39) (V c main_v40) (V c main_v42) (V c main_v43) :=
  (dat2 V c).arrAt_eq_of_cover 8 _ (fun t _ => flushed2_8 V c t) cover2_8

theorem final2_8 (c : Dev nD) (n : Fin 50000) (j : Fin 128) :
    (dat2 (F := Ideal) V c).arrAt 8 cfg2.N (ix2 n j)
      = Cert.Spec.nodeK (V c main_v5_2) (V c main_v34) (V c main_v36) (V c main_v37) (V c main_v39) (V c main_v40) (V c main_v42) (V c main_v43) n j :=
  congrFun (final2_8_fun V c) (ix2 n j)

end Cert.KernelIdeal.Hand

end
-- ==== Proof.KIHostRead.lean ====
/-
  Layout operations read at an index, at the shapes of a message-passing layer's host code: three square weights
  stacked into one tall matrix, transposed and narrowed (the fused projection weight); three bias vectors laid end to
  end and given a unit row axis (the fused bias); a square weight transposed and narrowed; a bias as a one-row matrix;
  two node matrices laid side by side and row-gathered at an index column of normalised words.
-/
import Idealize.ShloMosaic.Lib.ValueLayout
import proofs.«137344_j32736240730704_2_alg».proof.Proof.Spec

noncomputable section

namespace Cert.HostRead

open Idealize.ShloMosaic Idealize.ShloMosaic.ValueIdx

/-- The shapes met: a square weight, a bias, the stacked weight and its transpose, the joined bias and its row form,
    a node matrix, two of them side by side, an edge matrix of either width, the index vector and column. -/
abbrev Sq : Shape := ⟨2, ![128, 128]⟩
abbrev Vc : Shape := ⟨1, ![128]⟩
abbrev Tall : Shape := ⟨2, ![384, 128]⟩
abbrev Wide : Shape := ⟨2, ![128, 384]⟩
abbrev Vc3 : Shape := ⟨1, ![384]⟩
abbrev Row3 : Shape := ⟨2, ![1, 384]⟩
abbrev Row1 : Shape := ⟨2, ![1, 128]⟩
abbrev Nd : Shape := ⟨2, ![50000, 128]⟩
abbrev Nd2 : Shape := ⟨2, ![50000, 256]⟩
abbrev Ed : Shape := ⟨2, ![800000, 128]⟩
abbrev Ed2 : Shape := ⟨2, ![800000, 256]⟩
abbrev Ev : Shape := ⟨1, ![800000]⟩
abbrev Ec : Shape := ⟨2, ![800000, 1]⟩
abbrev Sc : Shape := ⟨0, ![]⟩

section Concat
variable {α : Type}

/-! ## Three square matrices stacked along the rows -/

theorem cat3r_0 (A B C : Sq.Idx → α) (h : Shape.Concatenates [Sq, Sq, Sq] Tall 0) (j k : Fin 128) :
    concatenate Tall 0 [⟨Sq, A⟩, ⟨Sq, B⟩, ⟨Sq, C⟩] h (ix2 (⟨j.val, by omega⟩ : Fin 384) k) = A (ix2 j k) :=
  concatenate_apply_piece 0 [⟨Sq, A⟩, ⟨Sq, B⟩, ⟨Sq, C⟩] h _ 0 (by show 0 < 3; omega) Sq A rfl rfl 0 rfl (ix2 j k)
    (fun b hb => match b, hb with | ⟨0, _⟩, hb => (hb rfl).elim | ⟨1, _⟩, _ => rfl)
    (by show 0 + j.val = j.val; omega)

theorem cat3r_1 (A B C : Sq.Idx → α) (h : Shape.Concatenates [Sq, Sq, Sq] Tall 0) (j k : Fin 128) :
    concatenate Tall 0 [⟨Sq, A⟩, ⟨Sq, B⟩, ⟨Sq, C⟩] h (ix2 (⟨128 + j.val, by omega⟩ : Fin 384) k) = B (ix2 j k) :=
  concatenate_apply_piece 0 [⟨Sq, A⟩, ⟨Sq, B⟩, ⟨Sq, C⟩] h _ 1 (by show 1 < 3; omega) Sq B rfl rfl 128 rfl (ix2 j k)
    (fun b hb => match b, hb with | ⟨0, _⟩, hb => (hb rfl).elim | ⟨1, _⟩, _ => rfl)
    (by show 128 + j.val = 128 + j.val; rfl)

theorem cat3r_2 (A B C : Sq.Idx → α) (h : Shape.Concatenates [Sq, Sq, Sq] Tall 0) (j k : Fin 128) :
    concatenate Tall 0 [⟨Sq, A⟩, ⟨Sq, B⟩, ⟨Sq, C⟩] h (ix2 (⟨256 + j.val, by omega⟩ : Fin 384) k) = C (ix2 j k) :=
  concatenate_apply_piece 0 [⟨Sq, A⟩, ⟨Sq, B⟩, ⟨Sq, C⟩] h _ 2 (by show 2 < 3; omega) Sq C rfl rfl 256 rfl (ix2 j k)
    (fun b hb => match b, hb with | ⟨0, _⟩, hb => (hb rfl).elim | ⟨1, _⟩, _ => rfl)
    (by show 256 + j.val = 256 + j.val; rfl)

/-! ## Three vectors laid end to end -/

theorem cat3v_0 (a b c : Vc.Idx → α) (h : Shape.Concatenates [Vc, Vc, Vc] Vc3 0) (j : Fin 128) :
    concatenate Vc3 0 [⟨Vc, a⟩, ⟨Vc, b⟩, ⟨Vc, c⟩] h (ix1 (⟨j.val, by omega⟩ : Fin 384)) = a (ix1 j) :=
  concatenate_apply_piece 0 [⟨Vc, a⟩, ⟨Vc, b⟩, ⟨Vc, c⟩] h _ 0 (by show 0 < 3; omega) Vc a rfl rfl 0 rfl (ix1 j)
    (fun d hd => match d, hd with | ⟨0, _⟩, hd => (hd rfl).elim)
    (by show 0 + j.val = j.val; omega)

theorem cat3v_1 (a b c : Vc.Idx → α) (h : Shape.Concatenates [Vc, Vc, Vc] Vc3 0) (j : Fin 128) :
    concatenate Vc3 0 [⟨Vc, a⟩, ⟨Vc, b⟩, ⟨Vc, c⟩] h (ix1 (⟨128 + j.val, by omega⟩ : Fin 384)) = b (ix1 j) :=
  concatenate_apply_piece 0 [⟨Vc, a⟩, ⟨Vc, b⟩, ⟨Vc, c⟩] h _ 1 (by show 1 < 3; omega) Vc b rfl rfl 128 rfl (ix1 j)
    (fun d hd => match d, hd with | ⟨0, _⟩, hd => (hd rfl).elim)
    (by show 128 + j.val = 128 + j.val; rfl)

theorem cat3v_2 (a b c : Vc.Idx → α) (h : Shape.Concatenates [Vc, Vc, Vc] Vc3 0) (j : Fin 128) :
    concatenate Vc3 0 [⟨Vc, a⟩, ⟨Vc, b⟩, ⟨Vc, c⟩] h (ix1 (⟨256 + j.val, by omega⟩ : Fin 384)) = c (ix1 j) :=
  concatenate_apply_piece 0 [⟨Vc, a⟩, ⟨Vc, b⟩, ⟨Vc, c⟩] h _ 2 (by show 2 < 3; omega) Vc c rfl rfl 256 rfl (ix1 j)
    (fun d hd => match d, hd with | ⟨0, _⟩, hd => (hd rfl).elim)
    (by show 256 + j.val = 256 + j.val; rfl)

/-! ## Two node matrices side by side -/

theorem cat2c_lo (P H : Nd.Idx → α) (h : Shape.Concatenates [Nd, Nd] Nd2 1) (n : Fin 50000) (j : Fin 128) :
    concatenate Nd2 1 [⟨Nd, P⟩, ⟨Nd, H⟩] h (ix2 n (⟨j.val, by omega⟩ : Fin 256)) = P (ix2 n j) :=
  concatenate_pair_apply_left 1 P H h _ rfl (ix2 n j) (fun b => match b with | ⟨0, _⟩ => rfl | ⟨1, _⟩ => rfl)

theorem cat2c_hi (P H : Nd.Idx → α) (h : Shape.Concatenates [Nd, Nd] Nd2 1) (n : Fin 50000) (j : Fin 128) :
    concatenate Nd2 1 [⟨Nd, P⟩, ⟨Nd, H⟩] h (ix2 n (⟨128 + j.val, by omega⟩ : Fin 256)) = H (ix2 n j) :=
  concatenate_pair_apply_right 1 P H h _ rfl rfl (ix2 n j)
    (fun b hb => match b, hb with | ⟨0, _⟩, _ => rfl | ⟨1, _⟩, hb => (hb rfl).elim)
    (by show j.val + 128 = 128 + j.val; omega)

end Concat

/-! ## The host code's composite terms read at an index, over the extended reals -/

section AtIdeal

/-- The fused projection weight at row k and column j of its first, second and third block of 128 columns: the
    three stacked weights at (j, k). -/
theorem fusedW_0 (A B C : FVec Ideal Sq .f32) (hc : Shape.Concatenates [Sq, Sq, Sq] Tall 0) (ht : Tall.Transposes [1, 0] Wide)
    (hlt : FTy.bits .bf16 < FTy.bits .f32) (k j : Fin 128) :
    (truncf .bf16 (transpose Wide [1, 0] (concatenate Tall 0 [⟨Sq, A⟩, ⟨Sq, B⟩, ⟨Sq, C⟩] hc) ht) hlt : FVec Ideal Wide .bf16)
      (ix2 k (⟨j.val, by omega⟩ : Fin 384)) = A (ix2 j k) :=
  (transpose_ix2_apply _ ht k _).trans (cat3r_0 A B C hc j k)

theorem fusedW_1 (A B C : FVec Ideal Sq .f32) (hc : Shape.Concatenates [Sq, Sq, Sq] Tall 0) (ht : Tall.Transposes [1, 0] Wide)
    (hlt : FTy.bits .bf16 < FTy.bits .f32) (k j : Fin 128) :
    (truncf .bf16 (transpose Wide [1, 0] (concatenate Tall 0 [⟨Sq, A⟩, ⟨Sq, B⟩, ⟨Sq, C⟩] hc) ht) hlt : FVec Ideal Wide .bf16)
      (ix2 k (⟨128 + j.val, by omega⟩ : Fin 384)) = B (ix2 j k) :=
  (transpose_ix2_apply _ ht k _).trans (cat3r_1 A B C hc j k)

theorem fusedW_2 (A B C : FVec Ideal Sq .f32) (hc : Shape.Concatenates [Sq, Sq, Sq] Tall 0) (ht : Tall.Transposes [1, 0] Wide)
    (hlt : FTy.bits .bf16 < FTy.bits .f32) (k j : Fin 128) :
    (truncf .bf16 (transpose Wide [1, 0] (concatenate Tall 0 [⟨Sq, A⟩, ⟨Sq, B⟩, ⟨Sq, C⟩] hc) ht) hlt : FVec Ideal Wide .bf16)
      (ix2 k (⟨256 + j.val, by omega⟩ : Fin 384)) = C (ix2 j k) :=
  (transpose_ix2_apply _ ht k _).trans (cat3r_2 A B C hc j k)

/-- The fused bias row at column j of its first, second and third block: the three biases at j. -/
theorem fusedB_0 (a b c : FVec Ideal Vc .f32) (hc : Shape.Concatenates [Vc, Vc, Vc] Vc3 0) (hn : Vc3.ShapeCasts Row3) (j : Fin 128) :
    shapeCast Row3 (concatenate Vc3 0 [⟨Vc, a⟩, ⟨Vc, b⟩, ⟨Vc, c⟩] hc) hn (ix2 (0 : Fin 1) (⟨j.val, by omega⟩ : Fin 384)) = a (ix1 j) :=
  (shapeCast_a_1a_apply _ hn 0 _).trans (cat3v_0 a b c hc j)

theorem fusedB_1 (a b c : FVec Ideal Vc .f32) (hc : Shape.Concatenates [Vc, Vc, Vc] Vc3 0) (hn : Vc3.ShapeCasts Row3) (j : Fin 128) :
    shapeCast Row3 (concatenate Vc3 0 [⟨Vc, a⟩, ⟨Vc, b⟩, ⟨Vc, c⟩] hc) hn (ix2 (0 : Fin 1) (⟨128 + j.val, by omega⟩ : Fin 384)) = b (ix1 j) :=
  (shapeCast_a_1a_apply _ hn 0 _).trans (cat3v_1 a b c hc j)

theorem fusedB_2 (a b c : FVec Ideal Vc .f32) (hc : Shape.Concatenates [Vc, Vc, Vc] Vc3 0) (hn : Vc3.ShapeCasts Row3) (j : Fin 128) :
    shapeCast Row3 (concatenate Vc3 0 [⟨Vc, a⟩, ⟨Vc, b⟩, ⟨Vc, c⟩] hc) hn (ix2 (0 : Fin 1) (⟨256 + j.val, by omega⟩ : Fin 384)) = c (ix1 j) :=
  (shapeCast_a_1a_apply _ hn 0 _).trans (cat3v_2 a b c hc j)

/-- A square weight transposed and narrowed, at (k, j): the weight at (j, k). -/
theorem wT_apply (W : FVec Ideal Sq .f32) (ht : Sq.Transposes [1, 0] Sq) (hlt : FTy.bits .bf16 < FTy.bits .f32) (k j : Fin 128) :
    (truncf .bf16 (transpose Sq [1, 0] W ht) hlt : FVec Ideal Sq .bf16) (ix2 k j) = W (ix2 j k) :=
  transpose_ix2_apply W ht k j

/-- A bias as a one-row matrix, at (0, j): the bias at j. -/
theorem bRow_apply (b : FVec Ideal Vc .f32) (hn : Vc.ShapeCasts Row1) (j : Fin 128) :
    shapeCast Row1 b hn (ix2 (0 : Fin 1) j) = b (ix1 j) :=
  shapeCast_a_1a_apply b hn 0 j

end AtIdeal

/-! ## The index column and the gathers -/

section Gather
variable {α : Type}

/-- The index column the gathers read: the index vector with negative words counted from the end, as a column. -/
abbrev idxCol (s : IVec Ev 32) (hb : Ev.BroadcastsInDim Ec (![0] : Fin 1 → Fin 2)) (hb0 : Sc.BroadcastsInDim Ev (![] : Fin 0 → Fin 1)) :
    IVec Ec 32 :=
  broadcastInDim Ec ![0] hb
    (select (cmpi .slt s (broadcastInDim Ev ![] hb0 (constantI Sc 32 0#32)))
      (addi s (broadcastInDim Ev ![] hb0 (constantI Sc 32 50000#32))) s)

/-- Its entry for edge e is the normalised word of the index vector at e. -/
theorem idxCol_apply (s : IVec Ev 32) (hb : Ev.BroadcastsInDim Ec (![0] : Fin 1 → Fin 2)) (hb0 : Sc.BroadcastsInDim Ev (![] : Fin 0 → Fin 1))
    (e : Fin 800000) : idxCol s hb hb0 (Cert.Lib.edgeIdx e) = Cert.Spec.normWord (s (ix1 e)) :=
  (Cert.Lib.colBroadcast_apply hb _ e).trans rfl

/-- Rows of two node matrices side by side, gathered at the index column: at edge e, column j of the left half is the
    first matrix at the addressed node, column j of the right half the second. -/
theorem gatherCat_lo (P H : Nd.Idx → α) (wf) (hc : Shape.Concatenates [Nd, Nd] Nd2 1) (s : IVec Ev 32) (hb) (hb0)
    (e : Fin 800000) (j : Fin 128) :
    Host.gather (Cert.Lib.rowGatherDims 50000 800000 256 wf) (concatenate Nd2 1 [⟨Nd, P⟩, ⟨Nd, H⟩] hc) (idxCol s hb hb0)
      (ix2 e (⟨j.val, by omega⟩ : Fin 256)) = P (ix2 (Cert.Spec.nodeOf (s (ix1 e))) j) := by
  rw [Cert.Lib.rowGather_ix2 (by decide) wf, idxCol_apply]
  exact cat2c_lo P H hc _ j

theorem gatherCat_hi (P H : Nd.Idx → α) (wf) (hc : Shape.Concatenates [Nd, Nd] Nd2 1) (s : IVec Ev 32) (hb) (hb0)
    (e : Fin 800000) (j : Fin 128) :
    Host.gather (Cert.Lib.rowGatherDims 50000 800000 256 wf) (concatenate Nd2 1 [⟨Nd, P⟩, ⟨Nd, H⟩] hc) (idxCol s hb hb0)
      (ix2 e (⟨128 + j.val, by omega⟩ : Fin 256)) = H (ix2 (Cert.Spec.nodeOf (s (ix1 e))) j) := by
  rw [Cert.Lib.rowGather_ix2 (by decide) wf, idxCol_apply]
  exact cat2c_hi P H hc _ j

/-- Rows of one node matrix gathered at the index column. -/
theorem gatherRow (P : Nd.Idx → α) (wf) (s : IVec Ev 32) (hb) (hb0) (e : Fin 800000) (j : Fin 128) :
    Host.gather (Cert.Lib.rowGatherDims 50000 800000 128 wf) P (idxCol s hb hb0) (ix2 e j)
      = P (ix2 (Cert.Spec.nodeOf (s (ix1 e))) j) := by
  rw [Cert.Lib.rowGather_ix2 (by decide) wf, idxCol_apply]
  rfl

end Gather

end Cert.HostRead

end
-- ==== Proof.KIHost0.lean ====
/-
  What the host operations before the first tiled call leave in the buffers it reads, entry by entry: the node
  features as launched; the fused 128×384 weight, whose three blocks of 128 columns are the three projection weights
  transposed; the fused 1×384 bias row, whose three blocks are the three projection biases. Also: the layer's inputs
  as the launch memory holds them, and that a buffer no host stretch writes and no tiled call owns is as launched.
-/
import proofs.«137344_j32736240730704_2_alg».proof.Proof.KIFold
import proofs.«137344_j32736240730704_2_alg».proof.Proof.Spec
import proofs.«137344_j32736240730704_2_alg».proof.Proof.LibRowGather
import proofs.«137344_j32736240730704_2_alg».proof.Proof.KIHostRead
import proofs.«137344_j32736240730704_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The layer's inputs as the kernel program's memory holds them on core c. -/
def inputs : Cert.Spec.Inputs :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17),
   m ((c.tc : Thread nD τ).loc main_arg18), m ((c.tc : Thread nD τ).loc main_arg19), m ((c.tc : Thread nD τ).loc main_arg20),
   m ((c.tc : Thread nD τ).loc main_arg21)⟩

/-! ## Buffers the program leaves as launched -/

/-- A buffer the first host stretch does not write is as launched when the first call is entered. -/
theorem W1_keep (r : Ref sig .tc) (h0 : r ∉ hostOps0_W) : W1 m c (Proc.devRef .tc r) = m ((c.tc : Thread nD τ).loc r) :=
  StableHlo.after_of_writes_sub hostOps0 _ hostOps0_writes h0

/-- … and, when it is none of the first call's arrays, still so at that call's exit … -/
theorem W2_keep (r : Ref sig .tc) (h0 : r ∉ hostOps0_W) (h1 : ∀ w, Pipeline.arrRef spec0 w ≠ r) :
    W2 m c (Proc.devRef .tc r) = m ((c.tc : Thread nD τ).loc r) :=
  (W2_of_ne m c r h1).trans (W1_keep m c r h0)

/-- A buffer the second host stretch does not write is, at the second call's entry, what the first call left. -/
theorem W3_of (r : Ref sig .tc) (h2 : r ∉ hostOps1_W) : W3 m c (Proc.devRef .tc r) = W2 m c (Proc.devRef .tc r) :=
  StableHlo.after_of_writes_sub hostOps1 _ hostOps1_writes h2

/-- … when the second call is entered … -/
theorem W3_keep (r : Ref sig .tc) (h0 : r ∉ hostOps0_W) (h1 : ∀ w, Pipeline.arrRef spec0 w ≠ r) (h2 : r ∉ hostOps1_W) :
    W3 m c (Proc.devRef .tc r) = m ((c.tc : Thread nD τ).loc r) :=
  (W3_of m c r h2).trans (W2_keep m c r h0 h1)

/-- A buffer that is none of the second call's arrays and that the third host stretch does not write is, at the third
    call's entry, what it was at the second call's. -/
theorem W5_of (r : Ref sig .tc) (h3 : ∀ w, Pipeline.arrRef spec1 w ≠ r) (h4 : r ∉ hostOps2_W) :
    W5 m c (Proc.devRef .tc r) = W3 m c (Proc.devRef .tc r) :=
  (StableHlo.after_of_writes_sub hostOps2 _ hostOps2_writes h4).trans (W4_of_ne m c r h3)

/-- … at its exit … -/
theorem W4_keep (r : Ref sig .tc) (h0 : r ∉ hostOps0_W) (h1 : ∀ w, Pipeline.arrRef spec0 w ≠ r) (h2 : r ∉ hostOps1_W)
    (h3 : ∀ w, Pipeline.arrRef spec1 w ≠ r) : W4 m c (Proc.devRef .tc r) = m ((c.tc : Thread nD τ).loc r) :=
  (W4_of_ne m c r h3).trans (W3_keep m c r h0 h1 h2)

/-- … and when the third call is entered. -/
theorem W5_keep (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) : W5 m c (Proc.devRef .tc r) = m ((c.tc : Thread nD τ).loc r) :=
  (W5_of m c r h3 h4).trans (W3_keep m c r h0 h1 h2)

/-! ## The entry of the first call -/

/-- The node features are as launched. -/
theorem V1_arg0 : (V1 m c main_arg0 : Cert.Spec.Mat 50000 128) = (inputs m c).h := W1_keep m c main_arg0 (by decide)

/-- The fused weight is the three projection weights stacked, transposed and narrowed. -/
private theorem host0_W1_v4 : @Eq (FVec Ideal S128x384 .bf16) (W1 m c (Proc.devRef .tc main_v4))
    (truncf .bf16 (transpose S128x384 [1, 0] (concatenate S384x128 0
      [⟨S128x128, m ((c.tc : Thread nD τ).loc main_arg4)⟩, ⟨S128x128, m ((c.tc : Thread nD τ).loc main_arg6)⟩,
        ⟨S128x128, m ((c.tc : Thread nD τ).loc main_arg18)⟩] concatenates_S128x128_S128x128_S128x128_S384x128_d0)
      transposes_S384x128_S128x384_1_0) bitsLt_bf16_f32) := by
  show StableHlo.after hostOps0 (W0 m c) (Proc.devRef .tc main_v4) = _
  after_results
  rfl

theorem V1_v4_src (k j : Fin 128) :
    (V1 m c main_v4 : Cert.Spec.Mat 128 384) (ix2 k (⟨j.val, by omega⟩ : Fin 384)) = (inputs m c).Wsrc (ix2 j k) :=
  (congrFun (host0_W1_v4 m c) _).trans (Cert.HostRead.fusedW_0 _ _ _ _ _ _ k j)

theorem V1_v4_dst (k j : Fin 128) :
    (V1 m c main_v4 : Cert.Spec.Mat 128 384) (ix2 k (⟨128 + j.val, by omega⟩ : Fin 384)) = (inputs m c).Wdst (ix2 j k) :=
  (congrFun (host0_W1_v4 m c) _).trans (Cert.HostRead.fusedW_1 _ _ _ _ _ _ k j)

theorem V1_v4_pd (k j : Fin 128) :
    (V1 m c main_v4 : Cert.Spec.Mat 128 384) (ix2 k (⟨256 + j.val, by omega⟩ : Fin 384)) = (inputs m c).Wpd (ix2 j k) :=
  (congrFun (host0_W1_v4 m c) _).trans (Cert.HostRead.fusedW_2 _ _ _ _ _ _ k j)

/-- The fused bias row is the three projection biases laid end to end, as a one-row matrix. -/
private theorem host0_W1_v2 : @Eq (FVec Ideal S1x384 .f32) (W1 m c (Proc.devRef .tc main_v2))
    (shapeCast S1x384 (concatenate S384 0
      [⟨S128, m ((c.tc : Thread nD τ).loc main_arg5)⟩, ⟨S128, m ((c.tc : Thread nD τ).loc main_arg7)⟩,
        ⟨S128, m ((c.tc : Thread nD τ).loc main_arg19)⟩] concatenates_S128_S128_S128_S384_d0) shapeCasts_S384_S1x384) := by
  show StableHlo.after hostOps0 (W0 m c) (Proc.devRef .tc main_v2) = _
  after_results
  dsimp only [Matrix.cons_val]
  repeat (rw [StableHlo.nary_result_ne]; rotate_left; decide)
  rfl

theorem V1_v2_src (j : Fin 128) :
    (V1 m c main_v2 : Cert.Spec.Mat 1 384) (ix2 (0 : Fin 1) (⟨j.val, by omega⟩ : Fin 384)) = (inputs m c).bsrc (ix1 j) :=
  (congrFun (host0_W1_v2 m c) _).trans (Cert.HostRead.fusedB_0 _ _ _ _ _ j)

theorem V1_v2_dst (j : Fin 128) :
    (V1 m c main_v2 : Cert.Spec.Mat 1 384) (ix2 (0 : Fin 1) (⟨128 + j.val, by omega⟩ : Fin 384)) = (inputs m c).bdst (ix1 j) :=
  (congrFun (host0_W1_v2 m c) _).trans (Cert.HostRead.fusedB_1 _ _ _ _ _ j)

theorem V1_v2_pd (j : Fin 128) :
    (V1 m c main_v2 : Cert.Spec.Mat 1 384) (ix2 (0 : Fin 1) (⟨256 + j.val, by omega⟩ : Fin 384)) = (inputs m c).bpd (ix1 j) :=
  (congrFun (host0_W1_v2 m c) _).trans (Cert.HostRead.fusedB_2 _ _ _ _ _ j)

end Cert.KernelIdeal.Hand

end
-- ==== Proof.KIHost1.lean ====
/-
  What the host operations between the first and the second tiled call leave in the buffers the second call reads,
  entry by entry: for every edge the projected and the raw row of its source node side by side, and the projected row
  of its destination node (rows gathered at the index vectors, a negative word counting from the end); the edge
  features as launched; the edge network's three weights transposed and its three biases as one-row matrices.
-/
import proofs.«137344_j32736240730704_2_alg».proof.Proof.KIFold
import proofs.«137344_j32736240730704_2_alg».proof.Proof.Spec
import proofs.«137344_j32736240730704_2_alg».proof.Proof.LibRowGather
import proofs.«137344_j32736240730704_2_alg».proof.Proof.KIHostRead
import proofs.«137344_j32736240730704_2_alg».proof.Proof.Gen.KernelIdeal.Regions
import proofs.«137344_j32736240730704_2_alg».proof.Proof.KIHost0
set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## The gathered rows -/

/-- The first call hands the node features back as it found them: as launched. -/
private theorem host1_W2_arg0 : W2 m c (Proc.devRef .tc main_arg0) = m ((c.tc : Thread nD τ).loc main_arg0) :=
  ((W2_arr m c 0).trans (((dat0 (V1 m) c).arrAt_in 0 rfl _).trans (A_eq0 (V1 m) c 0))).trans (W1_keep m c main_arg0 (by decide))

/-- The source rows: the first call's first result beside the node features, gathered at the source index column. -/
private theorem host1_W3_v13 : @Eq (Cert.Spec.Mat 800000 256) (W3 m c (Proc.devRef .tc main_v13))
    (Host.gather gather_S50000x256_S800000x1_S800000x256_1_0_n_n_0_1_1256
      (concatenate S50000x256 1 [⟨S50000x128, V2 m c main_v5_0⟩, ⟨S50000x128, m ((c.tc : Thread nD τ).loc main_arg0)⟩]
        concatenates_S50000x128_S50000x128_S50000x256_d1)
      (Cert.HostRead.idxCol (m ((c.tc : Thread nD τ).loc main_arg2)) bcast_S800000_S800000x1_0 bcast_S_S800000)) := by
  show StableHlo.after hostOps1 (W2 m c) (Proc.devRef .tc main_v13) = _
  after_results
  rw [host1_W2_arg0 m c, W2_keep m c main_arg2 (by decide) (by decide)]

theorem V3_v13_lo (e : Fin 800000) (j : Fin 128) :
    (V3 m c main_v13 : Cert.Spec.Mat 800000 256) (ix2 e (⟨j.val, by omega⟩ : Fin 256))
      = (V2 m c main_v5_0 : Cert.Spec.Mat 50000 128) (ix2 (Cert.Spec.srcOf (inputs m c) e) j) :=
  (congrFun (host1_W3_v13 m c) _).trans (Cert.HostRead.gatherCat_lo _ _ _ _ _ _ _ e j)

theorem V3_v13_hi (e : Fin 800000) (j : Fin 128) :
    (V3 m c main_v13 : Cert.Spec.Mat 800000 256) (ix2 e (⟨128 + j.val, by omega⟩ : Fin 256))
      = (inputs m c).h (ix2 (Cert.Spec.srcOf (inputs m c) e) j) :=
  (congrFun (host1_W3_v13 m c) _).trans (Cert.HostRead.gatherCat_hi _ _ _ _ _ _ _ e j)

/-- The destination rows: the first call's second result gathered at the destination index column. -/
private theorem host1_W3_v20 : @Eq (Cert.Spec.Mat 800000 128) (W3 m c (Proc.devRef .tc main_v20))
    (Host.gather gather_S50000x128_S800000x1_S800000x128_1_0_n_n_0_1_1128 (V2 m c main_v5_1)
      (Cert.HostRead.idxCol (m ((c.tc : Thread nD τ).loc main_arg3)) bcast_S800000_S800000x1_0 bcast_S_S800000)) := by
  show StableHlo.after hostOps1 (W2 m c) (Proc.devRef .tc main_v20) = _
  after_results_simp
  rw [W2_keep m c main_arg3 (by decide) (by decide)]

theorem V3_v20 (e : Fin 800000) (j : Fin 128) :
    (V3 m c main_v20 : Cert.Spec.Mat 800000 128) (ix2 e j)
      = (V2 m c main_v5_1 : Cert.Spec.Mat 50000 128) (ix2 (Cert.Spec.dstOf (inputs m c) e) j) :=
  (congrFun (host1_W3_v20 m c) _).trans (Cert.HostRead.gatherRow _ _ _ _ _ e j)

/-- The edge features are as launched. -/
theorem V3_arg1 : (V3 m c main_arg1 : Cert.Spec.Mat 800000 128) = (inputs m c).ef :=
  W3_keep m c main_arg1 (by decide) (by decide) (by decide)

/-! ## The edge network's weights and biases -/

private theorem host1_W3_v22 : @Eq (FVec Ideal S128x128 .bf16) (W3 m c (Proc.devRef .tc main_v22))
    (truncf .bf16 (transpose S128x128 [1, 0] (m ((c.tc : Thread nD τ).loc main_arg8) : FVec Ideal S128x128 .f32)
      transposes_S128x128_S128x128_1_0) bitsLt_bf16_f32) := by
  show StableHlo.after hostOps1 (W2 m c) (Proc.devRef .tc main_v22) = _
  after_results
  rw [W2_keep m c main_arg8 (by decide) (by decide)]

theorem V3_v22 (k j : Fin 128) : (V3 m c main_v22 : Cert.Spec.Mat 128 128) (ix2 k j) = (inputs m c).Wphi1 (ix2 j k) :=
  (congrFun (host1_W3_v22 m c) _).trans (Cert.HostRead.wT_apply _ _ _ k j)

private theorem host1_W3_v23 : @Eq (FVec Ideal S1x128 .f32) (W3 m c (Proc.devRef .tc main_v23))
    (shapeCast S1x128 (m ((c.tc : Thread nD τ).loc main_arg9) : FVec Ideal S128 .f32) shapeCasts_S128_S1x128) := by
  show StableHlo.after hostOps1 (W2 m c) (Proc.devRef .tc main_v23) = _
  after_results
  rw [W2_keep m c main_arg9 (by decide) (by decide)]
  rfl

theorem V3_v23 (j : Fin 128) : (V3 m c main_v23 : Cert.Spec.Mat 1 128) (ix2 (0 : Fin 1) j) = (inputs m c).bphi1 (ix1 j) :=
  (congrFun (host1_W3_v23 m c) _).trans (Cert.HostRead.bRow_apply _ _ j)

private theorem host1_W3_v25 : @Eq (FVec Ideal S128x128 .bf16) (W3 m c (Proc.devRef .tc main_v25))
    (truncf .bf16 (transpose S128x128 [1, 0] (m ((c.tc : Thread nD τ).loc main_arg10) : FVec Ideal S128x128 .f32)
      transposes_S128x128_S128x128_1_0) bitsLt_bf16_f32) := by
  show StableHlo.after hostOps1 (W2 m c) (Proc.devRef .tc main_v25) = _
  after_results
  rw [W2_keep m c main_arg10 (by decide) (by decide)]

theorem V3_v25 (k j : Fin 128) : (V3 m c main_v25 : Cert.Spec.Mat 128 128) (ix2 k j) = (inputs m c).Wphi2 (ix2 j k) :=
  (congrFun (host1_W3_v25 m c) _).trans (Cert.HostRead.wT_apply _ _ _ k j)

private theorem host1_W3_v26 : @Eq (FVec Ideal S1x128 .f32) (W3 m c (Proc.devRef .tc main_v26))
    (shapeCast S1x128 (m ((c.tc : Thread nD τ).loc main_arg11) : FVec Ideal S128 .f32) shapeCasts_S128_S1x128) := by
  show StableHlo.after hostOps1 (W2 m c) (Proc.devRef .tc main_v26) = _
  after_results
  rw [W2_keep m c main_arg11 (by decide) (by decide)]
  rfl

theorem V3_v26 (j : Fin 128) : (V3 m c main_v26 : Cert.Spec.Mat 1 128) (ix2 (0 : Fin 1) j) = (inputs m c).bphi2 (ix1 j) :=
  (congrFun (host1_W3_v26 m c) _).trans (Cert.HostRead.bRow_apply _ _ j)

private theorem host1_W3_v28 : @Eq (FVec Ideal S128x128 .bf16) (W3 m c (Proc.devRef .tc main_v28))
    (truncf .bf16 (transpose S128x128 [1, 0] (m ((c.tc : Thread nD τ).loc main_arg12) : FVec Ideal S128x128 .f32)
      transposes_S128x128_S128x128_1_0) bitsLt_bf16_f32) := by
  show StableHlo.after hostOps1 (W2 m c) (Proc.devRef .tc main_v28) = _
  after_results
  rw [W2_keep m c main_arg12 (by decide) (by decide)]

theorem V3_v28 (k j : Fin 128) : (V3 m c main_v28 : Cert.Spec.Mat 128 128) (ix2 k j) = (inputs m c).Wphi3 (ix2 j k) :=
  (congrFun (host1_W3_v28 m c) _).trans (Cert.HostRead.wT_apply _ _ _ k j)

private theorem host1_W3_v29 : @Eq (FVec Ideal S1x128 .f32) (W3 m c (Proc.devRef .tc main_v29))
    (shapeCast S1x128 (m ((c.tc : Thread nD τ).loc main_arg13) : FVec Ideal S128 .f32) shapeCasts_S128_S1x128) := by
  show StableHlo.after hostOps1 (W2 m c) (Proc.devRef .tc main_v29) = _
  after_results
  rw [W2_keep m c main_arg13 (by decide) (by decide)]
  rfl

theorem V3_v29 (j : Fin 128) : (V3 m c main_v29 : Cert.Spec.Mat 1 128) (ix2 (0 : Fin 1) j) = (inputs m c).bphi3 (ix1 j) :=
  (congrFun (host1_W3_v29 m c) _).trans (Cert.HostRead.bRow_apply _ _ j)

end Cert.KernelIdeal.Hand

end
-- ==== Proof.KIHost2.lean ====
/-
  What the host operations between the second and the third tiled call leave in the buffers the third call reads:
  the first call's third result as that call left it; the aggregated messages, which are the scatter-add of the second
  call's result (widened: the identity over the extended reals) into a zero matrix at the destination index column;
  the node network's three weights transposed and its three biases as one-row matrices.
-/
import proofs.«137344_j32736240730704_2_alg».proof.Proof.KIFold
import proofs.«137344_j32736240730704_2_alg».proof.Proof.Spec
import proofs.«137344_j32736240730704_2_alg».proof.Proof.LibRowGather
import proofs.«137344_j32736240730704_2_alg».proof.Proof.KIHostRead
import proofs.«137344_j32736240730704_2_alg».proof.Proof.Gen.KernelIdeal.Regions
import proofs.«137344_j32736240730704_2_alg».proof.Proof.KIHost0
set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The projected node rows the third call reads are what the first call left. -/
theorem V5_v5_2 : (V5 m c main_v5_2 : Cert.Spec.Mat 50000 128) = V2 m c main_v5_2 :=
  (W5_of m c main_v5_2 (by decide) (by decide)).trans (W3_of m c main_v5_2 (by decide))

/-- The aggregated messages: the second call's result scatter-added into zeros at the destination index column. -/
theorem V5_v34 : (V5 m c main_v34 : Cert.Spec.Mat 50000 128) =
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (inputs m c).dst) (V4 m c main_v30) := by
  show StableHlo.after hostOps2 (W4 m c) (Proc.devRef .tc main_v34) = _
  after_results
  rw [W4_keep m c main_arg3 (by decide) (by decide) (by decide) (by decide)]
  rfl

/-! ## The node network's weights and biases -/

private theorem host2_W5_v36 : @Eq (FVec Ideal S128x128 .bf16) (W5 m c (Proc.devRef .tc main_v36))
    (truncf .bf16 (transpose S128x128 [1, 0] (m ((c.tc : Thread nD τ).loc main_arg20) : FVec Ideal S128x128 .f32)
      transposes_S128x128_S128x128_1_0) bitsLt_bf16_f32) := by
  show StableHlo.after hostOps2 (W4 m c) (Proc.devRef .tc main_v36) = _
  after_results
  rw [W4_keep m c main_arg20 (by decide) (by decide) (by decide) (by decide)]

theorem V5_v36 (k j : Fin 128) : (V5 m c main_v36 : Cert.Spec.Mat 128 128) (ix2 k j) = (inputs m c).Wpu (ix2 j k) :=
  (congrFun (host2_W5_v36 m c) _).trans (Cert.HostRead.wT_apply _ _ _ k j)

private theorem host2_W5_v37 : @Eq (FVec Ideal S1x128 .f32) (W5 m c (Proc.devRef .tc main_v37))
    (shapeCast S1x128 (m ((c.tc : Thread nD τ).loc main_arg21) : FVec Ideal S128 .f32) shapeCasts_S128_S1x128) := by
  show StableHlo.after hostOps2 (W4 m c) (Proc.devRef .tc main_v37) = _
  after_results
  rw [W4_keep m c main_arg21 (by decide) (by decide) (by decide) (by decide)]
  rfl

theorem V5_v37 (j : Fin 128) : (V5 m c main_v37 : Cert.Spec.Mat 1 128) (ix2 (0 : Fin 1) j) = (inputs m c).bpu (ix1 j) :=
  (congrFun (host2_W5_v37 m c) _).trans (Cert.HostRead.bRow_apply _ _ j)

private theorem host2_W5_v39 : @Eq (FVec Ideal S128x128 .bf16) (W5 m c (Proc.devRef .tc main_v39))
    (truncf .bf16 (transpose S128x128 [1, 0] (m ((c.tc : Thread nD τ).loc main_arg14) : FVec Ideal S128x128 .f32)
      transposes_S128x128_S128x128_1_0) bitsLt_bf16_f32) := by
  show StableHlo.after hostOps2 (W4 m c) (Proc.devRef .tc main_v39) = _
  after_results
  rw [W4_keep m c main_arg14 (by decide) (by decide) (by decide) (by decide)]

theorem V5_v39 (k j : Fin 128) : (V5 m c main_v39 : Cert.Spec.Mat 128 128) (ix2 k j) = (inputs m c).Wth1 (ix2 j k) :=
  (congrFun (host2_W5_v39 m c) _).trans (Cert.HostRead.wT_apply _ _ _ k j)

private theorem host2_W5_v40 : @Eq (FVec Ideal S1x128 .f32) (W5 m c (Proc.devRef .tc main_v40))
    (shapeCast S1x128 (m ((c.tc : Thread nD τ).loc main_arg15) : FVec Ideal S128 .f32) shapeCasts_S128_S1x128) := by
  show StableHlo.after hostOps2 (W4 m c) (Proc.devRef .tc main_v40) = _
  after_results
  rw [W4_keep m c main_arg15 (by decide) (by decide) (by decide) (by decide)]
  rfl

theorem V5_v40 (j : Fin 128) : (V5 m c main_v40 : Cert.Spec.Mat 1 128) (ix2 (0 : Fin 1) j) = (inputs m c).bth1 (ix1 j) :=
  (congrFun (host2_W5_v40 m c) _).trans (Cert.HostRead.bRow_apply _ _ j)

private theorem host2_W5_v42 : @Eq (FVec Ideal S128x128 .bf16) (W5 m c (Proc.devRef .tc main_v42))
    (truncf .bf16 (transpose S128x128 [1, 0] (m ((c.tc : Thread nD τ).loc main_arg16) : FVec Ideal S128x128 .f32)
      transposes_S128x128_S128x128_1_0) bitsLt_bf16_f32) := by
  show StableHlo.after hostOps2 (W4 m c) (Proc.devRef .tc main_v42) = _
  after_results
  rw [W4_keep m c main_arg16 (by decide) (by decide) (by decide) (by decide)]

theorem V5_v42 (k j : Fin 128) : (V5 m c main_v42 : Cert.Spec.Mat 128 128) (ix2 k j) = (inputs m c).Wth2 (ix2 j k) :=
  (congrFun (host2_W5_v42 m c) _).trans (Cert.HostRead.wT_apply _ _ _ k j)

private theorem host2_W5_v43 : @Eq (FVec Ideal S1x128 .f32) (W5 m c (Proc.devRef .tc main_v43))
    (shapeCast S1x128 (m ((c.tc : Thread nD τ).loc main_arg17) : FVec Ideal S128 .f32) shapeCasts_S128_S1x128) := by
  show StableHlo.after hostOps2 (W4 m c) (Proc.devRef .tc main_v43) = _
  after_results
  rw [W4_keep m c main_arg17 (by decide) (by decide) (by decide) (by decide)]
  rfl

theorem V5_v43 (j : Fin 128) : (V5 m c main_v43 : Cert.Spec.Mat 1 128) (ix2 (0 : Fin 1) j) = (inputs m c).bth2 (ix1 j) :=
  (congrFun (host2_W5_v43 m c) _).trans (Cert.HostRead.bRow_apply _ _ j)

end Cert.KernelIdeal.Hand

end
-- ==== Proof.KIBridge.lean ====
/-
  The kernel program's result is the layer's output: the first call's three results are the node projections
  (a fused 128×384 weight read in three slices is three dense layers), the gathers hand the second call the projected
  and raw source rows and the projected destination rows (gathering projected rows is projecting gathered rows: both
  read one row), so the second call's result is the message array; the scatter-add of that array is the aggregate,
  and the third call's result is the node network applied to it.
-/
import proofs.«137344_j32736240730704_2_alg».proof.Proof.KIFold
import proofs.«137344_j32736240730704_2_alg».proof.Proof.Spec
import proofs.«137344_j32736240730704_2_alg».proof.Proof.KIVal0
import proofs.«137344_j32736240730704_2_alg».proof.Proof.KIVal1
import proofs.«137344_j32736240730704_2_alg».proof.Proof.KIVal2
import proofs.«137344_j32736240730704_2_alg».proof.Proof.KIHost0
import proofs.«137344_j32736240730704_2_alg».proof.Proof.KIHost1
import proofs.«137344_j32736240730704_2_alg».proof.Proof.KIHost2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## A dense layer with the weight transposed is the dense layer -/

/-- If `Wt` is `W` transposed and `b2` is `b` as a 1×128 row, the two spellings of the layer agree. -/
theorem linT_eq_lin (Wt : Cert.Spec.Mat 128 128) (b2 : Cert.Spec.Mat 1 128) (W : Cert.Spec.Mat 128 128) (b : Cert.Spec.Row 128)
    (hW : ∀ k j : Fin 128, Wt (ix2 k j) = W (ix2 j k)) (hb : ∀ j : Fin 128, b2 (ix2 (0 : Fin 1) j) = b (ix1 j)) :
    Cert.Spec.linT Wt b2 = Cert.Spec.lin W b := by
  funext x j
  unfold Cert.Spec.linT Cert.Spec.lin
  rw [hb j]
  exact congrArg (· + b (ix1 j)) (Finset.sum_congr rfl fun k _ => by rw [hW k j])

section
variable (m : (ℓ : Loc nD τ sig) → Buf (Elt Ideal) ℓ) (c : Dev nD)

local notation "I" => inputs m c

/-! ## The first call's results are the three node projections -/

theorem projS (n : Fin 50000) (j : Fin 128) :
    (V2 m c main_v5_0 : Cert.Spec.Mat 50000 128) (ix2 n j) = Cert.Spec.lin (I).Wsrc (I).bsrc (Cert.Spec.row (I).h n) j := by
  refine (congrFun (W2_arr m c 3) (ix2 n j)).trans ?_
  rw [final0_3]
  unfold Cert.Spec.proj Cert.Spec.lin Cert.Spec.row
  rw [V1_v2_src m c (j := j), V1_arg0 m c]
  exact congrArg (· + (I).bsrc (ix1 j)) (Finset.sum_congr rfl fun k _ => by rw [V1_v4_src m c (k := k) (j := j)])

theorem projD (n : Fin 50000) (j : Fin 128) :
    (V2 m c main_v5_1 : Cert.Spec.Mat 50000 128) (ix2 n j) = Cert.Spec.lin (I).Wdst (I).bdst (Cert.Spec.row (I).h n) j := by
  refine (congrFun (W2_arr m c 4) (ix2 n j)).trans ?_
  rw [final0_4]
  unfold Cert.Spec.proj Cert.Spec.lin Cert.Spec.row
  rw [V1_v2_dst m c (j := j), V1_arg0 m c]
  exact congrArg (· + (I).bdst (ix1 j)) (Finset.sum_congr rfl fun k _ => by rw [V1_v4_dst m c (k := k) (j := j)])

theorem projP (n : Fin 50000) (j : Fin 128) :
    (V2 m c main_v5_2 : Cert.Spec.Mat 50000 128) (ix2 n j) = Cert.Spec.lin (I).Wpd (I).bpd (Cert.Spec.row (I).h n) j := by
  refine (congrFun (W2_arr m c 5) (ix2 n j)).trans ?_
  rw [final0_5]
  unfold Cert.Spec.proj Cert.Spec.lin Cert.Spec.row
  rw [V1_v2_pd m c (j := j), V1_arg0 m c]
  exact congrArg (· + (I).bpd (ix1 j)) (Finset.sum_congr rfl fun k _ => by rw [V1_v4_pd m c (k := k) (j := j)])

/-! ## The second call's result is the message array -/

theorem messages : (V4 m c main_v30 : Cert.Spec.Mat 800000 128) = Cert.Spec.M (I) := by
  funext i
  obtain ⟨e, j, rfl⟩ : ∃ (e : Fin 800000) (j : Fin 128), i = ix2 e j := ⟨i 0, i 1, eq_ix2 i⟩
  refine (congrFun (W4_arr m c 9) (ix2 e j)).trans ?_
  rw [final1_9, Cert.Spec.M_ix2]
  unfold Cert.Spec.edgeK Cert.Spec.msg Cert.Spec.emb Cert.Spec.x3 Cert.Spec.x2 Cert.Spec.x1 Cert.Spec.t
  rw [V3_v13_hi m c (e := e) (j := j),
    linT_eq_lin _ _ _ _ (fun k j => V3_v28 m c (k := k) (j := j)) (fun j => V3_v29 m c (j := j)),
    linT_eq_lin _ _ _ _ (fun k j => V3_v25 m c (k := k) (j := j)) (fun j => V3_v26 m c (j := j)),
    linT_eq_lin _ _ _ _ (fun k j => V3_v22 m c (k := k) (j := j)) (fun j => V3_v23 m c (j := j)),
    V3_arg1 m c]
  simp only [V3_v13_lo m c, V3_v20 m c, projS m c, projD m c]

/-! ## The third call's result is the layer's output -/

/-- The aggregated messages as the kernel program forms them: the message array scatter-added into zeros at the
    destination column. -/
def agg (J : Cert.Spec.Inputs) : Cert.Spec.Mat 50000 128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 J.dst) (Cert.Spec.M J)

theorem aggregated : (V5 m c main_v34 : Cert.Spec.Mat 50000 128) = agg (I) := by
  rw [V5_v34 m c, messages m c]; rfl

/-- THE KERNEL'S VALUE: what the third call's write-backs leave in the result array is the layer's output. -/
theorem kernel_value : (dat2 (F := Ideal) (V5 m) c).arrAt 8 cfg2.N = Cert.Spec.out (I) (agg (I)) := by
  funext i
  obtain ⟨n, j, rfl⟩ : ∃ (n : Fin 50000) (j : Fin 128), i = ix2 n j := ⟨i 0, i 1, eq_ix2 i⟩
  rw [final2_8, Cert.Spec.out_ix2]
  unfold Cert.Spec.nodeK Cert.Spec.outE Cert.Spec.y2 Cert.Spec.y1
  rw [linT_eq_lin _ _ _ _ (fun k j => V5_v42 m c (k := k) (j := j)) (fun j => V5_v43 m c (j := j)),
    linT_eq_lin _ _ _ _ (fun k j => V5_v39 m c (k := k) (j := j)) (fun j => V5_v40 m c (j := j)),
    linT_eq_lin _ _ _ _ (fun k j => V5_v36 m c (k := k) (j := j)) (fun j => V5_v37 m c (j := j)),
    aggregated m c, V5_v5_2 m c]
  simp only [projP m c]

end

end Cert.KernelIdeal.Hand

end
-- ==== Proof.RefLayers.lean ====
/-
  The reference's building blocks read at an index, over the extended reals, each stated over variable arrays.

  A dense layer of the reference is a contraction of the input rows against the transposed weight, plus the bias
  broadcast over the rows: at row r and output feature j it is (sum over k of x[r, k] * W[j, k]) + b[j], the
  specification's lin. The rectifier is the entrywise maximum with a broadcast zero. An indexed read h[idx] is a row
  gather at the normalised index column: row e of the result is row nodeOf idx[e] of h.
-/
import proofs.«137344_j32736240730704_2_alg».proof.Proof.Spec
import proofs.«137344_j32736240730704_2_alg».proof.Proof.LibRowGather
import proofs.«137344_j32736240730704_2_alg».proof.Proof.Gen.ReferenceIdeal.Read

noncomputable section

namespace Cert.ReferenceIdeal.RefValue

open Cert.ReferenceIdeal Cert.ReferenceIdeal.Gen Idealize.ShloMosaic Idealize.ShloMosaic.ValueIdx

/-! ## The bias of a dense layer -/

/-- A bias vector made a 1×128 row and repeated over 800000 rows reads, at (e, j), the bias at j. -/
theorem bias_edge (b : FVec Ideal S128 .f32) (e : Fin 800000) (j : Fin 128) :
    broadcastInDim S800000x128 ![0, 1] bcast_S1x128_S800000x128_0_1
      (broadcastInDim S1x128 ![1] bcast_S128_S1x128_1 b) (ix2 e j) = b (ix1 j) := by
  rw [broadcastInDim_apply _ bcast_S1x128_S800000x128_0_1 _ (ix2 e j) (ix2 (0 : Fin 1) j) (fun a => match a with
      | ⟨0, _⟩ => by show 0 = if (1 : Nat) = 1 then 0 else e.val; rw [if_pos rfl]
      | ⟨1, _⟩ => by show j.val = if (128 : Nat) = 1 then 0 else j.val; rw [if_neg (by decide)]),
    broadcastInDim_apply _ bcast_S128_S1x128_1 b (ix2 (0 : Fin 1) j) (ix1 j) (fun a => match a with
      | ⟨0, _⟩ => by show j.val = if (128 : Nat) = 1 then 0 else j.val; rw [if_neg (by decide)])]

/-- The same over 50000 rows. -/
theorem bias_node (b : FVec Ideal S128 .f32) (n : Fin 50000) (j : Fin 128) :
    broadcastInDim S50000x128 ![0, 1] bcast_S1x128_S50000x128_0_1
      (broadcastInDim S1x128 ![1] bcast_S128_S1x128_1 b) (ix2 n j) = b (ix1 j) := by
  rw [broadcastInDim_apply _ bcast_S1x128_S50000x128_0_1 _ (ix2 n j) (ix2 (0 : Fin 1) j) (fun a => match a with
      | ⟨0, _⟩ => by show 0 = if (1 : Nat) = 1 then 0 else n.val; rw [if_pos rfl]
      | ⟨1, _⟩ => by show j.val = if (128 : Nat) = 1 then 0 else j.val; rw [if_neg (by decide)]),
    broadcastInDim_apply _ bcast_S128_S1x128_1 b (ix2 (0 : Fin 1) j) (ix1 j) (fun a => match a with
      | ⟨0, _⟩ => by show j.val = if (128 : Nat) = 1 then 0 else j.val; rw [if_neg (by decide)])]

/-! ## The contraction of a dense layer -/

/-- A weight stored [out, in], transposed, read at (k, j): the weight at (j, k). -/
theorem weightT_apply (W : FVec Ideal S128x128 .f32) (k j : Fin 128) :
    transpose S128x128 [1, 0] W transposes_S128x128_S128x128_1_0 (ix2 k j) = W (ix2 j k) :=
  transpose_apply [1, 0] W transposes_S128x128_S128x128_1_0 (ix2 k j) (ix2 j k) (fun b => match b with
    | ⟨0, _⟩ => rfl
    | ⟨1, _⟩ => rfl)

/-- Rows of an 800000×128 array against a 128×128 right operand: at (e, j) the sum over k of x[e, k] * y[k, j]. -/
theorem dot_edge (x : FVec Ideal S800000x128 .f32) (y : FVec Ideal S128x128 .f32) (e : Fin 800000) (j : Fin 128) :
    Host.dotGeneral dot_S800000x128_S128x128_S800000x128_1_0_0_1_n_n none x y (ix2 e j)
      = ∑ k : Fin 128, x (ix2 e k) * y (ix2 k j) := by
  simp only [Host.dotGeneral]
  rw [Ideal.dotGeneral_apply,
    ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 e j)
      ((contrEquiv1 dot_S800000x128_S128x128_S800000x128_1_0_0_1_n_n 128 rfl rfl).symm k) = ix2 e k :=
    funext fun a => Fin.ext (by
      match a with
      | ⟨0, _⟩ => exact Read.lhs_main_v15_0 _ _
      | ⟨1, _⟩ => exact (Read.lhs_main_v15_1 _ _).trans hk)
  have er : dot_S800000x128_S128x128_S800000x128_1_0_0_1_n_n.rhsIdx (ix2 e j)
      ((contrEquiv1 dot_S800000x128_S128x128_S800000x128_1_0_0_1_n_n 128 rfl rfl).symm k) = ix2 k j :=
    funext fun a => Fin.ext (by
      match a with
      | ⟨0, _⟩ => exact (Read.rhs_main_v15_0 _ _).trans hk
      | ⟨1, _⟩ => exact Read.rhs_main_v15_1 _ _)
  rw [el, er]

/-- The same for a 50000×128 left operand. -/
theorem dot_node (x : FVec Ideal S50000x128 .f32) (y : FVec Ideal S128x128 .f32) (n : Fin 50000) (j : Fin 128) :
    Host.dotGeneral dot_S50000x128_S128x128_S50000x128_1_0_0_1_n_n none x y (ix2 n j)
      = ∑ k : Fin 128, x (ix2 n k) * y (ix2 k j) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j)
      ((contrEquiv1 dot_S50000x128_S128x128_S50000x128_1_0_0_1_n_n 128 rfl rfl).symm k) = ix2 n k :=
    funext fun a => Fin.ext (by
      match a with
      | ⟨0, _⟩ => exact Read.lhs_main_v49_0 _ _
      | ⟨1, _⟩ => exact (Read.lhs_main_v49_1 _ _).trans hk)
  have er : dot_S50000x128_S128x128_S50000x128_1_0_0_1_n_n.rhsIdx (ix2 n j)
      ((contrEquiv1 dot_S50000x128_S128x128_S50000x128_1_0_0_1_n_n 128 rfl rfl).symm k) = ix2 k j :=
    funext fun a => Fin.ext (by
      match a with
      | ⟨0, _⟩ => exact (Read.rhs_main_v49_0 _ _).trans hk
      | ⟨1, _⟩ => exact Read.rhs_main_v49_1 _ _)
  rw [el, er]

/-! ## A dense layer -/

/-- A DENSE LAYER OVER THE EDGES at (e, j): the specification's layer on row e of the input. -/
theorem lin_edge (x : FVec Ideal S800000x128 .f32) (W : FVec Ideal S128x128 .f32) (b : FVec Ideal S128 .f32)
    (e : Fin 800000) (j : Fin 128) :
    addf (Host.dotGeneral dot_S800000x128_S128x128_S800000x128_1_0_0_1_n_n none x
        (transpose S128x128 [1, 0] W transposes_S128x128_S128x128_1_0))
      (broadcastInDim S800000x128 ![0, 1] bcast_S1x128_S800000x128_0_1
        (broadcastInDim S1x128 ![1] bcast_S128_S1x128_1 b)) (ix2 e j)
      = Cert.Spec.lin W b (fun k => x (ix2 e k)) j := by
  rw [addf_apply, dot_edge, bias_edge]
  unfold Cert.Spec.lin
  congr 1
  exact Finset.sum_congr rfl fun k _ => congrArg (x (ix2 e k) * ·) (weightT_apply W k j)

/-- A DENSE LAYER OVER THE NODES at (n, j): the specification's layer on row n of the input. -/
theorem lin_node (x : FVec Ideal S50000x128 .f32) (W : FVec Ideal S128x128 .f32) (b : FVec Ideal S128 .f32)
    (n : Fin 50000) (j : Fin 128) :
    addf (Host.dotGeneral dot_S50000x128_S128x128_S50000x128_1_0_0_1_n_n none x
        (transpose S128x128 [1, 0] W transposes_S128x128_S128x128_1_0))
      (broadcastInDim S50000x128 ![0, 1] bcast_S1x128_S50000x128_0_1
        (broadcastInDim S1x128 ![1] bcast_S128_S1x128_1 b)) (ix2 n j)
      = Cert.Spec.lin W b (fun k => x (ix2 n k)) j := by
  rw [addf_apply, dot_node, bias_node]
  unfold Cert.Spec.lin
  congr 1
  exact Finset.sum_congr rfl fun k _ => congrArg (x (ix2 n k) * ·) (weightT_apply W k j)

/-! ## The rectifier -/

/-- The entrywise maximum with a broadcast zero is the specification's rectifier at every entry. -/
theorem relu_apply {s : Shape} (bc : S_.BroadcastsInDim s (![] : Fin 0 → Fin s.rank)) (x : FVec Ideal s .f32)
    (i : s.Idx) :
    maximumf x (broadcastInDim s ![] bc (constant (F := Ideal) S_ .f32 0x00000000#32)) i = Cert.Spec.relu (x i) :=
  rfl

/-! ## An indexed read of the node rows -/

/-- THE INDEXED READ h[idx] at (e, f): row nodeOf idx[e] of h, column f. The index words are first normalised (a
    negative word counts from the end), made a column, and the gather reads each signed and clamped. -/
theorem gather_node (h : FVec Ideal S50000x128 .f32) (w : IVec S800000 32) (e : Fin 800000) (f : Fin 128) :
    Host.gather gather_S50000x128_S800000x1_S800000x128_1_0_n_n_0_1_1128 h
      (broadcastInDim S800000x1 ![0] bcast_S800000_S800000x1_0
        (select (cmpi .slt w (broadcastInDim S800000 ![] bcast_S_S800000 (constantI S_ 32 0#32)))
          (addi w (broadcastInDim S800000 ![] bcast_S_S800000 (constantI S_ 32 50000#32))) w)) (ix2 e f)
      = h (ix2 (Cert.Spec.nodeOf (w (ix1 e))) f) := by
  have hrec : gather_S50000x128_S800000x1_S800000x128_1_0_n_n_0_1_1128
      = Cert.Lib.rowGatherDims 50000 800000 128 gather_S50000x128_S800000x1_S800000x128_1_0_n_n_0_1_1128_wf := rfl
  rw [hrec, Cert.Lib.rowGather_ix2 (by decide : 0 < 50000), Cert.Lib.colBroadcast_apply]
  rfl

end Cert.ReferenceIdeal.RefValue

end
-- ==== Proof.RefEdge.lean ====
/-
  The reference's edge network, stage by stage, read at an edge e and a feature j: every stage is the specification's
  function of the same name on the layer's inputs. The gathered rows are rows srcOf e and dstOf e of the node features;
  the edge code t adds the two projected endpoint rows to the edge feature; three rectified dense layers give the edge
  embedding; the message is the source row times the embedding, entrywise. The last theorem says the whole message
  array is the specification's M.
-/
import proofs.«137344_j32736240730704_2_alg».proof.Proof.RefLayers

noncomputable section

namespace Cert.ReferenceIdeal.RefValue

open Cert.ReferenceIdeal Cert.ReferenceIdeal.Gen Idealize.ShloMosaic Idealize.ShloMosaic.ValueIdx

variable (I : Cert.Spec.Inputs) (e : Fin 800000) (j : Fin 128)

/-- The gathered source rows: row e is row srcOf e of the node features. -/
theorem hsrc_ix2 : Read.val_main_v6 (F := Ideal) I.h I.src (ix2 e j) = I.h (ix2 (Cert.Spec.srcOf I e) j) :=
  gather_node I.h I.src e j

/-- The gathered destination rows: row e is row dstOf e of the node features. -/
theorem hdst_ix2 : Read.val_main_v13 (F := Ideal) I.h I.dst (ix2 e j) = I.h (ix2 (Cert.Spec.dstOf I e) j) :=
  gather_node I.h I.dst e j

/-- The projected source rows. -/
theorem psrc_ix2 : Read.val_main_v18 (F := Ideal) I.h I.src I.Wsrc I.bsrc (ix2 e j)
    = Cert.Spec.lin I.Wsrc I.bsrc (Cert.Spec.row I.h (Cert.Spec.srcOf I e)) j := by
  unfold Read.val_main_v18 Read.val_main_v15 Read.val_main_v14 Read.val_main_v17 Read.val_main_v16
  rw [lin_edge]
  exact congrArg (fun x => Cert.Spec.lin I.Wsrc I.bsrc x j) (funext fun k => hsrc_ix2 I e k)

/-- The projected destination rows. -/
theorem pdst_ix2 : Read.val_main_v24 (F := Ideal) I.h I.dst I.Wdst I.bdst (ix2 e j)
    = Cert.Spec.lin I.Wdst I.bdst (Cert.Spec.row I.h (Cert.Spec.dstOf I e)) j := by
  unfold Read.val_main_v24 Read.val_main_v21 Read.val_main_v20 Read.val_main_v23 Read.val_main_v22
  rw [lin_edge]
  exact congrArg (fun x => Cert.Spec.lin I.Wdst I.bdst x j) (funext fun k => hdst_ix2 I e k)

/-- The edge code: the edge feature plus the two projected endpoint rows. -/
theorem t_ix2 : Read.val_main_v25 (F := Ideal) I.h I.ef I.src I.dst I.Wsrc I.bsrc I.Wdst I.bdst (ix2 e j) = Cert.Spec.t I e j := by
  unfold Read.val_main_v25 Read.val_main_v19
  rw [addf_apply, addf_apply, psrc_ix2, pdst_ix2]
  rfl

/-- The first hidden row: the rectified edge code. -/
theorem x1_ix2 : Read.val_main_v26 (F := Ideal) I.h I.ef I.src I.dst I.Wsrc I.bsrc I.Wdst I.bdst (ix2 e j) = Cert.Spec.x1 I e j :=
  (relu_apply bcast_S_S800000x128 (Read.val_main_v25 (F := Ideal) I.h I.ef I.src I.dst I.Wsrc I.bsrc I.Wdst I.bdst) (ix2 e j)).trans (congrArg Cert.Spec.relu (t_ix2 I e j))

/-- The first dense layer of the edge network. -/
theorem l1_ix2 : Read.val_main_v31 (F := Ideal) I.h I.ef I.src I.dst I.Wsrc I.bsrc I.Wdst I.bdst I.Wphi1 I.bphi1 (ix2 e j) = Cert.Spec.lin I.Wphi1 I.bphi1 (Cert.Spec.x1 I e) j := by
  unfold Read.val_main_v31 Read.val_main_v28 Read.val_main_v27 Read.val_main_v30 Read.val_main_v29
  rw [lin_edge]
  exact congrArg (fun x => Cert.Spec.lin I.Wphi1 I.bphi1 x j) (funext fun k => x1_ix2 I e k)

/-- The second hidden row. -/
theorem x2_ix2 : Read.val_main_v32 (F := Ideal) I.h I.ef I.src I.dst I.Wsrc I.bsrc I.Wdst I.bdst I.Wphi1 I.bphi1 (ix2 e j) = Cert.Spec.x2 I e j :=
  (relu_apply bcast_S_S800000x128 (Read.val_main_v31 (F := Ideal) I.h I.ef I.src I.dst I.Wsrc I.bsrc I.Wdst I.bdst I.Wphi1 I.bphi1) (ix2 e j)).trans (congrArg Cert.Spec.relu (l1_ix2 I e j))

/-- The second dense layer of the edge network. -/
theorem l2_ix2 : Read.val_main_v37 (F := Ideal) I.h I.ef I.src I.dst I.Wsrc I.bsrc I.Wdst I.bdst I.Wphi1 I.bphi1 I.Wphi2 I.bphi2 (ix2 e j) = Cert.Spec.lin I.Wphi2 I.bphi2 (Cert.Spec.x2 I e) j := by
  unfold Read.val_main_v37 Read.val_main_v34 Read.val_main_v33 Read.val_main_v36 Read.val_main_v35
  rw [lin_edge]
  exact congrArg (fun x => Cert.Spec.lin I.Wphi2 I.bphi2 x j) (funext fun k => x2_ix2 I e k)

/-- The third hidden row. -/
theorem x3_ix2 : Read.val_main_v38 (F := Ideal) I.h I.ef I.src I.dst I.Wsrc I.bsrc I.Wdst I.bdst I.Wphi1 I.bphi1 I.Wphi2 I.bphi2 (ix2 e j) = Cert.Spec.x3 I e j :=
  (relu_apply bcast_S_S800000x128 (Read.val_main_v37 (F := Ideal) I.h I.ef I.src I.dst I.Wsrc I.bsrc I.Wdst I.bdst I.Wphi1 I.bphi1 I.Wphi2 I.bphi2) (ix2 e j)).trans (congrArg Cert.Spec.relu (l2_ix2 I e j))

/-- The edge embedding: the third dense layer. -/
theorem emb_ix2 : Read.val_main_v43 (F := Ideal) I.h I.ef I.src I.dst I.Wsrc I.bsrc I.Wdst I.bdst I.Wphi1 I.bphi1 I.Wphi2 I.bphi2 I.Wphi3 I.bphi3 (ix2 e j) = Cert.Spec.emb I e j := by
  unfold Read.val_main_v43 Read.val_main_v40 Read.val_main_v39 Read.val_main_v42 Read.val_main_v41
  rw [lin_edge]
  exact congrArg (fun x => Cert.Spec.lin I.Wphi3 I.bphi3 x j) (funext fun k => x3_ix2 I e k)

/-- The message of edge e: the source row times the embedding, entrywise. -/
theorem msg_ix2 : Read.val_main_v44 (F := Ideal) I.h I.ef I.src I.dst I.Wsrc I.bsrc I.Wdst I.bdst I.Wphi1 I.bphi1 I.Wphi2 I.bphi2 I.Wphi3 I.bphi3 (ix2 e j) = Cert.Spec.msg I e j := by
  unfold Read.val_main_v44
  rw [mulf_apply, hsrc_ix2, emb_ix2]
  rfl

/-- THE MESSAGE ARRAY of the reference is the specification's. -/
theorem updates_eq : Read.val_main_v44 (F := Ideal) I.h I.ef I.src I.dst I.Wsrc I.bsrc I.Wdst I.bdst I.Wphi1 I.bphi1 I.Wphi2 I.bphi2 I.Wphi3 I.bphi3 = Cert.Spec.M I := by
  refine funext fun i => ?_
  obtain ⟨e, j, rfl⟩ : ∃ (e : Fin 800000) (j : Fin 128), i = ix2 e j := ⟨i 0, i 1, eq_ix2 i⟩
  rw [Cert.Spec.M_ix2]
  exact msg_ix2 I e j

end Cert.ReferenceIdeal.RefValue

end
-- ==== Proof.RefSide.lean ====
/-
  The reference's result as the specification's function of its inputs.

  The reference forms the message array (the specification's M), scatter-adds it into a zero array at the destination
  index column (the aggregated messages, named agg here and left unopened: the other program forms the same sum), and
  runs the node network on every node n: the sum of two dense layers, of row n of the node features and of row n of
  the aggregated messages, rectified, then a rectified dense layer, then a last dense layer. Read at (n, j) every stage
  is the specification's function of the same name, so the run's result array is the specification's out.
-/
import proofs.«137344_j32736240730704_2_alg».proof.Proof.RefEdge

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The layer's inputs as the reference's memory holds them on core c. -/
def inputs (m : (ℓ : Loc nD τ sig) → Buf (Elt Ideal) ℓ) (c : Dev nD) : Cert.Spec.Inputs :=
  ⟨m ((c.tc : Thread nD τ).loc main_arg0), m ((c.tc : Thread nD τ).loc main_arg1), m ((c.tc : Thread nD τ).loc main_arg2), m ((c.tc : Thread nD τ).loc main_arg3),
   m ((c.tc : Thread nD τ).loc main_arg4), m ((c.tc : Thread nD τ).loc main_arg5), m ((c.tc : Thread nD τ).loc main_arg6), m ((c.tc : Thread nD τ).loc main_arg7),
   m ((c.tc : Thread nD τ).loc main_arg8), m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14), m ((c.tc : Thread nD τ).loc main_arg15),
   m ((c.tc : Thread nD τ).loc main_arg16), m ((c.tc : Thread nD τ).loc main_arg17), m ((c.tc : Thread nD τ).loc main_arg18), m ((c.tc : Thread nD τ).loc main_arg19),
   m ((c.tc : Thread nD τ).loc main_arg20), m ((c.tc : Thread nD τ).loc main_arg21)⟩

/-- The aggregated messages as the reference forms them: the message array scatter-added into zeros at the destination
    column. -/
def agg (I : Cert.Spec.Inputs) : Cert.Spec.Mat 50000 128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 I.dst) (Cert.Spec.M I)

variable (I : Cert.Spec.Inputs) (n : Fin 50000) (j : Fin 128)

/-- The reference's scatter-add stage is agg: its updates are the specification's message array, its zeros and its index
    column are the ones agg names. -/
theorem agg_eq : Read.val_main_v47 (F := Ideal) I.h I.ef I.src I.dst I.Wsrc I.bsrc I.Wdst I.bdst I.Wphi1 I.bphi1 I.Wphi2 I.bphi2 I.Wphi3 I.bphi3 = agg I := by
  unfold Read.val_main_v47 Read.val_main_v45 Read.val_main_cst Read.val_main_v46 agg
  rw [updates_eq]

/-- The dense layer of the node's own features. -/
theorem pd_ix2 : Read.val_main_v52 (F := Ideal) I.h I.Wpd I.bpd (ix2 n j) = Cert.Spec.lin I.Wpd I.bpd (Cert.Spec.row I.h n) j := by
  unfold Read.val_main_v52 Read.val_main_v49 Read.val_main_v48 Read.val_main_v51 Read.val_main_v50
  rw [lin_node]
  rfl

/-- The dense layer of the node's aggregated messages. -/
theorem pu_ix2 : Read.val_main_v57 (F := Ideal) I.h I.ef I.src I.dst I.Wsrc I.bsrc I.Wdst I.bdst I.Wphi1 I.bphi1 I.Wphi2 I.bphi2 I.Wphi3 I.bphi3 I.Wpu I.bpu (ix2 n j) = Cert.Spec.lin I.Wpu I.bpu (Cert.Spec.row (agg I) n) j := by
  unfold Read.val_main_v57 Read.val_main_v54 Read.val_main_v53 Read.val_main_v56 Read.val_main_v55
  rw [agg_eq, lin_node]
  rfl

/-- The first hidden row of the node network: the rectified sum of the two. -/
theorem y1_ix2 : Read.val_main_v59 (F := Ideal) I.h I.ef I.src I.dst I.Wsrc I.bsrc I.Wdst I.bdst I.Wphi1 I.bphi1 I.Wphi2 I.bphi2 I.Wphi3 I.bphi3 I.Wpd I.bpd I.Wpu I.bpu (ix2 n j) = Cert.Spec.y1 I (agg I) n j := by
  refine (relu_apply bcast_S_S50000x128 (Read.val_main_v58 (F := Ideal) I.h I.ef I.src I.dst I.Wsrc I.bsrc I.Wdst I.bdst I.Wphi1 I.bphi1 I.Wphi2 I.bphi2 I.Wphi3 I.bphi3 I.Wpd I.bpd I.Wpu I.bpu) (ix2 n j)).trans (congrArg Cert.Spec.relu ?_)
  unfold Read.val_main_v58
  rw [addf_apply, pd_ix2, pu_ix2]

/-- The second dense layer of the node network. -/
theorem m1_ix2 : Read.val_main_v64 (F := Ideal) I.h I.ef I.src I.dst I.Wsrc I.bsrc I.Wdst I.bdst I.Wphi1 I.bphi1 I.Wphi2 I.bphi2 I.Wphi3 I.bphi3 I.Wth1 I.bth1 I.Wpd I.bpd I.Wpu I.bpu (ix2 n j) = Cert.Spec.lin I.Wth1 I.bth1 (Cert.Spec.y1 I (agg I) n) j := by
  unfold Read.val_main_v64 Read.val_main_v61 Read.val_main_v60 Read.val_main_v63 Read.val_main_v62
  rw [lin_node]
  exact congrArg (fun x => Cert.Spec.lin I.Wth1 I.bth1 x j) (funext fun k => y1_ix2 I n k)

/-- The second hidden row of the node network. -/
theorem y2_ix2 : Read.val_main_v65 (F := Ideal) I.h I.ef I.src I.dst I.Wsrc I.bsrc I.Wdst I.bdst I.Wphi1 I.bphi1 I.Wphi2 I.bphi2 I.Wphi3 I.bphi3 I.Wth1 I.bth1 I.Wpd I.bpd I.Wpu I.bpu (ix2 n j) = Cert.Spec.y2 I (agg I) n j :=
  (relu_apply bcast_S_S50000x128 (Read.val_main_v64 (F := Ideal) I.h I.ef I.src I.dst I.Wsrc I.bsrc I.Wdst I.bdst I.Wphi1 I.bphi1 I.Wphi2 I.bphi2 I.Wphi3 I.bphi3 I.Wth1 I.bth1 I.Wpd I.bpd I.Wpu I.bpu) (ix2 n j)).trans (congrArg Cert.Spec.relu (m1_ix2 I n j))

/-- The node network's output at (n, j). -/
theorem outE_ix2 : Read.val_main_v70 (F := Ideal) I.h I.ef I.src I.dst I.Wsrc I.bsrc I.Wdst I.bdst I.Wphi1 I.bphi1 I.Wphi2 I.bphi2 I.Wphi3 I.bphi3 I.Wth1 I.bth1 I.Wth2 I.bth2 I.Wpd I.bpd I.Wpu I.bpu (ix2 n j) = Cert.Spec.outE I (agg I) n j := by
  unfold Read.val_main_v70 Read.val_main_v67 Read.val_main_v66 Read.val_main_v69 Read.val_main_v68
  rw [lin_node]
  exact congrArg (fun x => Cert.Spec.lin I.Wth2 I.bth2 x j) (funext fun k => y2_ix2 I n k)

/-- THE REFERENCE'S LAST STAGE is the specification's result array on agg. -/
theorem out_eq : Read.val_main_v70 (F := Ideal) I.h I.ef I.src I.dst I.Wsrc I.bsrc I.Wdst I.bdst I.Wphi1 I.bphi1 I.Wphi2 I.bphi2 I.Wphi3 I.bphi3 I.Wth1 I.bth1 I.Wth2 I.bth2 I.Wpd I.bpd I.Wpu I.bpu = Cert.Spec.out I (agg I) := by
  refine funext fun i => ?_
  obtain ⟨n, j, rfl⟩ : ∃ (n : Fin 50000) (j : Fin 128), i = ix2 n j := ⟨i 0, i 1, eq_ix2 i⟩
  rw [Cert.Spec.out_ix2]
  exact outE_ix2 I n j

/-- THE REFERENCE'S RESULT: the run's result term of the argument arrays is the specification's result array of the
    layer's inputs and their aggregated messages. -/
theorem result_eq (m : (ℓ : Loc nD τ sig) → Buf (Elt Ideal) ℓ) (c : Dev nD) :
    Cert.ReferenceIdeal.Value.res_out0 (F := Ideal) m c = Cert.Spec.out (inputs m c) (agg (inputs m c)) :=
  (Read.val_main_v70_eq (F := Ideal) m c).trans (out_eq (inputs m c))

end Cert.ReferenceIdeal.RefValue

end
-- ==== Proof.lean ====
/-
  The certificate of one graph-network message-passing layer: a kernel program of three tiled calls with host gathers
  and a scatter-add between them, against the plain array program.

  Frames. The kernel program, at the word level and idealized, is its host stretches and its three calls run in order
  (Proof/KRun.lean, Proof/KIRun.lean): it terminates, nothing faults, and no argument array is written. The reference has
  no tiled call: its frame is its run with the result dropped.
  Preservation. The ideal pass rewrote nothing: the idealized kernel is the kernel's own text read over the extended reals.
  Equality of the results over the extended reals. Both programs end with the layer's output `Cert.Spec.out` of the
  same inputs and the same aggregate: the kernel because its three calls compute the node projections, the message
  array and the node network (Proof/KIBridge.lean), the reference by reading its operations one at a time
  (Proof/RefSide.lean). The identities used are exact on the extended reals and need no finiteness: a row gather
  commutes with a row-wise dense layer, and a 128×384 weight read in three column slices is three 128×128 layers.
-/
import proofs.«137344_j32736240730704_2_alg».proof.Defs
import proofs.«137344_j32736240730704_2_alg».proof.Proof.Gen.Kernel
import proofs.«137344_j32736240730704_2_alg».proof.Proof.Gen.Kernel.Skeleton
import proofs.«137344_j32736240730704_2_alg».proof.Proof.Gen.Kernel.Launch
import proofs.«137344_j32736240730704_2_alg».proof.Proof.Gen.Kernel.Regions
import proofs.«137344_j32736240730704_2_alg».proof.Proof.Gen.Kernel.Points
import proofs.«137344_j32736240730704_2_alg».proof.Proof.Gen.KernelIdeal
import proofs.«137344_j32736240730704_2_alg».proof.Proof.Gen.KernelIdeal.Skeleton
import proofs.«137344_j32736240730704_2_alg».proof.Proof.Gen.KernelIdeal.Launch
import proofs.«137344_j32736240730704_2_alg».proof.Proof.Gen.KernelIdeal.Regions
import proofs.«137344_j32736240730704_2_alg».proof.Proof.Gen.KernelIdeal.Points
import proofs.«137344_j32736240730704_2_alg».proof.Proof.Gen.ReferenceIdeal
import proofs.«137344_j32736240730704_2_alg».proof.Proof.Gen.Pre_finite_inputs
import proofs.«137344_j32736240730704_2_alg».proof.Proof.Gen.ReferenceIdeal.Run
import proofs.«137344_j32736240730704_2_alg».proof.Proof.Gen.ReferenceIdeal.Read
import proofs.«137344_j32736240730704_2_alg».proof.Proof.KRun
import proofs.«137344_j32736240730704_2_alg».proof.Proof.KIRun
import proofs.«137344_j32736240730704_2_alg».proof.Proof.KIBridge
import proofs.«137344_j32736240730704_2_alg».proof.Proof.RefSide
import Idealize.ShloMosaic.Adequacy
import Idealize.ShloMosaic.Init

noncomputable section

namespace Cert.Proof

open Idealize.ShloMosaic Idealize.SL.Sem

/-- The two programs' scatter-adds are one operation: the same dimension numbers, the same zeros, the same index column. -/
theorem agg_eq (J : Cert.Spec.Inputs) : Cert.ReferenceIdeal.RefValue.agg J = Cert.KernelIdeal.Hand.agg J := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the layer's output of those arguments, their
    argument arrays unchanged. -/
theorem algebraic : Cert.algebraic_KernelIdeal_ReferenceIdeal := by
  intro m ρ m' ρ' _ hagree
  refine ⟨fun c => Cert.Spec.out (Cert.KernelIdeal.Hand.inputs m c) (Cert.KernelIdeal.Hand.agg (Cert.KernelIdeal.Hand.inputs m c)), ?_, ?_⟩
  · exact (θ_run Cert.KernelIdeal.defs _ _).mono (fun r h c =>
      ⟨(h c _ (Cert.KernelIdeal.Hand.mem_uc Cert.KernelIdeal.main_v44 (by decide))).trans
          ((Cert.KernelIdeal.Hand.W6_main_v44 m c).trans (Cert.KernelIdeal.Hand.kernel_value m c)),
        (h c _ (Cert.KernelIdeal.Hand.mem_uc Cert.KernelIdeal.main_arg0 (by decide))).trans (Cert.KernelIdeal.Hand.W6_main_arg0 m c),
        (h c _ (Cert.KernelIdeal.Hand.mem_uc Cert.KernelIdeal.main_arg1 (by decide))).trans (Cert.KernelIdeal.Hand.W6_main_arg1 m c),
        (h c _ (Cert.KernelIdeal.Hand.mem_uc Cert.KernelIdeal.main_arg2 (by decide))).trans (Cert.KernelIdeal.Hand.W6_main_arg2 m c),
        (h c _ (Cert.KernelIdeal.Hand.mem_uc Cert.KernelIdeal.main_arg3 (by decide))).trans (Cert.KernelIdeal.Hand.W6_main_arg3 m c),
        (h c _ (Cert.KernelIdeal.Hand.mem_uc Cert.KernelIdeal.main_arg4 (by decide))).trans (Cert.KernelIdeal.Hand.W6_main_arg4 m c),
        (h c _ (Cert.KernelIdeal.Hand.mem_uc Cert.KernelIdeal.main_arg5 (by decide))).trans (Cert.KernelIdeal.Hand.W6_main_arg5 m c),
        (h c _ (Cert.KernelIdeal.Hand.mem_uc Cert.KernelIdeal.main_arg6 (by decide))).trans (Cert.KernelIdeal.Hand.W6_main_arg6 m c),
        (h c _ (Cert.KernelIdeal.Hand.mem_uc Cert.KernelIdeal.main_arg7 (by decide))).trans (Cert.KernelIdeal.Hand.W6_main_arg7 m c),
        (h c _ (Cert.KernelIdeal.Hand.mem_uc Cert.KernelIdeal.main_arg8 (by decide))).trans (Cert.KernelIdeal.Hand.W6_main_arg8 m c),
        (h c _ (Cert.KernelIdeal.Hand.mem_uc Cert.KernelIdeal.main_arg9 (by decide))).trans (Cert.KernelIdeal.Hand.W6_main_arg9 m c),
        (h c _ (Cert.KernelIdeal.Hand.mem_uc Cert.KernelIdeal.main_arg10 (by decide))).trans (Cert.KernelIdeal.Hand.W6_main_arg10 m c),
        (h c _ (Cert.KernelIdeal.Hand.mem_uc Cert.KernelIdeal.main_arg11 (by decide))).trans (Cert.KernelIdeal.Hand.W6_main_arg11 m c),
        (h c _ (Cert.KernelIdeal.Hand.mem_uc Cert.KernelIdeal.main_arg12 (by decide))).trans (Cert.KernelIdeal.Hand.W6_main_arg12 m c),
        (h c _ (Cert.KernelIdeal.Hand.mem_uc Cert.KernelIdeal.main_arg13 (by decide))).trans (Cert.KernelIdeal.Hand.W6_main_arg13 m c),
        (h c _ (Cert.KernelIdeal.Hand.mem_uc Cert.KernelIdeal.main_arg14 (by decide))).trans (Cert.KernelIdeal.Hand.W6_main_arg14 m c),
        (h c _ (Cert.KernelIdeal.Hand.mem_uc Cert.KernelIdeal.main_arg15 (by decide))).trans (Cert.KernelIdeal.Hand.W6_main_arg15 m c),
        (h c _ (Cert.KernelIdeal.Hand.mem_uc Cert.KernelIdeal.main_arg16 (by decide))).trans (Cert.KernelIdeal.Hand.W6_main_arg16 m c),
        (h c _ (Cert.KernelIdeal.Hand.mem_uc Cert.KernelIdeal.main_arg17 (by decide))).trans (Cert.KernelIdeal.Hand.W6_main_arg17 m c),
        (h c _ (Cert.KernelIdeal.Hand.mem_uc Cert.KernelIdeal.main_arg18 (by decide))).trans (Cert.KernelIdeal.Hand.W6_main_arg18 m c),
        (h c _ (Cert.KernelIdeal.Hand.mem_uc Cert.KernelIdeal.main_arg19 (by decide))).trans (Cert.KernelIdeal.Hand.W6_main_arg19 m c),
        (h c _ (Cert.KernelIdeal.Hand.mem_uc Cert.KernelIdeal.main_arg20 (by decide))).trans (Cert.KernelIdeal.Hand.W6_main_arg20 m c),
        (h c _ (Cert.KernelIdeal.Hand.mem_uc Cert.KernelIdeal.main_arg21 (by decide))).trans (Cert.KernelIdeal.Hand.W6_main_arg21 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    have hin : Cert.ReferenceIdeal.RefValue.inputs m' c = Cert.KernelIdeal.Hand.inputs m c := by
      obtain ⟨h0, h1, h2, h3, h4, h5, h6, h7, h8, h9, h10, h11, h12, h13, h14, h15, h16, h17, h18, h19, h20, h21⟩ := hagree c
      unfold Cert.ReferenceIdeal.RefValue.inputs Cert.KernelIdeal.Hand.inputs
      rw [Cert.Spec.Inputs.mk.injEq]
      exact ⟨h0, h1, h2, h3, h4, h5, h6, h7, h8, h9, h10, h11, h12, h13, h14, h15, h16, h17, h18, h19, h20, h21⟩
    exact (Cert.ReferenceIdeal.RefValue.result_eq m' c).trans (by rw [hin, agg_eq])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
